-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S3x64x64 : Shape := ⟨3, ![3, 64, 64]⟩
abbrev S3x1x64 : Shape := ⟨3, ![3, 1, 64]⟩
abbrev S1600000 : Shape := ⟨1, ![1600000]⟩
abbrev S4096 : Shape := ⟨1, ![4096]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x1x64 : S_.BroadcastsInDim S3x1x64 (![] : Fin 0 → Fin S3x1x64.rank)
  reducesTo_S3x1x64_S_d0_1_2 : S3x1x64.ReducesTo [0, 1, 2] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S3x64x64 .f32) (main_arg5 : FVec F S3x1x64 .f32) (main_arg6 : FVec F S1600000 .f32) (main_v13 : IVec S_ 1) (main_v16 : IVec S3x1x64 1) : IVec S_ 1 :=
  let main_c_5 : IVec S_ 1 := constantI S_ 1 1#1
  let main_v17 : IVec S_ 1 := (fun x v => Host.reduce IntOp.andi x v reducesTo_S3x1x64_S_d0_1_2 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x1x64 .f32 := Host.absf main_arg5
  let main_cst_8 : FVec F S_ .f32 := constant S_ .f32 0x7F800000#32
  let main_v25 : FVec F S3x1x64 .f32 := broadcastInDim S3x1x64 ![] bcast_S_S3x1x64 main_cst_8
  let main_v26 : IVec S3x1x64 1 := cmpf .olt main_v24 main_v25
  let main_c_9 : IVec S_ 1 := constantI S_ 1 1#1
  let main_v27 : IVec S_ 1 := (fun x v => Host.reduce IntOp.andi x v reducesTo_S3x1x64_S_d0_1_2 h_S_) main_v26 main_c_9
  let main_v28 : IVec S_ 1 := andi main_v23 main_v27
  let main_v29 : FVec F S1600000 .f32 := Host.absf main_arg6
  let main_cst_10 : FVec F S_ .f32 := constant S_ .f32 0x7F800000#32
  let main_v30 : FVec F S1600000 .f32 := broadcastInDim S1600000 ![] bcast_S_S1600000 main_cst_10
  let main_v31 : IVec S1600000 1 := cmpf .olt main_v29 main_v30
  let main_c_11 : IVec S_ 1 := constantI S_ 1 1#1
  let main_v32 : IVec S_ 1 := (fun x v => Host.reduce IntOp.andi x v reducesTo_S1600000_S_d0 h_S_) main_v31 main_c_11
  let main_v33 : IVec S_ 1 := andi main_v28 main_v32
  main_v33

def fn {F : FTy → Type} [FloatOps F] (main_arg0 : FVec F S50000x64 .f32) (main_arg1 : FVec F S50000x64 .f32) (main_arg2 : FVec F S3x64x64 .f32) (main_arg3 : FVec F S3x1x64 .f32) (main_arg4 : FVec F S3x64x64 .f32) (main_arg5 : FVec F S3x1x64 .f32) (main_arg6 : FVec F S1600000 .f32) (main_arg7 : IVec S1600000 32) (main_arg8 : IVec S1600000 32) (main_arg9 : IVec S4096 32) (main_arg10 : IVec S4096 32) (main_arg11 : IVec S4096 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x1x64 .f32 := Host.absf main_arg3
  let main_cst_4 : FVec F S_ .f32 := constant S_ .f32 0x7F800000#32
  let main_v15 : FVec F S3x1x64 .f32 := broadcastInDim S3x1x64 ![] bcast_S_S3x1x64 main_cst_4
  let main_v16 : IVec S3x1x64 1 := cmpf .olt main_v14 main_v15
  fn_part1 (F := F) main_arg4 main_arg5 main_arg6 main_v13 main_v16
-- ==== Kernel.lean ====
abbrev S50000x64 : Shape := ⟨2, ![50000, 64]⟩
abbrev S3x64x64 : Shape := ⟨3, ![3, 64, 64]⟩
abbrev S3x1x64 : Shape := ⟨3, ![3, 1, 64]⟩
abbrev S1600000 : Shape := ⟨1, ![1600000]⟩
abbrev S4096 : Shape := ⟨1, ![4096]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S100000x256 : Shape := ⟨2, ![100000, 256]⟩
abbrev S50000x256 : Shape := ⟨2, ![50000, 256]⟩
abbrev S4096x1 : Shape := ⟨2, ![4096, 1]⟩
abbrev S4096x256 : Shape := ⟨2, ![4096, 256]⟩

abbrev nBuf : Space → Nat
  | .hbm => 171
  | .vmem => 36
  | .smem => 0
  | _ => 0

abbrev hbmTy0_0 (i : Nat) : BufTy := match i % 128 with
  | 0 => ⟨S50000x64, .f32⟩
  | 1 => ⟨S50000x64, .f32⟩
  | 2 => ⟨S3x64x64, .f32⟩
  | 3 => ⟨S3x1x64, .f32⟩
  | 4 => ⟨S3x64x64, .f32⟩
  | 5 => ⟨S3x1x64, .f32⟩
  | 6 => ⟨S1600000, .f32⟩
  | 7 => ⟨S1600000, .i32⟩
  | 8 => ⟨S1600000, .i32⟩
  | 9 => ⟨S4096, .i32⟩
  | 10 => ⟨S4096, .i32⟩
  | 11 => ⟨S4096, .i32⟩
  | 12 => ⟨S100000x64, .f32⟩
  | 13 => ⟨S1600000x1, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S1600000x64, .f32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S1x64x64, .f32⟩
  | 30 => ⟨S64x64, .f32⟩
  | 31 => ⟨S1x1x64, .f32⟩
  | 32 => ⟨S1x64, .f32⟩
  | 33 => ⟨S1x64x64, .f32⟩
  | 34 => ⟨S64x64, .f32⟩
  | 35 => ⟨S1x1x64, .f32⟩
  | 36 => ⟨S1x64, .f32⟩
  | 37 => ⟨S100000x64, .f32⟩
  | 38 => ⟨S100000x64, .f32⟩
  | 39 => ⟨S1600000x1, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .f32⟩
  | 49 => ⟨S1600000x64, .f32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S1x64x64, .f32⟩
  | 56 => ⟨S64x64, .f32⟩
  | 57 => ⟨S1x1x64, .f32⟩
  | 58 => ⟨S1x64, .f32⟩
  | 59 => ⟨S1x64x64, .f32⟩
  | 60 => ⟨S64x64, .f32⟩
  | 61 => ⟨S1x1x64, .f32⟩
  | 62 => ⟨S1x64, .f32⟩
  | 63 => ⟨S100000x64, .f32⟩
  | 64 => ⟨S100000x64, .f32⟩
  | 65 => ⟨S1600000x1, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S1600000x64, .f32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S1x64x64, .f32⟩
  | 82 => ⟨S64x64, .f32⟩
  | 83 => ⟨S1x1x64, .f32⟩
  | 84 => ⟨S1x64, .f32⟩
  | 85 => ⟨S1x64x64, .f32⟩
  | 86 => ⟨S64x64, .f32⟩
  | 87 => ⟨S1x1x64, .f32⟩
  | 88 => ⟨S1x64, .f32⟩
  | 89 => ⟨S100000x64, .f32⟩
  | 90 => ⟨S100000x64, .f32⟩
  | 91 => ⟨S100000x256, .f32⟩
  | 92 => ⟨S50000x256, .f32⟩
  | 93 => ⟨S50000x256, .f32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S4096x256, .f32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S4096x256, .f32⟩
  | 112 => ⟨S_, .i32⟩
  | 113 => ⟨S4096, .i32⟩
  | 114 => ⟨S4096, .i1⟩
  | 115 => ⟨S_, .i32⟩
  | 116 => ⟨S4096, .i32⟩
  | 117 => ⟨S4096, .i32⟩
  | 118 => ⟨S4096, .i32⟩
  | 119 => ⟨S4096x1, .i32⟩
  | 120 => ⟨S4096x256, .f32⟩
  | 121 => ⟨S4096x256, .f32⟩
  | 122 => ⟨S_, .f32⟩
  | 123 => ⟨S4096, .f32⟩
  | 124 => ⟨S4096x256, .f32⟩
  | 125 => ⟨S_, .f32⟩
  | 126 => ⟨S4096, .f32⟩
  | 127 => ⟨S4096, .f32⟩
  | _ => ⟨S50000x64, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S4096, .f32⟩
  | 5 => ⟨S4096, .f32⟩
  | 6 => ⟨S4096, .i1⟩
  | 7 => ⟨S4096, .f32⟩
  | 8 => ⟨S4096, .f32⟩
  | 9 => ⟨S4096, .f32⟩
  | 10 => ⟨S4096, .f32⟩
  | 11 => ⟨S4096, .f32⟩
  | 12 => ⟨S4096, .f32⟩
  | 13 => ⟨S4096, .f32⟩
  | 14 => ⟨S4096, .f32⟩
  | 15 => ⟨S4096, .f32⟩
  | 16 => ⟨S_, .f32⟩
  | 17 => ⟨S_, .f32⟩
  | 18 => ⟨S_, .f32⟩
  | 19 => ⟨S_, .f32⟩
  | 20 => ⟨S_, .f32⟩
  | 21 => ⟨S4096x256, .f32⟩
  | 22 => ⟨S_, .f32⟩
  | 23 => ⟨S_, .f32⟩
  | 24 => ⟨S_, .f32⟩
  | 25 => ⟨S_, .f32⟩
  | 26 => ⟨S4096x256, .f32⟩
  | 27 => ⟨S_, .f32⟩
  | 28 => ⟨S_, .f32⟩
  | 29 => ⟨S_, .f32⟩
  | 30 => ⟨S_, .f32⟩
  | 31 => ⟨S_, .f32⟩
  | 32 => ⟨S4096x256, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v45 : Ref sig .tc := ⟨.hbm, 65, rfl⟩
abbrev main_c_4 : Ref sig .tc := ⟨.hbm, 66, rfl⟩
abbrev main_v46 : Ref sig .tc := ⟨.hbm, 67, rfl⟩
abbrev main_v47 : Ref sig .tc := ⟨.hbm, 68, rfl⟩
abbrev main_c_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66_0 : Ref sig .tc := ⟨.hbm, 89, rfl⟩
abbrev main_v66_1 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_7 : Ref sig .tc := ⟨.hbm, 94, rfl⟩
abbrev main_v70 : Ref sig .tc := ⟨.hbm, 95, rfl⟩
abbrev main_v71 : Ref sig .tc := ⟨.hbm, 96, rfl⟩
abbrev main_c_8 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_9 : Ref sig .tc := ⟨.hbm, 103, rfl⟩
abbrev main_v77 : Ref sig .tc := ⟨.hbm, 104, rfl⟩
abbrev main_v78 : Ref sig .tc := ⟨.hbm, 105, rfl⟩
abbrev main_c_10 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_11 : Ref sig .tc := ⟨.hbm, 112, rfl⟩
abbrev main_v84 : Ref sig .tc := ⟨.hbm, 113, rfl⟩
abbrev main_v85 : Ref sig .tc := ⟨.hbm, 114, rfl⟩
abbrev main_c_12 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_13 : Ref sig .tc := ⟨.hbm, 122, rfl⟩
abbrev main_v92 : Ref sig .tc := ⟨.hbm, 123, rfl⟩
abbrev main_v93 : Ref sig .tc := ⟨.hbm, 124, rfl⟩
abbrev main_cst_14 : Ref sig .tc := ⟨.hbm, 125, rfl⟩
abbrev main_v94 : Ref sig .tc := ⟨.hbm, 126, rfl⟩
abbrev main_v95 : Ref sig .tc := ⟨.hbm, 127, rfl⟩
abbrev main_call0_v0 : Ref sig .tc := ⟨.hbm, 128, rfl⟩
abbrev main_call0_call0_cst : Ref sig .tc := ⟨.hbm, 129, rfl⟩
abbrev main_call0_call0_v0 : Ref sig .tc := ⟨.hbm, 130, rfl⟩
abbrev main_call0_call0_v1 : Ref sig .tc := ⟨.hbm, 131, rfl⟩
abbrev main_call0_call0_v2 : Ref sig .tc := ⟨.hbm, 132, rfl⟩
abbrev main_call0_call0_v3 : Ref sig .tc := ⟨.hbm, 133, rfl⟩
abbrev main_call0_call0_v4 : Ref sig .tc := ⟨.hbm, 134, rfl⟩
abbrev main_call0_call0_v5 : Ref sig .tc := ⟨.hbm, 135, rfl⟩
abbrev main_call0_call0_v6 : Ref sig .tc := ⟨.hbm, 136, rfl⟩
abbrev main_call0_call0_v7 : Ref sig .tc := ⟨.hbm, 137, rfl⟩
abbrev main_call0_call0_v8 : Ref sig .tc := ⟨.hbm, 138, rfl⟩
abbrev main_call0_call0_v9 : Ref sig .tc := ⟨.hbm, 139, rfl⟩
abbrev main_call0_call0_v10 : Ref sig .tc := ⟨.hbm, 140, rfl⟩
abbrev main_call0_call0_v11 : Ref sig .tc := ⟨.hbm, 141, rfl⟩
abbrev main_call0_v1 : Ref sig .tc := ⟨.hbm, 142, rfl⟩
abbrev main_v96 : Ref sig .tc := ⟨.hbm, 143, rfl⟩
abbrev main_cst_15 : Ref sig .tc := ⟨.hbm, 144, rfl⟩
abbrev main_v97 : Ref sig .tc := ⟨.hbm, 145, rfl⟩
abbrev main_cst_16 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_17 : Ref sig .tc := ⟨.hbm, 150, rfl⟩
abbrev main_v101 : Ref sig .tc := ⟨.hbm, 151, rfl⟩
abbrev main_cst_18 : Ref sig .tc := ⟨.hbm, 152, rfl⟩
abbrev main_v102 : Ref sig .tc := ⟨.hbm, 153, rfl⟩
abbrev main_v103 : Ref sig .tc := ⟨.hbm, 154, rfl⟩
abbrev main_cst_19 : Ref sig .tc := ⟨.hbm, 155, rfl⟩
abbrev main_v104 : Ref sig .tc := ⟨.hbm, 156, rfl⟩
abbrev main_cst_20 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_21 : Ref sig .tc := ⟨.hbm, 161, rfl⟩
abbrev main_v108 : Ref sig .tc := ⟨.hbm, 162, rfl⟩
abbrev main_cst_22 : Ref sig .tc := ⟨.hbm, 163, rfl⟩
abbrev main_v109 : Ref sig .tc := ⟨.hbm, 164, rfl⟩
abbrev main_v110 : Ref sig .tc := ⟨.hbm, 165, rfl⟩
abbrev main_cst_23 : Ref sig .tc := ⟨.hbm, 166, rfl⟩
abbrev main_v111 : Ref sig .tc := ⟨.hbm, 167, rfl⟩
abbrev main_cst_24 : Ref sig .tc := ⟨.hbm, 168, rfl⟩
abbrev main_v112 : Ref sig .tc := ⟨.hbm, 169, rfl⟩
abbrev main_v113 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  concatenates_S50000x64_S50000x64_S100000x64_d0 : Shape.Concatenates [S50000x64, S50000x64] S100000x64 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S100000x64_S100000x64_S100000x64_S100000x64_S100000x256_d1 : Shape.Concatenates [S100000x64, S100000x64, S100000x64, S100000x64] S100000x256 1
  slices_S100000x256_S50000x256_0_0 : S100000x256.Slices ![0, 0] S50000x256
  slices_S100000x256_S50000x256_50000_0 : S100000x256.Slices ![50000, 0] S50000x256
  bcast_S_S4096 : S_.BroadcastsInDim S4096 (![] : Fin 0 → Fin S4096.rank)
  bcast_S4096_S4096x1_0 : S4096.BroadcastsInDim S4096x1 (![0] : Fin 1 → Fin S4096x1.rank)
  reducesTo_S4096x256_S4096_d1 : S4096x256.ReducesTo [1] S4096
  h_S_ : 0 < S_.numel
  reducesTo_S4096_S_d0 : S4096.ReducesTo [0] S_
  reducesTo_S4096x256_S_d0_1 : S4096x256.ReducesTo [0, 1] S_
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  gather_S50000x256_S4096x1_S4096x256_1_0_n_n_0_1_1256_wf : GatherDims.WF S50000x256 S4096x1 S4096x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v22_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v44_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v44_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v66_1) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S3x64x64 : Shape := ⟨3, ![3, 64, 64]⟩
abbrev S3x1x64 : Shape := ⟨3, ![3, 1, 64]⟩
abbrev S1600000 : Shape := ⟨1, ![1600000]⟩
abbrev S4096 : Shape := ⟨1, ![4096]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S100000 : Shape := ⟨1, ![100000]⟩
abbrev S100000x1 : Shape := ⟨2, ![100000, 1]⟩
abbrev S100000x256 : Shape := ⟨2, ![100000, 256]⟩
abbrev S50000x256 : Shape := ⟨2, ![50000, 256]⟩
abbrev S4096x1 : Shape := ⟨2, ![4096, 1]⟩
abbrev S4096x256 : Shape := ⟨2, ![4096, 256]⟩

abbrev nBuf : Space → Nat
  | .hbm => 246
  | .vmem => 0
  | .smem => 0
  | _ => 0

abbrev hbmTy0_0 (i : Nat) : BufTy := match i % 128 with
  | 0 => ⟨S50000x64, .f32⟩
  | 1 => ⟨S50000x64, .f32⟩
  | 2 => ⟨S3x64x64, .f32⟩
  | 3 => ⟨S3x1x64, .f32⟩
  | 4 => ⟨S3x64x64, .f32⟩
  | 5 => ⟨S3x1x64, .f32⟩
  | 6 => ⟨S1600000, .f32⟩
  | 7 => ⟨S1600000, .i32⟩
  | 8 => ⟨S1600000, .i32⟩
  | 9 => ⟨S4096, .i32⟩
  | 10 => ⟨S4096, .i32⟩
  | 11 => ⟨S4096, .i32⟩
  | 12 => ⟨S100000x64, .f32⟩
  | 13 => ⟨S1600000x1, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S1600000x64, .f32⟩
  | 24 => ⟨S1600000x64, .f32⟩
  | 25 => ⟨S_, .f32⟩
  | 26 => ⟨S100000x64, .f32⟩
  | 27 => ⟨S1600000x1, .i32⟩
  | 28 => ⟨S100000x64, .f32⟩
  | 29 => ⟨S100000x64, .f32⟩
  | 30 => ⟨S1x64x64, .f32⟩
  | 31 => ⟨S64x64, .f32⟩
  | 32 => ⟨S100000x64, .f32⟩
  | 33 => ⟨S1x1x64, .f32⟩
  | 34 => ⟨S1x64, .f32⟩
  | 35 => ⟨S100000x64, .f32⟩
  | 36 => ⟨S100000x64, .f32⟩
  | 37 => ⟨S100000x64, .f32⟩
  | 38 => ⟨S1x64x64, .f32⟩
  | 39 => ⟨S64x64, .f32⟩
  | 40 => ⟨S100000x64, .f32⟩
  | 41 => ⟨S1x1x64, .f32⟩
  | 42 => ⟨S1x64, .f32⟩
  | 43 => ⟨S100000x64, .f32⟩
  | 44 => ⟨S100000x64, .f32⟩
  | 45 => ⟨S100000x64, .f32⟩
  | 46 => ⟨S_, .f32⟩
  | 47 => ⟨S_, .f32⟩
  | 48 => ⟨S100000x64, .f32⟩
  | 49 => ⟨S100000x64, .i1⟩
  | 50 => ⟨S_, .f32⟩
  | 51 => ⟨S100000x64, .f32⟩
  | 52 => ⟨S100000x64, .f32⟩
  | 53 => ⟨S100000x64, .f32⟩
  | 54 => ⟨S100000x64, .f32⟩
  | 55 => ⟨S_, .f32⟩
  | 56 => ⟨S100000, .f32⟩
  | 57 => ⟨S100000x1, .f32⟩
  | 58 => ⟨S100000x1, .f32⟩
  | 59 => ⟨S_, .f32⟩
  | 60 => ⟨S100000x1, .f32⟩
  | 61 => ⟨S100000x1, .f32⟩
  | 62 => ⟨S100000x64, .f32⟩
  | 63 => ⟨S100000x64, .f32⟩
  | 64 => ⟨S1600000x1, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x64, .f32⟩
  | 74 => ⟨S1600000x64, .f32⟩
  | 75 => ⟨S1600000x64, .f32⟩
  | 76 => ⟨S_, .f32⟩
  | 77 => ⟨S100000x64, .f32⟩
  | 78 => ⟨S1600000x1, .i32⟩
  | 79 => ⟨S100000x64, .f32⟩
  | 80 => ⟨S100000x64, .f32⟩
  | 81 => ⟨S1x64x64, .f32⟩
  | 82 => ⟨S64x64, .f32⟩
  | 83 => ⟨S100000x64, .f32⟩
  | 84 => ⟨S1x1x64, .f32⟩
  | 85 => ⟨S1x64, .f32⟩
  | 86 => ⟨S100000x64, .f32⟩
  | 87 => ⟨S100000x64, .f32⟩
  | 88 => ⟨S100000x64, .f32⟩
  | 89 => ⟨S1x64x64, .f32⟩
  | 90 => ⟨S64x64, .f32⟩
  | 91 => ⟨S100000x64, .f32⟩
  | 92 => ⟨S1x1x64, .f32⟩
  | 93 => ⟨S1x64, .f32⟩
  | 94 => ⟨S100000x64, .f32⟩
  | 95 => ⟨S100000x64, .f32⟩
  | 96 => ⟨S100000x64, .f32⟩
  | 97 => ⟨S_, .f32⟩
  | 98 => ⟨S_, .f32⟩
  | 99 => ⟨S100000x64, .f32⟩
  | 100 => ⟨S100000x64, .i1⟩
  | 101 => ⟨S_, .f32⟩
  | 102 => ⟨S100000x64, .f32⟩
  | 103 => ⟨S100000x64, .f32⟩
  | 104 => ⟨S100000x64, .f32⟩
  | 105 => ⟨S100000x64, .f32⟩
  | 106 => ⟨S_, .f32⟩
  | 107 => ⟨S100000, .f32⟩
  | 108 => ⟨S100000x1, .f32⟩
  | 109 => ⟨S100000x1, .f32⟩
  | 110 => ⟨S_, .f32⟩
  | 111 => ⟨S100000x1, .f32⟩
  | 112 => ⟨S100000x1, .f32⟩
  | 113 => ⟨S100000x64, .f32⟩
  | 114 => ⟨S100000x64, .f32⟩
  | 115 => ⟨S1600000x1, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S1600000x64, .f32⟩
  | 126 => ⟨S1600000x64, .f32⟩
  | 127 => ⟨S_, .f32⟩
  | _ => ⟨S50000x64, .f32⟩

abbrev hbmTy0_1 (i : Nat) : BufTy := match i % 128 with
  | 0 => ⟨S100000x64, .f32⟩
  | 1 => ⟨S1600000x1, .i32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S1x1x64, .f32⟩
  | 8 => ⟨S1x64, .f32⟩
  | 9 => ⟨S100000x64, .f32⟩
  | 10 => ⟨S100000x64, .f32⟩
  | 11 => ⟨S100000x64, .f32⟩
  | 12 => ⟨S1x64x64, .f32⟩
  | 13 => ⟨S64x64, .f32⟩
  | 14 => ⟨S100000x64, .f32⟩
  | 15 => ⟨S1x1x64, .f32⟩
  | 16 => ⟨S1x64, .f32⟩
  | 17 => ⟨S100000x64, .f32⟩
  | 18 => ⟨S100000x64, .f32⟩
  | 19 => ⟨S100000x64, .f32⟩
  | 20 => ⟨S_, .f32⟩
  | 21 => ⟨S_, .f32⟩
  | 22 => ⟨S100000x64, .f32⟩
  | 23 => ⟨S100000x64, .i1⟩
  | 24 => ⟨S_, .f32⟩
  | 25 => ⟨S100000x64, .f32⟩
  | 26 => ⟨S100000x64, .f32⟩
  | 27 => ⟨S100000x64, .f32⟩
  | 28 => ⟨S100000x64, .f32⟩
  | 29 => ⟨S_, .f32⟩
  | 30 => ⟨S100000, .f32⟩
  | 31 => ⟨S100000x1, .f32⟩
  | 32 => ⟨S100000x1, .f32⟩
  | 33 => ⟨S_, .f32⟩
  | 34 => ⟨S100000x1, .f32⟩
  | 35 => ⟨S100000x1, .f32⟩
  | 36 => ⟨S100000x64, .f32⟩
  | 37 => ⟨S100000x64, .f32⟩
  | 38 => ⟨S100000x256, .f32⟩
  | 39 => ⟨S50000x256, .f32⟩
  | 40 => ⟨S50000x256, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S4096x256, .f32⟩
  | 50 => ⟨S_, .i32⟩
  | 51 => ⟨S4096, .i32⟩
  | 52 => ⟨S4096, .i1⟩
  | 53 => ⟨S_, .i32⟩
  | 54 => ⟨S4096, .i32⟩
  | 55 => ⟨S4096, .i32⟩
  | 56 => ⟨S4096, .i32⟩
  | 57 => ⟨S4096x1, .i32⟩
  | 58 => ⟨S4096x256, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096x256, .f32⟩
  | 68 => ⟨S4096x256, .f32⟩
  | 69 => ⟨S_, .f32⟩
  | 70 => ⟨S4096, .f32⟩
  | 71 => ⟨S4096x256, .f32⟩
  | 72 => ⟨S_, .f32⟩
  | 73 => ⟨S4096, .f32⟩
  | 74 => ⟨S4096, .f32⟩
  | 75 => ⟨S4096, .f32⟩
  | 76 => ⟨S_, .f32⟩
  | 77 => ⟨S4096, .f32⟩
  | 78 => ⟨S4096, .f32⟩
  | 79 => ⟨S4096, .f32⟩
  | 80 => ⟨S4096, .f32⟩
  | 81 => ⟨S4096, .i1⟩
  | 82 => ⟨S4096, .f32⟩
  | 83 => ⟨S4096, .f32⟩
  | 84 => ⟨S4096, .f32⟩
  | 85 => ⟨S4096, .f32⟩
  | 86 => ⟨S4096, .f32⟩
  | 87 => ⟨S4096, .f32⟩
  | 88 => ⟨S4096, .f32⟩
  | 89 => ⟨S4096, .f32⟩
  | 90 => ⟨S4096, .f32⟩
  | 91 => ⟨S_, .f32⟩
  | 92 => ⟨S_, .f32⟩
  | 93 => ⟨S_, .f32⟩
  | 94 => ⟨S_, .f32⟩
  | 95 => ⟨S_, .f32⟩
  | 96 => ⟨S4096x256, .f32⟩
  | 97 => ⟨S_, .f32⟩
  | 98 => ⟨S_, .f32⟩
  | 99 => ⟨S_, .f32⟩
  | 100 => ⟨S_, .f32⟩
  | 101 => ⟨S4096x256, .f32⟩
  | 102 => ⟨S_, .f32⟩
  | 103 => ⟨S_, .f32⟩
  | 104 => ⟨S_, .f32⟩
  | 105 => ⟨S_, .f32⟩
  | 106 => ⟨S_, .f32⟩
  | 107 => ⟨S4096x256, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v31 : Ref sig .tc := ⟨.hbm, 53, rfl⟩
abbrev main_call1_v0 : Ref sig .tc := ⟨.hbm, 54, rfl⟩
abbrev main_call1_cst : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_cst_2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_3 : Ref sig .tc := ⟨.hbm, 65, rfl⟩
abbrev main_v38 : Ref sig .tc := ⟨.hbm, 66, rfl⟩
abbrev main_v39 : Ref sig .tc := ⟨.hbm, 67, rfl⟩
abbrev main_c_4 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_6 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_v67 : Ref sig .tc := ⟨.hbm, 104, rfl⟩
abbrev main_call3_v0 : Ref sig .tc := ⟨.hbm, 105, rfl⟩
abbrev main_call3_cst : Ref sig .tc := ⟨.hbm, 106, rfl⟩
abbrev main_call3_v1 : Ref sig .tc := ⟨.hbm, 107, rfl⟩
abbrev main_call3_v2 : Ref sig .tc := ⟨.hbm, 108, rfl⟩
abbrev main_v68 : Ref sig .tc := ⟨.hbm, 109, rfl⟩
abbrev main_cst_7 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_8 : Ref sig .tc := ⟨.hbm, 116, rfl⟩
abbrev main_v74 : Ref sig .tc := ⟨.hbm, 117, rfl⟩
abbrev main_v75 : Ref sig .tc := ⟨.hbm, 118, rfl⟩
abbrev main_c_9 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_10 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_11 : Ref sig .tc := ⟨.hbm, 148, rfl⟩
abbrev main_call4_cst : Ref sig .tc := ⟨.hbm, 149, rfl⟩
abbrev main_call4_v0 : Ref sig .tc := ⟨.hbm, 150, rfl⟩
abbrev main_call4_v1 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_v103 : Ref sig .tc := ⟨.hbm, 155, rfl⟩
abbrev main_call5_v0 : Ref sig .tc := ⟨.hbm, 156, rfl⟩
abbrev main_call5_cst : Ref sig .tc := ⟨.hbm, 157, rfl⟩
abbrev main_call5_v1 : Ref sig .tc := ⟨.hbm, 158, rfl⟩
abbrev main_call5_v2 : Ref sig .tc := ⟨.hbm, 159, rfl⟩
abbrev main_v104 : Ref sig .tc := ⟨.hbm, 160, rfl⟩
abbrev main_cst_12 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_c_13 : Ref sig .tc := ⟨.hbm, 169, rfl⟩
abbrev main_v112 : Ref sig .tc := ⟨.hbm, 170, rfl⟩
abbrev main_v113 : Ref sig .tc := ⟨.hbm, 171, rfl⟩
abbrev main_c_14 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_c_15 : Ref sig .tc := ⟨.hbm, 178, rfl⟩
abbrev main_v119 : Ref sig .tc := ⟨.hbm, 179, rfl⟩
abbrev main_v120 : Ref sig .tc := ⟨.hbm, 180, rfl⟩
abbrev main_c_16 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_c_17 : Ref sig .tc := ⟨.hbm, 187, rfl⟩
abbrev main_v126 : Ref sig .tc := ⟨.hbm, 188, rfl⟩
abbrev main_v127 : Ref sig .tc := ⟨.hbm, 189, rfl⟩
abbrev main_c_18 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_19 : Ref sig .tc := ⟨.hbm, 197, rfl⟩
abbrev main_v134 : Ref sig .tc := ⟨.hbm, 198, rfl⟩
abbrev main_v135 : Ref sig .tc := ⟨.hbm, 199, rfl⟩
abbrev main_cst_20 : Ref sig .tc := ⟨.hbm, 200, rfl⟩
abbrev main_v136 : Ref sig .tc := ⟨.hbm, 201, rfl⟩
abbrev main_v137 : Ref sig .tc := ⟨.hbm, 202, rfl⟩
abbrev main_call6_v0 : Ref sig .tc := ⟨.hbm, 203, rfl⟩
abbrev main_call6_call0_cst : Ref sig .tc := ⟨.hbm, 204, rfl⟩
abbrev main_call6_call0_v0 : Ref sig .tc := ⟨.hbm, 205, rfl⟩
abbrev main_call6_call0_v1 : Ref sig .tc := ⟨.hbm, 206, rfl⟩
abbrev main_call6_call0_v2 : Ref sig .tc := ⟨.hbm, 207, rfl⟩
abbrev main_call6_call0_v3 : Ref sig .tc := ⟨.hbm, 208, rfl⟩
abbrev main_call6_call0_v4 : Ref sig .tc := ⟨.hbm, 209, rfl⟩
abbrev main_call6_call0_v5 : Ref sig .tc := ⟨.hbm, 210, rfl⟩
abbrev main_call6_call0_v6 : Ref sig .tc := ⟨.hbm, 211, rfl⟩
abbrev main_call6_call0_v7 : Ref sig .tc := ⟨.hbm, 212, rfl⟩
abbrev main_call6_call0_v8 : Ref sig .tc := ⟨.hbm, 213, rfl⟩
abbrev main_call6_call0_v9 : Ref sig .tc := ⟨.hbm, 214, rfl⟩
abbrev main_call6_call0_v10 : Ref sig .tc := ⟨.hbm, 215, rfl⟩
abbrev main_call6_call0_v11 : Ref sig .tc := ⟨.hbm, 216, rfl⟩
abbrev main_call6_v1 : Ref sig .tc := ⟨.hbm, 217, rfl⟩
abbrev main_v138 : Ref sig .tc := ⟨.hbm, 218, rfl⟩
abbrev main_cst_21 : Ref sig .tc := ⟨.hbm, 219, rfl⟩
abbrev main_v139 : Ref sig .tc := ⟨.hbm, 220, rfl⟩
abbrev main_cst_22 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_cst_23 : Ref sig .tc := ⟨.hbm, 225, rfl⟩
abbrev main_v143 : Ref sig .tc := ⟨.hbm, 226, rfl⟩
abbrev main_cst_24 : Ref sig .tc := ⟨.hbm, 227, rfl⟩
abbrev main_v144 : Ref sig .tc := ⟨.hbm, 228, rfl⟩
abbrev main_v145 : Ref sig .tc := ⟨.hbm, 229, rfl⟩
abbrev main_cst_25 : Ref sig .tc := ⟨.hbm, 230, rfl⟩
abbrev main_v146 : Ref sig .tc := ⟨.hbm, 231, rfl⟩
abbrev main_cst_26 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_cst_27 : Ref sig .tc := ⟨.hbm, 236, rfl⟩
abbrev main_v150 : Ref sig .tc := ⟨.hbm, 237, rfl⟩
abbrev main_cst_28 : Ref sig .tc := ⟨.hbm, 238, rfl⟩
abbrev main_v151 : Ref sig .tc := ⟨.hbm, 239, rfl⟩
abbrev main_v152 : Ref sig .tc := ⟨.hbm, 240, rfl⟩
abbrev main_cst_29 : Ref sig .tc := ⟨.hbm, 241, rfl⟩
abbrev main_v153 : Ref sig .tc := ⟨.hbm, 242, rfl⟩
abbrev main_cst_30 : Ref sig .tc := ⟨.hbm, 243, rfl⟩
abbrev main_v154 : Ref sig .tc := ⟨.hbm, 244, rfl⟩
abbrev main_v155 : Ref sig .tc := ⟨.hbm, 245, rfl⟩

abbrev nD : Nat := 1
abbrev τ : Topo := Topo.v7x

variable {F : FTy → Type} [FloatOps F]

class Facts₀ : Prop where
  concatenates_S50000x64_S50000x64_S100000x64_d0 : Shape.Concatenates [S50000x64, S50000x64] S100000x64 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S100000x64_S100000x64_S100000x64_S100000x64_S100000x256_d1 : Shape.Concatenates [S100000x64, S100000x64, S100000x64, S100000x64] S100000x256 1
  slices_S100000x256_S50000x256_0_0 : S100000x256.Slices ![0, 0] S50000x256
  slices_S100000x256_S50000x256_50000_0 : S100000x256.Slices ![50000, 0] S50000x256
  bcast_S_S4096 : S_.BroadcastsInDim S4096 (![] : Fin 0 → Fin S4096.rank)
  bcast_S4096_S4096x1_0 : S4096.BroadcastsInDim S4096x1 (![0] : Fin 1 → Fin S4096x1.rank)
  reducesTo_S4096x256_S4096_d1 : S4096x256.ReducesTo [1] S4096
  reducesTo_S4096_S_d0 : S4096.ReducesTo [0] S_
  reducesTo_S4096x256_S_d0_1 : S4096x256.ReducesTo [0, 1] S_
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S50000x256_S4096x1_S4096x256_1_0_n_n_0_1_1256_wf : GatherDims.WF S50000x256 S4096x1 S4096x256 [1] [0] [] [0] [] 1 ![1, 256]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf

class Facts : Prop extends Facts₀ where

variable [Facts]
-- ==== Proof.K.Region0.lean ====
/-
  Launch 0 of the layer kernel, at the contents `V` the TensorCore's buffers hold when it is entered: what a grid
  point's body leaves in the two result windows' staging buffers as a function of the six operand blocks — the new
  features (the leaky rectifier of the two biased products) and their rows scaled to unit length —, the body's
  triple run by the symbolic executor, the proof data of the pipeline over it, and the body obligation at every point.
  Every operand window is read only (its block stays in place); the two result windows are stored whole.
-/
import proofs.«117729_j22703197127156_1_alg».proof.Proof.Gen.Kernel.Launch
import proofs.«117729_j22703197127156_1_alg».proof.Proof.Gen.Kernel.Skeleton
import proofs.«117729_j22703197127156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand window 0's current staging buffer holds its block at every point, fetched there or not (unfetched, its
    block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand window 1's current staging buffer holds its block at every point, fetched there or not (unfetched, its
    block index has not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Operand window 2's current staging buffer holds its block at every point, fetched there or not (unfetched, its
    block index has not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Operand window 3's current staging buffer holds its block at every point, fetched there or not (unfetched, its
    block index has not moved), for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Operand window 4's current staging buffer holds its block at every point, fetched there or not (unfetched, its
    block index has not moved), for any proof data over `V` whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Operand window 5's current staging buffer holds its block at every point, fetched there or not (unfetched, its
    block index has not moved), for any proof data over `V` whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a row tile, of a weight matrix, of a bias row. -/
abbrev rA0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- The new features' staging buffer after the body, from the operand blocks: one whole store. -/
def out0_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA0, k0_pay2 (View.ld x0 rA0) (View.ld x1 rA0) (View.ld x2 rW0) (View.ld x4 rW0) (View.ld x3 rB0) (View.ld x5 rB0)⟩]

/-- The unit-length rows' staging buffer after the body, from the operand blocks: one whole store. -/
def out0_7 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA0, k0_pay1 (k0_pay2 (View.ld x0 rA0) (View.ld x1 rA0) (View.ld x2 rW0) (View.ld x4 rW0) (View.ld x3 rB0) (View.ld x5 rB0)) (k0_pay3 (View.ld x0 rA0) (View.ld x1 rA0) (View.ld x2 rW0) (View.ld x4 rW0) (View.ld x3 rB0) (View.ld x5 rB0))⟩]

/-- A whole store covers the buffer. -/
theorem cover0_6 (p0 : Vec F S5000x64 .f32) (y : S5000x64.Idx) :
    ∃ pc ∈ ([⟨rA0, p0⟩] : List (View.Piece (Elt F) S5000x64 .f32)), y ∈ pc.1.set :=
  View.cover_of_tiled [⟨rA0, p0⟩] S5000x64.size (by rfl) y
theorem cover0_7 (p0 : Vec F S5000x64 .f32) (y : S5000x64.Idx) :
    ∃ pc ∈ ([⟨rA0, p0⟩] : List (View.Piece (Elt F) S5000x64 .f32)), y ∈ pc.1.set :=
  View.cover_of_tiled [⟨rA0, p0⟩] S5000x64.size (by rfl) y

set_option maxHeartbeats 4000000 in
/-- The body on whole staging memrefs, the operands' at contents `xW` and the results' at anything, runs to the
    continuation holding the operands' as they were and each result's at `out0_W` of the operands'. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

/-- The proof data of pipeline 0 on core `c`: the arrays as the launch finds them; after the body at point `t` each
    operand's buffer at its block and each result's at `out0_W` of the operand blocks; the class-A invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point: the operands' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Launch 1 of the layer kernel, at the contents `V` the TensorCore's buffers hold when it is entered: what a grid
  point's body leaves in the two result windows' staging buffers as a function of the six operand blocks — the new
  features (the leaky rectifier of the two biased products) and their rows scaled to unit length —, the body's
  triple run by the symbolic executor, the proof data of the pipeline over it, and the body obligation at every point.
  Every operand window is read only (its block stays in place); the two result windows are stored whole.
-/
import proofs.«117729_j22703197127156_1_alg».proof.Proof.Gen.Kernel.Launch
import proofs.«117729_j22703197127156_1_alg».proof.Proof.Gen.Kernel.Skeleton
import proofs.«117729_j22703197127156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand window 0's current staging buffer holds its block at every point, fetched there or not (unfetched, its
    block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand window 1's current staging buffer holds its block at every point, fetched there or not (unfetched, its
    block index has not moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Operand window 2's current staging buffer holds its block at every point, fetched there or not (unfetched, its
    block index has not moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Operand window 3's current staging buffer holds its block at every point, fetched there or not (unfetched, its
    block index has not moved), for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Operand window 4's current staging buffer holds its block at every point, fetched there or not (unfetched, its
    block index has not moved), for any proof data over `V` whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Operand window 5's current staging buffer holds its block at every point, fetched there or not (unfetched, its
    block index has not moved), for any proof data over `V` whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of a row tile, of a weight matrix, of a bias row. -/
abbrev rA1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- The new features' staging buffer after the body, from the operand blocks: one whole store. -/
def out1_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA1, k1_pay2 (View.ld x0 rA1) (View.ld x1 rA1) (View.ld x2 rW1) (View.ld x4 rW1) (View.ld x3 rB1) (View.ld x5 rB1)⟩]

/-- The unit-length rows' staging buffer after the body, from the operand blocks: one whole store. -/
def out1_7 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA1, k1_pay1 (k1_pay2 (View.ld x0 rA1) (View.ld x1 rA1) (View.ld x2 rW1) (View.ld x4 rW1) (View.ld x3 rB1) (View.ld x5 rB1)) (k1_pay3 (View.ld x0 rA1) (View.ld x1 rA1) (View.ld x2 rW1) (View.ld x4 rW1) (View.ld x3 rB1) (View.ld x5 rB1))⟩]

/-- A whole store covers the buffer. -/
theorem cover1_6 (p0 : Vec F S5000x64 .f32) (y : S5000x64.Idx) :
    ∃ pc ∈ ([⟨rA1, p0⟩] : List (View.Piece (Elt F) S5000x64 .f32)), y ∈ pc.1.set :=
  View.cover_of_tiled [⟨rA1, p0⟩] S5000x64.size (by rfl) y
theorem cover1_7 (p0 : Vec F S5000x64 .f32) (y : S5000x64.Idx) :
    ∃ pc ∈ ([⟨rA1, p0⟩] : List (View.Piece (Elt F) S5000x64 .f32)), y ∈ pc.1.set :=
  View.cover_of_tiled [⟨rA1, p0⟩] S5000x64.size (by rfl) y

set_option maxHeartbeats 4000000 in
/-- The body on whole staging memrefs, the operands' at contents `xW` and the results' at anything, runs to the
    continuation holding the operands' as they were and each result's at `out1_W` of the operands'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_6 _)
  iexists _; isplitr
  swap; · iexact H7
  ipureintro
  try dsimp only
  exact View.read_writes_eq_canon _ _ _ (cover1_7 _)

/-- The proof data of pipeline 1 on core `c`: the arrays as the launch finds them; after the body at point `t` each
    operand's buffer at its block and each result's at `out1_W` of the operand blocks; the class-A invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: the operands' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Launch 2 of the layer kernel, at the contents `V` the TensorCore's buffers hold when it is entered: what a grid
  point's body leaves in the two result windows' staging buffers as a function of the six operand blocks — the new
  features (the leaky rectifier of the two biased products) and their rows scaled to unit length —, the body's
  triple run by the symbolic executor, the proof data of the pipeline over it, and the body obligation at every point.
  Every operand window is read only (its block stays in place); the two result windows are stored whole.
-/
import proofs.«117729_j22703197127156_1_alg».proof.Proof.Gen.Kernel.Launch
import proofs.«117729_j22703197127156_1_alg».proof.Proof.Gen.Kernel.Skeleton
import proofs.«117729_j22703197127156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Operand window 0's current staging buffer holds its block at every point, fetched there or not (unfetched, its
    block index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Operand window 1's current staging buffer holds its block at every point, fetched there or not (unfetched, its
    block index has not moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Operand window 2's current staging buffer holds its block at every point, fetched there or not (unfetched, its
    block index has not moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Operand window 3's current staging buffer holds its block at every point, fetched there or not (unfetched, its
    block index has not moved), for any proof data over `V` whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Operand window 4's current staging buffer holds its block at every point, fetched there or not (unfetched, its
    block index has not moved), for any proof data over `V` whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Operand window 5's current staging buffer holds its block at every point, fetched there or not (unfetched, its
    block index has not moved), for any proof data over `V` whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of a row tile, of a weight matrix, of a bias row. -/
abbrev rA2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-- The new features' staging buffer after the body, from the operand blocks: one whole store. -/
def out2_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA2, k2_pay2 (View.ld x0 rA2) (View.ld x1 rA2) (View.ld x2 rW2) (View.ld x4 rW2) (View.ld x3 rB2) (View.ld x5 rB2)⟩]

/-- The unit-length rows' staging buffer after the body, from the operand blocks: one whole store. -/
def out2_7 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA2, k2_pay1 (k2_pay2 (View.ld x0 rA2) (View.ld x1 rA2) (View.ld x2 rW2) (View.ld x4 rW2) (View.ld x3 rB2) (View.ld x5 rB2)) (k2_pay3 (View.ld x0 rA2) (View.ld x1 rA2) (View.ld x2 rW2) (View.ld x4 rW2) (View.ld x3 rB2) (View.ld x5 rB2))⟩]

/-- A whole store covers the buffer. -/
theorem cover2_6 (p0 : Vec F S5000x64 .f32) (y : S5000x64.Idx) :
    ∃ pc ∈ ([⟨rA2, p0⟩] : List (View.Piece (Elt F) S5000x64 .f32)), y ∈ pc.1.set :=
  View.cover_of_tiled [⟨rA2, p0⟩] S5000x64.size (by rfl) y
theorem cover2_7 (p0 : Vec F S5000x64 .f32) (y : S5000x64.Idx) :
    ∃ pc ∈ ([⟨rA2, p0⟩] : List (View.Piece (Elt F) S5000x64 .f32)), y ∈ pc.1.set :=
  View.cover_of_tiled [⟨rA2, p0⟩] S5000x64.size (by rfl) y

set_option maxHeartbeats 4000000 in
/-- The body on whole staging memrefs, the operands' at contents `xW` and the results' at anything, runs to the
    continuation holding the operands' as they were and each result's at `out2_W` of the operands'. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2_6 _)
  iexists _; isplitr
  swap; · iexact H7
  ipureintro
  try dsimp only
  exact View.read_writes_eq_canon _ _ _ (cover2_7 _)

/-- The proof data of pipeline 2 on core `c`: the arrays as the launch finds them; after the body at point `t` each
    operand's buffer at its block and each result's at `out2_W` of the operand blocks; the class-A invariant; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 2000000 in
/-- The body at any point: the operands' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.RunCond.lean ====
/-
  The run of the whole program through its three launches, conditional on one record per launch: the host stretches
  between the launches are followed buffer by buffer, each launch may change only its two result arrays, and the final
  memory is read at the scalar result and at the twelve argument arrays.
-/
import proofs.«117729_j22703197127156_1_alg».proof.Proof.Gen.Kernel.Regions

set_option maxRecDepth 1340

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The several-launch run, given the launches' records: every weakly fair execution of the whole program from memory `m`
    terminates, and in every final memory the scalar result holds what the last host stretch computes from the buffers'
    contents after the third launch, while each of the twelve argument arrays holds what it was launched with. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v113) = V9 m outs c main_v113
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, hpre2 c, hpost2 c, .rfl, .rfl, sep_mono .rfl (hE3 c)⟩)
    (hinit := ?_) (QY := fun c s => s.mem ((c.tc : Thread nD τ).loc main_v113) = V9 m outs c main_v113 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v113) (Finset.mem_filter.mpr ⟨StableHlo.devRef_mem_tcRefs main_v113, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c),
        (h (Proc.devRef .tc main_arg7) (Finset.mem_filter.mpr ⟨StableHlo.devRef_mem_tcRefs main_arg7, by decide⟩)).trans (V9_main_arg7 m outs c),
        (h (Proc.devRef .tc main_arg8) (Finset.mem_filter.mpr ⟨StableHlo.devRef_mem_tcRefs main_arg8, by decide⟩)).trans (V9_main_arg8 m outs c),
        (h (Proc.devRef .tc main_arg9) (Finset.mem_filter.mpr ⟨StableHlo.devRef_mem_tcRefs main_arg9, by decide⟩)).trans (V9_main_arg9 m outs c),
        (h (Proc.devRef .tc main_arg10) (Finset.mem_filter.mpr ⟨StableHlo.devRef_mem_tcRefs main_arg10, by decide⟩)).trans (V9_main_arg10 m outs c),
        (h (Proc.devRef .tc main_arg11) (Finset.mem_filter.mpr ⟨StableHlo.devRef_mem_tcRefs main_arg11, by decide⟩)).trans (V9_main_arg11 m outs c)⟩
    · iexact HSI

end Cert.Kernel.Hand

end
-- ==== Proof.K.Run.lean ====
/-
  The run of the whole program: the contents of the buffers between its items (three launches of the layer kernel among
  stretches of host operations), each launch's result arrays at what its pipeline's write-backs leave, the proof data of
  the three pipelines, each launch as a segment over the thread state, and the run itself — every weakly fair execution
  terminates, the scalar result ends at what the last host stretch computes, the argument arrays end unchanged.
-/
import proofs.«117729_j22703197127156_1_alg».proof.Proof.K.Region0
import proofs.«117729_j22703197127156_1_alg».proof.Proof.K.Region1
import proofs.«117729_j22703197127156_1_alg».proof.Proof.K.Region2
import proofs.«117729_j22703197127156_1_alg».proof.Proof.K.RunCond
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- The contents launch 0 is entered from, at the TensorCore's references. -/
abbrev VV1 : (c : Dev nD) → (b : Ref sig .tc) → Buf (Elt F) ((c : Thread nD τ).loc b) := fun c b => Gen.V1 m c b
/-- What launch 0 leaves: its arrays at what its pipeline's write-backs leave, every other buffer as entered. -/
def o2 (r : Ref sig .tc) (c : Dev nD) : Buf (Elt F) ((c : Thread nD τ).loc r) :=
  Pipeline.withArrays spec0 c (Gen.V1 m c) (fun w => (dat0 (VV1 m) c).arrAt w cfg0.N) r
abbrev outsA : Gen.Outs (F := F) := fun _ r c => o2 m r c
/-- The contents launch 1 is entered from. -/
abbrev VV3 : (c : Dev nD) → (b : Ref sig .tc) → Buf (Elt F) ((c : Thread nD τ).loc b) := fun c b => Gen.V3 m (outsA m) c b
def o4 (r : Ref sig .tc) (c : Dev nD) : Buf (Elt F) ((c : Thread nD τ).loc r) :=
  Pipeline.withArrays spec1 c (Gen.V3 m (outsA m) c) (fun w => (dat1 (VV3 m) c).arrAt w cfg1.N) r
def outsB : Gen.Outs (F := F) := fun J r c => match J with
  | 2 => o2 m r c
  | _ => o4 m r c
/-- The contents launch 2 is entered from. -/
abbrev VV5 : (c : Dev nD) → (b : Ref sig .tc) → Buf (Elt F) ((c : Thread nD τ).loc b) := fun c b => Gen.V5 m (outsB m) c b
def o6 (r : Ref sig .tc) (c : Dev nD) : Buf (Elt F) ((c : Thread nD τ).loc r) :=
  Pipeline.withArrays spec2 c (Gen.V5 m (outsB m) c) (fun w => (dat2 (VV5 m) c).arrAt w cfg2.N) r
/-- What the three launches leave in their result arrays. -/
def outs : Gen.Outs (F := F) := fun J r c => match J with
  | 2 => o2 m r c
  | 4 => o4 m r c
  | _ => o6 m r c

/-- The contents between the items read only the launches before them. -/
theorem V3_outs (c : Dev nD) : Gen.V3 m (outs m) c = Gen.V3 m (outsA m) c := rfl
theorem V5_outs (c : Dev nD) : Gen.V5 m (outs m) c = Gen.V5 m (outsB m) c := rfl

/-- A buffer that launch 1 does not write holds after it what it held at its entry. -/
theorem V4_in (c : Dev nD) (r : Ref sig .tc) (h : r ∉ ([main_v44_0, main_v44_1] : List (Ref sig .tc))) :
    Gen.V4 m (outs m) c r = Gen.V3 m (outsA m) c r :=
  (Gen.V4_of m (outs m) c r h).trans (congrFun (V3_outs m c) (Proc.devRef .tc r))
/-- A buffer that launch 2 does not write holds after it what it held at its entry. -/
theorem V6_in (c : Dev nD) (r : Ref sig .tc) (h : r ∉ ([main_v66_0, main_v66_1] : List (Ref sig .tc))) :
    Gen.V6 m (outs m) c r = Gen.V5 m (outsB m) c r :=
  (Gen.V6_of m (outs m) c r h).trans (congrFun (V5_outs m c) (Proc.devRef .tc r))

/-- The contents at the launches' exits, and entries, over the final family, as valuations and at the TensorCore's references. -/
abbrev VV1v : Dev nD → Valuation τ sig (Elt F) := fun c => Gen.V1 m c
abbrev VV2v : Dev nD → Valuation τ sig (Elt F) := fun c => Gen.V2 m (outs m) c
abbrev VV3v : Dev nD → Valuation τ sig (Elt F) := fun c => Gen.V3 m (outsA m) c
abbrev VV4v : Dev nD → Valuation τ sig (Elt F) := fun c => Gen.V4 m (outs m) c
abbrev VV5v : Dev nD → Valuation τ sig (Elt F) := fun c => Gen.V5 m (outsB m) c
abbrev VV6v : Dev nD → Valuation τ sig (Elt F) := fun c => Gen.V6 m (outs m) c
abbrev VV2 : (c : Dev nD) → (b : Ref sig .tc) → Buf (Elt F) ((c : Thread nD τ).loc b) := fun c b => Gen.V2 m (outs m) c b
abbrev VV4 : (c : Dev nD) → (b : Ref sig .tc) → Buf (Elt F) ((c : Thread nD τ).loc b) := fun c b => Gen.V4 m (outs m) c b
abbrev VV6 : (c : Dev nD) → (b : Ref sig .tc) → Buf (Elt F) ((c : Thread nD τ).loc b) := fun c b => Gen.V6 m (outs m) c b

theorem o2_arr (c : Dev nD) (w : Fin cfg0.W) : o2 m (Pipeline.arrRef spec0 w) c = (dat0 (VV1 m) c).arrAt w cfg0.N := by
  unfold o2; exact Pipeline.withArrays_arr spec0 launch0.win.arr_inj c _ _ w

/-- After launch 0 its second result array holds what the pipeline's write-backs leave, -/
theorem V2_main_v22_1 (c : Dev nD) : Gen.V2 m (outs m) c main_v22_1 = (dat0 (VV1 m) c).arrAt 7 cfg0.N := by
  simp only [Gen.V2, Function.update_self]
  exact o2_arr m c 7
/-- and its first result array likewise. -/
theorem V2_main_v22_0 (c : Dev nD) : Gen.V2 m (outs m) c main_v22_0 = (dat0 (VV1 m) c).arrAt 6 cfg0.N := by
  simp only [Gen.V2, Function.update_of_ne (StableHlo.devRef_ne_of_ne (by decide : main_v22_0 ≠ main_v22_1) : (Proc.devRef .tc main_v22_0 : DevRef τ sig) ≠ Proc.devRef .tc main_v22_1), Function.update_self]
  exact o2_arr m c 6

set_option maxHeartbeats 4000000 in
/-- At launch 0's exit each of its arrays holds what the pipeline leaves: an operand what it held at entry, a result
    the write-backs' fold. -/
theorem hF0 (c : Dev nD) (w : Fin cfg0.W) : (dat0 (VV1 m) c).arrAt w cfg0.N = VV2 m c (Pipeline.arrRef spec0 w) :=
  match w with
  | ⟨0, _⟩ => (((dat0 (VV1 m) c).arrAt_in 0 rfl _).trans (A_eq0 (VV1 m) c 0)).trans (Gen.V2_of m (outs m) c _ (by decide)).symm
  | ⟨1, _⟩ => (((dat0 (VV1 m) c).arrAt_in 1 rfl _).trans (A_eq0 (VV1 m) c 1)).trans (Gen.V2_of m (outs m) c _ (by decide)).symm
  | ⟨2, _⟩ => (((dat0 (VV1 m) c).arrAt_in 2 rfl _).trans (A_eq0 (VV1 m) c 2)).trans (Gen.V2_of m (outs m) c _ (by decide)).symm
  | ⟨3, _⟩ => (((dat0 (VV1 m) c).arrAt_in 3 rfl _).trans (A_eq0 (VV1 m) c 3)).trans (Gen.V2_of m (outs m) c _ (by decide)).symm
  | ⟨4, _⟩ => (((dat0 (VV1 m) c).arrAt_in 4 rfl _).trans (A_eq0 (VV1 m) c 4)).trans (Gen.V2_of m (outs m) c _ (by decide)).symm
  | ⟨5, _⟩ => (((dat0 (VV1 m) c).arrAt_in 5 rfl _).trans (A_eq0 (VV1 m) c 5)).trans (Gen.V2_of m (outs m) c _ (by decide)).symm
  | ⟨6, _⟩ => (V2_main_v22_0 m c).symm
  | ⟨7, _⟩ => (V2_main_v22_1 m c).symm

/-- Every other buffer holds at the exit what it held at entry. -/
theorem hrest0 (c : Dev nD) : ∀ b, b ∉ Finset.univ.image (Pipeline.arrRef spec0) → VV2 m c b = VV1 m c b :=
  fun b hb => Gen.V2_of m (outs m) c b fun h => hb (by
    rcases List.mem_cons.mp h with rfl | h
    · exact Finset.mem_image.mpr ⟨6, Finset.mem_univ _, rfl⟩
    · rcases List.mem_cons.mp h with rfl | h
      · exact Finset.mem_image.mpr ⟨7, Finset.mem_univ _, rfl⟩
      · exact absurd h (List.not_mem_nil))

theorem o4_arr (c : Dev nD) (w : Fin cfg1.W) : o4 m (Pipeline.arrRef spec1 w) c = (dat1 (VV3 m) c).arrAt w cfg1.N := by
  unfold o4; exact Pipeline.withArrays_arr spec1 launch1.win.arr_inj c _ _ w

/-- After launch 1 its second result array holds what the pipeline's write-backs leave, -/
theorem V4_main_v44_1 (c : Dev nD) : Gen.V4 m (outs m) c main_v44_1 = (dat1 (VV3 m) c).arrAt 7 cfg1.N := by
  simp only [Gen.V4, Function.update_self]
  exact o4_arr m c 7
/-- and its first result array likewise. -/
theorem V4_main_v44_0 (c : Dev nD) : Gen.V4 m (outs m) c main_v44_0 = (dat1 (VV3 m) c).arrAt 6 cfg1.N := by
  simp only [Gen.V4, Function.update_of_ne (StableHlo.devRef_ne_of_ne (by decide : main_v44_0 ≠ main_v44_1) : (Proc.devRef .tc main_v44_0 : DevRef τ sig) ≠ Proc.devRef .tc main_v44_1), Function.update_self]
  exact o4_arr m c 6

set_option maxHeartbeats 4000000 in
/-- At launch 1's exit each of its arrays holds what the pipeline leaves: an operand what it held at entry, a result
    the write-backs' fold. -/
theorem hF1 (c : Dev nD) (w : Fin cfg1.W) : (dat1 (VV3 m) c).arrAt w cfg1.N = VV4 m c (Pipeline.arrRef spec1 w) :=
  match w with
  | ⟨0, _⟩ => (((dat1 (VV3 m) c).arrAt_in 0 rfl _).trans (A_eq1 (VV3 m) c 0)).trans (V4_in m c _ (by decide)).symm
  | ⟨1, _⟩ => (((dat1 (VV3 m) c).arrAt_in 1 rfl _).trans (A_eq1 (VV3 m) c 1)).trans (V4_in m c _ (by decide)).symm
  | ⟨2, _⟩ => (((dat1 (VV3 m) c).arrAt_in 2 rfl _).trans (A_eq1 (VV3 m) c 2)).trans (V4_in m c _ (by decide)).symm
  | ⟨3, _⟩ => (((dat1 (VV3 m) c).arrAt_in 3 rfl _).trans (A_eq1 (VV3 m) c 3)).trans (V4_in m c _ (by decide)).symm
  | ⟨4, _⟩ => (((dat1 (VV3 m) c).arrAt_in 4 rfl _).trans (A_eq1 (VV3 m) c 4)).trans (V4_in m c _ (by decide)).symm
  | ⟨5, _⟩ => (((dat1 (VV3 m) c).arrAt_in 5 rfl _).trans (A_eq1 (VV3 m) c 5)).trans (V4_in m c _ (by decide)).symm
  | ⟨6, _⟩ => (V4_main_v44_0 m c).symm
  | ⟨7, _⟩ => (V4_main_v44_1 m c).symm

/-- Every other buffer holds at the exit what it held at entry. -/
theorem hrest1 (c : Dev nD) : ∀ b, b ∉ Finset.univ.image (Pipeline.arrRef spec1) → VV4 m c b = VV3 m c b :=
  fun b hb => V4_in m c b fun h => hb (by
    rcases List.mem_cons.mp h with rfl | h
    · exact Finset.mem_image.mpr ⟨6, Finset.mem_univ _, rfl⟩
    · rcases List.mem_cons.mp h with rfl | h
      · exact Finset.mem_image.mpr ⟨7, Finset.mem_univ _, rfl⟩
      · exact absurd h (List.not_mem_nil))

theorem o6_arr (c : Dev nD) (w : Fin cfg2.W) : o6 m (Pipeline.arrRef spec2 w) c = (dat2 (VV5 m) c).arrAt w cfg2.N := by
  unfold o6; exact Pipeline.withArrays_arr spec2 launch2.win.arr_inj c _ _ w

/-- After launch 2 its second result array holds what the pipeline's write-backs leave, -/
theorem V6_main_v66_1 (c : Dev nD) : Gen.V6 m (outs m) c main_v66_1 = (dat2 (VV5 m) c).arrAt 7 cfg2.N := by
  simp only [Gen.V6, Function.update_self]
  exact o6_arr m c 7
/-- and its first result array likewise. -/
theorem V6_main_v66_0 (c : Dev nD) : Gen.V6 m (outs m) c main_v66_0 = (dat2 (VV5 m) c).arrAt 6 cfg2.N := by
  simp only [Gen.V6, Function.update_of_ne (StableHlo.devRef_ne_of_ne (by decide : main_v66_0 ≠ main_v66_1) : (Proc.devRef .tc main_v66_0 : DevRef τ sig) ≠ Proc.devRef .tc main_v66_1), Function.update_self]
  exact o6_arr m c 6

set_option maxHeartbeats 4000000 in
/-- At launch 2's exit each of its arrays holds what the pipeline leaves: an operand what it held at entry, a result
    the write-backs' fold. -/
theorem hF2 (c : Dev nD) (w : Fin cfg2.W) : (dat2 (VV5 m) c).arrAt w cfg2.N = VV6 m c (Pipeline.arrRef spec2 w) :=
  match w with
  | ⟨0, _⟩ => (((dat2 (VV5 m) c).arrAt_in 0 rfl _).trans (A_eq2 (VV5 m) c 0)).trans (V6_in m c _ (by decide)).symm
  | ⟨1, _⟩ => (((dat2 (VV5 m) c).arrAt_in 1 rfl _).trans (A_eq2 (VV5 m) c 1)).trans (V6_in m c _ (by decide)).symm
  | ⟨2, _⟩ => (((dat2 (VV5 m) c).arrAt_in 2 rfl _).trans (A_eq2 (VV5 m) c 2)).trans (V6_in m c _ (by decide)).symm
  | ⟨3, _⟩ => (((dat2 (VV5 m) c).arrAt_in 3 rfl _).trans (A_eq2 (VV5 m) c 3)).trans (V6_in m c _ (by decide)).symm
  | ⟨4, _⟩ => (((dat2 (VV5 m) c).arrAt_in 4 rfl _).trans (A_eq2 (VV5 m) c 4)).trans (V6_in m c _ (by decide)).symm
  | ⟨5, _⟩ => (((dat2 (VV5 m) c).arrAt_in 5 rfl _).trans (A_eq2 (VV5 m) c 5)).trans (V6_in m c _ (by decide)).symm
  | ⟨6, _⟩ => (V6_main_v66_0 m c).symm
  | ⟨7, _⟩ => (V6_main_v66_1 m c).symm

/-- Every other buffer holds at the exit what it held at entry. -/
theorem hrest2 (c : Dev nD) : ∀ b, b ∉ Finset.univ.image (Pipeline.arrRef spec2) → VV6 m c b = VV5 m c b :=
  fun b hb => V6_in m c b fun h => hb (by
    rcases List.mem_cons.mp h with rfl | h
    · exact Finset.mem_image.mpr ⟨6, Finset.mem_univ _, rfl⟩
    · rcases List.mem_cons.mp h with rfl | h
      · exact Finset.mem_image.mpr ⟨7, Finset.mem_univ _, rfl⟩
      · exact absurd h (List.not_mem_nil))

/-! ## The proof data family and the thread state -/

/-- Every pipeline's proof data, each at its launch's entry contents. -/
def pdats : (p : Fin 3) → (c : Dev nD) → Dat τ (Elt F) Unit ℕ (UR sig nD τ) ℕ (cfgs p) c
  | ⟨0, _⟩ => fun c => dat0 (VV1 m) c
  | ⟨1, _⟩ => fun c => dat1 (VV3 m) c
  | ⟨2, _⟩ => fun c => dat2 (VV5 m) c

/-- No core owes another anything: no level is assigned. -/
abbrev LL : GSem nD τ sig → Finset Unit := fun _ => ∅
abbrev lvl : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

set_option backward.isDefEq.respectTransparency.types false in
/-- Launch 0 over the thread state: entered from every unscoped buffer at the contents before it, left at those
    contents with its two result arrays replaced by what the pipeline's write-backs leave. Its arrays are split out of
    the unscoped buffers and put back at the exit contents; the generator register goes into the class invariant and
    comes out; nothing is owed; the kernel has no semaphore of its own. -/
def reg0 : Pipeline.RegionSeg (pcfgs (F := F)) Gen.adm (pdats m) () defs₀ Variants.none LL lvl 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ LL lvl 0 fun _ _ => rfl
  pre c := iprop(StableHlo.held (c : Thread nD τ) (Pipeline.ucRefs τ sig) (VV1v m c) ∗ R c)
  post c := iprop(StableHlo.held (c : Thread nD τ) (Pipeline.ucRefs τ sig) (VV2v m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left at those
    contents with its two result arrays replaced by what the pipeline's write-backs leave. Its arrays are split out of
    the unscoped buffers and put back at the exit contents; the generator register goes into the class invariant and
    comes out; nothing is owed; the kernel has no semaphore of its own. -/
def reg1 : Pipeline.RegionSeg (pcfgs (F := F)) Gen.adm (pdats m) () defs₀ Variants.none LL lvl 1 where
  win := launch1.win.to₀
  block_pos := launch1.block_pos
  stage_whole := launch1.stage_whole
  K := PEmpty
  osem k := k.elim
  ho := Pipeline.OwnSemFacts.none _
  hbody c := (body_obligation1 (VV3 m) c).loose
  hwaits := Pipeline.hwaits_of_owed_zero _ _ _ _ LL lvl 1 fun _ _ => rfl
  pre c := iprop(StableHlo.held (c : Thread nD τ) (Pipeline.ucRefs τ sig) (VV3v m c) ∗ R c)
  post c := iprop(StableHlo.held (c : Thread nD τ) (Pipeline.ucRefs τ sig) (VV4v m c) ∗ R c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VV3 m c) (VV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at the contents before it, left at those
    contents with its two result arrays replaced by what the pipeline's write-backs leave. Its arrays are split out of
    the unscoped buffers and put back at the exit contents; the generator register goes into the class invariant and
    comes out; nothing is owed; the kernel has no semaphore of its own. -/
def reg2 : Pipeline.RegionSeg (pcfgs (F := F)) Gen.adm (pdats m) () defs₀ Variants.none LL lvl 2 where
  win := launch2.win.to₀
  block_pos := launch2.block_pos
  stage_whole := launch2.stage_whole
  K := PEmpty
  osem k := k.elim
  ho := Pipeline.OwnSemFacts.none _
  hbody c := (body_obligation2 (VV5 m) c).loose
  hwaits := Pipeline.hwaits_of_owed_zero _ _ _ _ LL lvl 2 fun _ _ => rfl
  pre c := iprop(StableHlo.held (c : Thread nD τ) (Pipeline.ucRefs τ sig) (VV5v m c) ∗ R c)
  post c := iprop(StableHlo.held (c : Thread nD τ) (Pipeline.ucRefs τ sig) (VV6v m c) ∗ R c)
  X c := iprop(∃ r, prngReg c r)
  Y c := iprop(∃ r, prngReg c r)
  Z c := Pipeline.unscopedRest (Ix := Unit) (Name := ℕ) (U := UR sig nD τ) (Lvl := ℕ) spec2 c (VV5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (VV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (VV5 m c) (VV6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN: from any memory with zero counters every weakly fair execution of the program terminates, nothing
    faulting; the scalar result ends at what the last host stretch computes from the contents after the third launch,
    and the twelve argument arrays end as launched. -/
theorem run (ρ : Dev nD → PrngReg) :
    θ_run defs (onTc (τ := τ) (main (F := F))) ⟨m, fun _ => 0, ρ⟩ (fun r => ∀ c : Dev nD,
      r.2.mem ((c.tc : Thread nD τ).loc main_v113) = Gen.V9 m (outs m) c main_v113
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_cond m emb₁ () Variants.none LL lvl (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach LL lvl fun c => ?_
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => .rfl)
    (reg1 m) (fun c => by rw [V3_outs m c]; exact .rfl) (fun c => .rfl)
    (reg2 m) (fun c => by rw [V5_outs m c]; exact .rfl) (fun c => .rfl)

end Cert.Kernel.Hand

end
-- ==== Proof.KI.Region0.lean ====
/-
  Launch 0 of the layer kernel, at the contents `V` the TensorCore's buffers hold when it is entered: what a grid
  point's body leaves in the two result windows' staging buffers as a function of the six operand blocks — the new
  features (the leaky rectifier of the two biased products) and their rows scaled to unit length —, the body's
  triple run by the symbolic executor, the proof data of the pipeline over it, and the body obligation at every point.
  Every operand window is read only (its block stays in place); the two result windows are stored whole.
-/
import proofs.«117729_j22703197127156_1_alg».proof.Proof.Gen.KernelIdeal.Launch
import proofs.«117729_j22703197127156_1_alg».proof.Proof.Gen.KernelIdeal.Skeleton
import proofs.«117729_j22703197127156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand window 0's current staging buffer holds its block at every point, fetched there or not (unfetched, its
    block index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand window 1's current staging buffer holds its block at every point, fetched there or not (unfetched, its
    block index has not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Operand window 2's current staging buffer holds its block at every point, fetched there or not (unfetched, its
    block index has not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Operand window 3's current staging buffer holds its block at every point, fetched there or not (unfetched, its
    block index has not moved), for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Operand window 4's current staging buffer holds its block at every point, fetched there or not (unfetched, its
    block index has not moved), for any proof data over `V` whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Operand window 5's current staging buffer holds its block at every point, fetched there or not (unfetched, its
    block index has not moved), for any proof data over `V` whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of a row tile, of a weight matrix, of a bias row. -/
abbrev rA0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- The new features' staging buffer after the body, from the operand blocks: one whole store. -/
def out0_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA0, k0_pay2 (View.ld x0 rA0) (View.ld x1 rA0) (View.ld x2 rW0) (View.ld x4 rW0) (View.ld x3 rB0) (View.ld x5 rB0)⟩]

/-- The unit-length rows' staging buffer after the body, from the operand blocks: one whole store. -/
def out0_7 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA0, k0_pay1 (k0_pay2 (View.ld x0 rA0) (View.ld x1 rA0) (View.ld x2 rW0) (View.ld x4 rW0) (View.ld x3 rB0) (View.ld x5 rB0)) (k0_pay3 (View.ld x0 rA0) (View.ld x1 rA0) (View.ld x2 rW0) (View.ld x4 rW0) (View.ld x3 rB0) (View.ld x5 rB0))⟩]

/-- A whole store covers the buffer. -/
theorem cover0_6 (p0 : Vec F S5000x64 .f32) (y : S5000x64.Idx) :
    ∃ pc ∈ ([⟨rA0, p0⟩] : List (View.Piece (Elt F) S5000x64 .f32)), y ∈ pc.1.set :=
  View.cover_of_tiled [⟨rA0, p0⟩] S5000x64.size (by rfl) y
theorem cover0_7 (p0 : Vec F S5000x64 .f32) (y : S5000x64.Idx) :
    ∃ pc ∈ ([⟨rA0, p0⟩] : List (View.Piece (Elt F) S5000x64 .f32)), y ∈ pc.1.set :=
  View.cover_of_tiled [⟨rA0, p0⟩] S5000x64.size (by rfl) y

set_option maxHeartbeats 4000000 in
/-- The body on whole staging memrefs, the operands' at contents `xW` and the results' at anything, runs to the
    continuation holding the operands' as they were and each result's at `out0_W` of the operands'. -/
theorem sound_kernel0 (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

/-- The proof data of pipeline 0 on core `c`: the arrays as the launch finds them; after the body at point `t` each
    operand's buffer at its block and each result's at `out0_W` of the operand blocks; the class-A invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point: the operands' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Launch 1 of the layer kernel, at the contents `V` the TensorCore's buffers hold when it is entered: what a grid
  point's body leaves in the two result windows' staging buffers as a function of the six operand blocks — the new
  features (the leaky rectifier of the two biased products) and their rows scaled to unit length —, the body's
  triple run by the symbolic executor, the proof data of the pipeline over it, and the body obligation at every point.
  Every operand window is read only (its block stays in place); the two result windows are stored whole.
-/
import proofs.«117729_j22703197127156_1_alg».proof.Proof.Gen.KernelIdeal.Launch
import proofs.«117729_j22703197127156_1_alg».proof.Proof.Gen.KernelIdeal.Skeleton
import proofs.«117729_j22703197127156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand window 0's current staging buffer holds its block at every point, fetched there or not (unfetched, its
    block index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand window 1's current staging buffer holds its block at every point, fetched there or not (unfetched, its
    block index has not moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Operand window 2's current staging buffer holds its block at every point, fetched there or not (unfetched, its
    block index has not moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Operand window 3's current staging buffer holds its block at every point, fetched there or not (unfetched, its
    block index has not moved), for any proof data over `V` whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Operand window 4's current staging buffer holds its block at every point, fetched there or not (unfetched, its
    block index has not moved), for any proof data over `V` whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Operand window 5's current staging buffer holds its block at every point, fetched there or not (unfetched, its
    block index has not moved), for any proof data over `V` whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of a row tile, of a weight matrix, of a bias row. -/
abbrev rA1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- The new features' staging buffer after the body, from the operand blocks: one whole store. -/
def out1_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA1, k1_pay2 (View.ld x0 rA1) (View.ld x1 rA1) (View.ld x2 rW1) (View.ld x4 rW1) (View.ld x3 rB1) (View.ld x5 rB1)⟩]

/-- The unit-length rows' staging buffer after the body, from the operand blocks: one whole store. -/
def out1_7 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA1, k1_pay1 (k1_pay2 (View.ld x0 rA1) (View.ld x1 rA1) (View.ld x2 rW1) (View.ld x4 rW1) (View.ld x3 rB1) (View.ld x5 rB1)) (k1_pay3 (View.ld x0 rA1) (View.ld x1 rA1) (View.ld x2 rW1) (View.ld x4 rW1) (View.ld x3 rB1) (View.ld x5 rB1))⟩]

/-- A whole store covers the buffer. -/
theorem cover1_6 (p0 : Vec F S5000x64 .f32) (y : S5000x64.Idx) :
    ∃ pc ∈ ([⟨rA1, p0⟩] : List (View.Piece (Elt F) S5000x64 .f32)), y ∈ pc.1.set :=
  View.cover_of_tiled [⟨rA1, p0⟩] S5000x64.size (by rfl) y
theorem cover1_7 (p0 : Vec F S5000x64 .f32) (y : S5000x64.Idx) :
    ∃ pc ∈ ([⟨rA1, p0⟩] : List (View.Piece (Elt F) S5000x64 .f32)), y ∈ pc.1.set :=
  View.cover_of_tiled [⟨rA1, p0⟩] S5000x64.size (by rfl) y

set_option maxHeartbeats 4000000 in
/-- The body on whole staging memrefs, the operands' at contents `xW` and the results' at anything, runs to the
    continuation holding the operands' as they were and each result's at `out1_W` of the operands'. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_6 _)
  iexists _; isplitr
  swap; · iexact H7
  ipureintro
  try dsimp only
  exact View.read_writes_eq_canon _ _ _ (cover1_7 _)

/-- The proof data of pipeline 1 on core `c`: the arrays as the launch finds them; after the body at point `t` each
    operand's buffer at its block and each result's at `out1_W` of the operand blocks; the class-A invariant; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 2000000 in
/-- The body at any point: the operands' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Launch 2 of the layer kernel, at the contents `V` the TensorCore's buffers hold when it is entered: what a grid
  point's body leaves in the two result windows' staging buffers as a function of the six operand blocks — the new
  features (the leaky rectifier of the two biased products) and their rows scaled to unit length —, the body's
  triple run by the symbolic executor, the proof data of the pipeline over it, and the body obligation at every point.
  Every operand window is read only (its block stays in place); the two result windows are stored whole.
-/
import proofs.«117729_j22703197127156_1_alg».proof.Proof.Gen.KernelIdeal.Launch
import proofs.«117729_j22703197127156_1_alg».proof.Proof.Gen.KernelIdeal.Skeleton
import proofs.«117729_j22703197127156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Operand window 0's current staging buffer holds its block at every point, fetched there or not (unfetched, its
    block index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Operand window 1's current staging buffer holds its block at every point, fetched there or not (unfetched, its
    block index has not moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Operand window 2's current staging buffer holds its block at every point, fetched there or not (unfetched, its
    block index has not moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Operand window 3's current staging buffer holds its block at every point, fetched there or not (unfetched, its
    block index has not moved), for any proof data over `V` whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Operand window 4's current staging buffer holds its block at every point, fetched there or not (unfetched, its
    block index has not moved), for any proof data over `V` whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Operand window 5's current staging buffer holds its block at every point, fetched there or not (unfetched, its
    block index has not moved), for any proof data over `V` whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole rectangle of a row tile, of a weight matrix, of a bias row. -/
abbrev rA2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-- The new features' staging buffer after the body, from the operand blocks: one whole store. -/
def out2_6 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA2, k2_pay2 (View.ld x0 rA2) (View.ld x1 rA2) (View.ld x2 rW2) (View.ld x4 rW2) (View.ld x3 rB2) (View.ld x5 rB2)⟩]

/-- The unit-length rows' staging buffer after the body, from the operand blocks: one whole store. -/
def out2_7 (x0 : Vec F S5000x64 .f32) (x1 : Vec F S5000x64 .f32) (x2 : Vec F S64x64 .f32) (x3 : Vec F S1x64 .f32) (x4 : Vec F S64x64 .f32) (x5 : Vec F S1x64 .f32) : Vec F S5000x64 .f32 :=
  View.canon [⟨rA2, k2_pay1 (k2_pay2 (View.ld x0 rA2) (View.ld x1 rA2) (View.ld x2 rW2) (View.ld x4 rW2) (View.ld x3 rB2) (View.ld x5 rB2)) (k2_pay3 (View.ld x0 rA2) (View.ld x1 rA2) (View.ld x2 rW2) (View.ld x4 rW2) (View.ld x3 rB2) (View.ld x5 rB2))⟩]

/-- A whole store covers the buffer. -/
theorem cover2_6 (p0 : Vec F S5000x64 .f32) (y : S5000x64.Idx) :
    ∃ pc ∈ ([⟨rA2, p0⟩] : List (View.Piece (Elt F) S5000x64 .f32)), y ∈ pc.1.set :=
  View.cover_of_tiled [⟨rA2, p0⟩] S5000x64.size (by rfl) y
theorem cover2_7 (p0 : Vec F S5000x64 .f32) (y : S5000x64.Idx) :
    ∃ pc ∈ ([⟨rA2, p0⟩] : List (View.Piece (Elt F) S5000x64 .f32)), y ∈ pc.1.set :=
  View.cover_of_tiled [⟨rA2, p0⟩] S5000x64.size (by rfl) y

set_option maxHeartbeats 4000000 in
/-- The body on whole staging memrefs, the operands' at contents `xW` and the results' at anything, runs to the
    continuation holding the operands' as they were and each result's at `out2_W` of the operands'. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole) (arg8 : Memref sig .tc .vmem S5000x64 .f32) (harg8 : arg8.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2_6 _)
  iexists _; isplitr
  swap; · iexact H7
  ipureintro
  try dsimp only
  exact View.read_writes_eq_canon _ _ _ (cover2_7 _)

/-- The proof data of pipeline 2 on core `c`: the arrays as the launch finds them; after the body at point `t` each
    operand's buffer at its block and each result's at `out2_W` of the operand blocks; the class-A invariant; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 2000000 in
/-- The body at any point: the operands' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.RunCond.lean ====
/-
  The run of the whole program through its three launches, conditional on one record per launch: the host stretches
  between the launches are followed buffer by buffer, each launch may change only its two result arrays, and the final
  memory is read at the scalar result and at the twelve argument arrays.
-/
import proofs.«117729_j22703197127156_1_alg».proof.Proof.Gen.KernelIdeal.Regions

set_option maxRecDepth 1340

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The several-launch run, given the launches' records: every weakly fair execution of the whole program from memory `m`
    terminates, and in every final memory the scalar result holds what the last host stretch computes from the buffers'
    contents after the third launch, while each of the twelve argument arrays holds what it was launched with. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v113) = V9 m outs c main_v113
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, hpre2 c, hpost2 c, .rfl, .rfl, sep_mono .rfl (hE3 c)⟩)
    (hinit := ?_) (QY := fun c s => s.mem ((c.tc : Thread nD τ).loc main_v113) = V9 m outs c main_v113 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v113) (Finset.mem_filter.mpr ⟨StableHlo.devRef_mem_tcRefs main_v113, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c),
        (h (Proc.devRef .tc main_arg6) (Finset.mem_filter.mpr ⟨StableHlo.devRef_mem_tcRefs main_arg6, by decide⟩)).trans (V9_main_arg6 m outs c),
        (h (Proc.devRef .tc main_arg7) (Finset.mem_filter.mpr ⟨StableHlo.devRef_mem_tcRefs main_arg7, by decide⟩)).trans (V9_main_arg7 m outs c),
        (h (Proc.devRef .tc main_arg8) (Finset.mem_filter.mpr ⟨StableHlo.devRef_mem_tcRefs main_arg8, by decide⟩)).trans (V9_main_arg8 m outs c),
        (h (Proc.devRef .tc main_arg9) (Finset.mem_filter.mpr ⟨StableHlo.devRef_mem_tcRefs main_arg9, by decide⟩)).trans (V9_main_arg9 m outs c),
        (h (Proc.devRef .tc main_arg10) (Finset.mem_filter.mpr ⟨StableHlo.devRef_mem_tcRefs main_arg10, by decide⟩)).trans (V9_main_arg10 m outs c),
        (h (Proc.devRef .tc main_arg11) (Finset.mem_filter.mpr ⟨StableHlo.devRef_mem_tcRefs main_arg11, by decide⟩)).trans (V9_main_arg11 m outs c)⟩
    · iexact HSI

end Cert.KernelIdeal.Hand

end
-- ==== Proof.KI.Run.lean ====
/-
  The run of the whole program: the contents of the buffers between its items (three launches of the layer kernel among
  stretches of host operations), each launch's result arrays at what its pipeline's write-backs leave, the proof data of
  the three pipelines, each launch as a segment over the thread state, and the run itself — every weakly fair execution
  terminates, the scalar result ends at what the last host stretch computes, the argument arrays end unchanged.
-/
import proofs.«117729_j22703197127156_1_alg».proof.Proof.KI.Region0
import proofs.«117729_j22703197127156_1_alg».proof.Proof.KI.Region1
import proofs.«117729_j22703197127156_1_alg».proof.Proof.KI.Region2
import proofs.«117729_j22703197127156_1_alg».proof.Proof.KI.RunCond
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- The contents launch 0 is entered from, at the TensorCore's references. -/
abbrev VV1 : (c : Dev nD) → (b : Ref sig .tc) → Buf (Elt F) ((c : Thread nD τ).loc b) := fun c b => Gen.V1 m c b
/-- What launch 0 leaves: its arrays at what its pipeline's write-backs leave, every other buffer as entered. -/
def o2 (r : Ref sig .tc) (c : Dev nD) : Buf (Elt F) ((c : Thread nD τ).loc r) :=
  Pipeline.withArrays spec0 c (Gen.V1 m c) (fun w => (dat0 (VV1 m) c).arrAt w cfg0.N) r
abbrev outsA : Gen.Outs (F := F) := fun _ r c => o2 m r c
/-- The contents launch 1 is entered from. -/
abbrev VV3 : (c : Dev nD) → (b : Ref sig .tc) → Buf (Elt F) ((c : Thread nD τ).loc b) := fun c b => Gen.V3 m (outsA m) c b
def o4 (r : Ref sig .tc) (c : Dev nD) : Buf (Elt F) ((c : Thread nD τ).loc r) :=
  Pipeline.withArrays spec1 c (Gen.V3 m (outsA m) c) (fun w => (dat1 (VV3 m) c).arrAt w cfg1.N) r
def outsB : Gen.Outs (F := F) := fun J r c => match J with
  | 2 => o2 m r c
  | _ => o4 m r c
/-- The contents launch 2 is entered from. -/
abbrev VV5 : (c : Dev nD) → (b : Ref sig .tc) → Buf (Elt F) ((c : Thread nD τ).loc b) := fun c b => Gen.V5 m (outsB m) c b
def o6 (r : Ref sig .tc) (c : Dev nD) : Buf (Elt F) ((c : Thread nD τ).loc r) :=
  Pipeline.withArrays spec2 c (Gen.V5 m (outsB m) c) (fun w => (dat2 (VV5 m) c).arrAt w cfg2.N) r
/-- What the three launches leave in their result arrays. -/
def outs : Gen.Outs (F := F) := fun J r c => match J with
  | 2 => o2 m r c
  | 4 => o4 m r c
  | _ => o6 m r c

/-- The contents between the items read only the launches before them. -/
theorem V3_outs (c : Dev nD) : Gen.V3 m (outs m) c = Gen.V3 m (outsA m) c := rfl
theorem V5_outs (c : Dev nD) : Gen.V5 m (outs m) c = Gen.V5 m (outsB m) c := rfl

/-- A buffer that launch 1 does not write holds after it what it held at its entry. -/
theorem V4_in (c : Dev nD) (r : Ref sig .tc) (h : r ∉ ([main_v44_0, main_v44_1] : List (Ref sig .tc))) :
    Gen.V4 m (outs m) c r = Gen.V3 m (outsA m) c r :=
  (Gen.V4_of m (outs m) c r h).trans (congrFun (V3_outs m c) (Proc.devRef .tc r))
/-- A buffer that launch 2 does not write holds after it what it held at its entry. -/
theorem V6_in (c : Dev nD) (r : Ref sig .tc) (h : r ∉ ([main_v66_0, main_v66_1] : List (Ref sig .tc))) :
    Gen.V6 m (outs m) c r = Gen.V5 m (outsB m) c r :=
  (Gen.V6_of m (outs m) c r h).trans (congrFun (V5_outs m c) (Proc.devRef .tc r))

/-- The contents at the launches' exits, and entries, over the final family, as valuations and at the TensorCore's references. -/
abbrev VV1v : Dev nD → Valuation τ sig (Elt F) := fun c => Gen.V1 m c
abbrev VV2v : Dev nD → Valuation τ sig (Elt F) := fun c => Gen.V2 m (outs m) c
abbrev VV3v : Dev nD → Valuation τ sig (Elt F) := fun c => Gen.V3 m (outsA m) c
abbrev VV4v : Dev nD → Valuation τ sig (Elt F) := fun c => Gen.V4 m (outs m) c
abbrev VV5v : Dev nD → Valuation τ sig (Elt F) := fun c => Gen.V5 m (outsB m) c
abbrev VV6v : Dev nD → Valuation τ sig (Elt F) := fun c => Gen.V6 m (outs m) c
abbrev VV2 : (c : Dev nD) → (b : Ref sig .tc) → Buf (Elt F) ((c : Thread nD τ).loc b) := fun c b => Gen.V2 m (outs m) c b
abbrev VV4 : (c : Dev nD) → (b : Ref sig .tc) → Buf (Elt F) ((c : Thread nD τ).loc b) := fun c b => Gen.V4 m (outs m) c b
abbrev VV6 : (c : Dev nD) → (b : Ref sig .tc) → Buf (Elt F) ((c : Thread nD τ).loc b) := fun c b => Gen.V6 m (outs m) c b

theorem o2_arr (c : Dev nD) (w : Fin cfg0.W) : o2 m (Pipeline.arrRef spec0 w) c = (dat0 (VV1 m) c).arrAt w cfg0.N := by
  unfold o2; exact Pipeline.withArrays_arr spec0 launch0.win.arr_inj c _ _ w

/-- After launch 0 its second result array holds what the pipeline's write-backs leave, -/
theorem V2_main_v22_1 (c : Dev nD) : Gen.V2 m (outs m) c main_v22_1 = (dat0 (VV1 m) c).arrAt 7 cfg0.N := by
  simp only [Gen.V2, Function.update_self]
  exact o2_arr m c 7
/-- and its first result array likewise. -/
theorem V2_main_v22_0 (c : Dev nD) : Gen.V2 m (outs m) c main_v22_0 = (dat0 (VV1 m) c).arrAt 6 cfg0.N := by
  simp only [Gen.V2, Function.update_of_ne (StableHlo.devRef_ne_of_ne (by decide : main_v22_0 ≠ main_v22_1) : (Proc.devRef .tc main_v22_0 : DevRef τ sig) ≠ Proc.devRef .tc main_v22_1), Function.update_self]
  exact o2_arr m c 6

set_option maxHeartbeats 4000000 in
/-- At launch 0's exit each of its arrays holds what the pipeline leaves: an operand what it held at entry, a result
    the write-backs' fold. -/
theorem hF0 (c : Dev nD) (w : Fin cfg0.W) : (dat0 (VV1 m) c).arrAt w cfg0.N = VV2 m c (Pipeline.arrRef spec0 w) :=
  match w with
  | ⟨0, _⟩ => (((dat0 (VV1 m) c).arrAt_in 0 rfl _).trans (A_eq0 (VV1 m) c 0)).trans (Gen.V2_of m (outs m) c _ (by decide)).symm
  | ⟨1, _⟩ => (((dat0 (VV1 m) c).arrAt_in 1 rfl _).trans (A_eq0 (VV1 m) c 1)).trans (Gen.V2_of m (outs m) c _ (by decide)).symm
  | ⟨2, _⟩ => (((dat0 (VV1 m) c).arrAt_in 2 rfl _).trans (A_eq0 (VV1 m) c 2)).trans (Gen.V2_of m (outs m) c _ (by decide)).symm
  | ⟨3, _⟩ => (((dat0 (VV1 m) c).arrAt_in 3 rfl _).trans (A_eq0 (VV1 m) c 3)).trans (Gen.V2_of m (outs m) c _ (by decide)).symm
  | ⟨4, _⟩ => (((dat0 (VV1 m) c).arrAt_in 4 rfl _).trans (A_eq0 (VV1 m) c 4)).trans (Gen.V2_of m (outs m) c _ (by decide)).symm
  | ⟨5, _⟩ => (((dat0 (VV1 m) c).arrAt_in 5 rfl _).trans (A_eq0 (VV1 m) c 5)).trans (Gen.V2_of m (outs m) c _ (by decide)).symm
  | ⟨6, _⟩ => (V2_main_v22_0 m c).symm
  | ⟨7, _⟩ => (V2_main_v22_1 m c).symm

/-- Every other buffer holds at the exit what it held at entry. -/
theorem hrest0 (c : Dev nD) : ∀ b, b ∉ Finset.univ.image (Pipeline.arrRef spec0) → VV2 m c b = VV1 m c b :=
  fun b hb => Gen.V2_of m (outs m) c b fun h => hb (by
    rcases List.mem_cons.mp h with rfl | h
    · exact Finset.mem_image.mpr ⟨6, Finset.mem_univ _, rfl⟩
    · rcases List.mem_cons.mp h with rfl | h
      · exact Finset.mem_image.mpr ⟨7, Finset.mem_univ _, rfl⟩
      · exact absurd h (List.not_mem_nil))

theorem o4_arr (c : Dev nD) (w : Fin cfg1.W) : o4 m (Pipeline.arrRef spec1 w) c = (dat1 (VV3 m) c).arrAt w cfg1.N := by
  unfold o4; exact Pipeline.withArrays_arr spec1 launch1.win.arr_inj c _ _ w

/-- After launch 1 its second result array holds what the pipeline's write-backs leave, -/
theorem V4_main_v44_1 (c : Dev nD) : Gen.V4 m (outs m) c main_v44_1 = (dat1 (VV3 m) c).arrAt 7 cfg1.N := by
  simp only [Gen.V4, Function.update_self]
  exact o4_arr m c 7
/-- and its first result array likewise. -/
theorem V4_main_v44_0 (c : Dev nD) : Gen.V4 m (outs m) c main_v44_0 = (dat1 (VV3 m) c).arrAt 6 cfg1.N := by
  simp only [Gen.V4, Function.update_of_ne (StableHlo.devRef_ne_of_ne (by decide : main_v44_0 ≠ main_v44_1) : (Proc.devRef .tc main_v44_0 : DevRef τ sig) ≠ Proc.devRef .tc main_v44_1), Function.update_self]
  exact o4_arr m c 6

set_option maxHeartbeats 4000000 in
/-- At launch 1's exit each of its arrays holds what the pipeline leaves: an operand what it held at entry, a result
    the write-backs' fold. -/
theorem hF1 (c : Dev nD) (w : Fin cfg1.W) : (dat1 (VV3 m) c).arrAt w cfg1.N = VV4 m c (Pipeline.arrRef spec1 w) :=
  match w with
  | ⟨0, _⟩ => (((dat1 (VV3 m) c).arrAt_in 0 rfl _).trans (A_eq1 (VV3 m) c 0)).trans (V4_in m c _ (by decide)).symm
  | ⟨1, _⟩ => (((dat1 (VV3 m) c).arrAt_in 1 rfl _).trans (A_eq1 (VV3 m) c 1)).trans (V4_in m c _ (by decide)).symm
  | ⟨2, _⟩ => (((dat1 (VV3 m) c).arrAt_in 2 rfl _).trans (A_eq1 (VV3 m) c 2)).trans (V4_in m c _ (by decide)).symm
  | ⟨3, _⟩ => (((dat1 (VV3 m) c).arrAt_in 3 rfl _).trans (A_eq1 (VV3 m) c 3)).trans (V4_in m c _ (by decide)).symm
  | ⟨4, _⟩ => (((dat1 (VV3 m) c).arrAt_in 4 rfl _).trans (A_eq1 (VV3 m) c 4)).trans (V4_in m c _ (by decide)).symm
  | ⟨5, _⟩ => (((dat1 (VV3 m) c).arrAt_in 5 rfl _).trans (A_eq1 (VV3 m) c 5)).trans (V4_in m c _ (by decide)).symm
  | ⟨6, _⟩ => (V4_main_v44_0 m c).symm
  | ⟨7, _⟩ => (V4_main_v44_1 m c).symm

/-- Every other buffer holds at the exit what it held at entry. -/
theorem hrest1 (c : Dev nD) : ∀ b, b ∉ Finset.univ.image (Pipeline.arrRef spec1) → VV4 m c b = VV3 m c b :=
  fun b hb => V4_in m c b fun h => hb (by
    rcases List.mem_cons.mp h with rfl | h
    · exact Finset.mem_image.mpr ⟨6, Finset.mem_univ _, rfl⟩
    · rcases List.mem_cons.mp h with rfl | h
      · exact Finset.mem_image.mpr ⟨7, Finset.mem_univ _, rfl⟩
      · exact absurd h (List.not_mem_nil))

theorem o6_arr (c : Dev nD) (w : Fin cfg2.W) : o6 m (Pipeline.arrRef spec2 w) c = (dat2 (VV5 m) c).arrAt w cfg2.N := by
  unfold o6; exact Pipeline.withArrays_arr spec2 launch2.win.arr_inj c _ _ w

/-- After launch 2 its second result array holds what the pipeline's write-backs leave, -/
theorem V6_main_v66_1 (c : Dev nD) : Gen.V6 m (outs m) c main_v66_1 = (dat2 (VV5 m) c).arrAt 7 cfg2.N := by
  simp only [Gen.V6, Function.update_self]
  exact o6_arr m c 7
/-- and its first result array likewise. -/
theorem V6_main_v66_0 (c : Dev nD) : Gen.V6 m (outs m) c main_v66_0 = (dat2 (VV5 m) c).arrAt 6 cfg2.N := by
  simp only [Gen.V6, Function.update_of_ne (StableHlo.devRef_ne_of_ne (by decide : main_v66_0 ≠ main_v66_1) : (Proc.devRef .tc main_v66_0 : DevRef τ sig) ≠ Proc.devRef .tc main_v66_1), Function.update_self]
  exact o6_arr m c 6

set_option maxHeartbeats 4000000 in
/-- At launch 2's exit each of its arrays holds what the pipeline leaves: an operand what it held at entry, a result
    the write-backs' fold. -/
theorem hF2 (c : Dev nD) (w : Fin cfg2.W) : (dat2 (VV5 m) c).arrAt w cfg2.N = VV6 m c (Pipeline.arrRef spec2 w) :=
  match w with
  | ⟨0, _⟩ => (((dat2 (VV5 m) c).arrAt_in 0 rfl _).trans (A_eq2 (VV5 m) c 0)).trans (V6_in m c _ (by decide)).symm
  | ⟨1, _⟩ => (((dat2 (VV5 m) c).arrAt_in 1 rfl _).trans (A_eq2 (VV5 m) c 1)).trans (V6_in m c _ (by decide)).symm
  | ⟨2, _⟩ => (((dat2 (VV5 m) c).arrAt_in 2 rfl _).trans (A_eq2 (VV5 m) c 2)).trans (V6_in m c _ (by decide)).symm
  | ⟨3, _⟩ => (((dat2 (VV5 m) c).arrAt_in 3 rfl _).trans (A_eq2 (VV5 m) c 3)).trans (V6_in m c _ (by decide)).symm
  | ⟨4, _⟩ => (((dat2 (VV5 m) c).arrAt_in 4 rfl _).trans (A_eq2 (VV5 m) c 4)).trans (V6_in m c _ (by decide)).symm
  | ⟨5, _⟩ => (((dat2 (VV5 m) c).arrAt_in 5 rfl _).trans (A_eq2 (VV5 m) c 5)).trans (V6_in m c _ (by decide)).symm
  | ⟨6, _⟩ => (V6_main_v66_0 m c).symm
  | ⟨7, _⟩ => (V6_main_v66_1 m c).symm

/-- Every other buffer holds at the exit what it held at entry. -/
theorem hrest2 (c : Dev nD) : ∀ b, b ∉ Finset.univ.image (Pipeline.arrRef spec2) → VV6 m c b = VV5 m c b :=
  fun b hb => V6_in m c b fun h => hb (by
    rcases List.mem_cons.mp h with rfl | h
    · exact Finset.mem_image.mpr ⟨6, Finset.mem_univ _, rfl⟩
    · rcases List.mem_cons.mp h with rfl | h
      · exact Finset.mem_image.mpr ⟨7, Finset.mem_univ _, rfl⟩
      · exact absurd h (List.not_mem_nil))

/-! ## The proof data family and the thread state -/

/-- Every pipeline's proof data, each at its launch's entry contents. -/
def pdats : (p : Fin 3) → (c : Dev nD) → Dat τ (Elt F) Unit ℕ (UR sig nD τ) ℕ (cfgs p) c
  | ⟨0, _⟩ => fun c => dat0 (VV1 m) c
  | ⟨1, _⟩ => fun c => dat1 (VV3 m) c
  | ⟨2, _⟩ => fun c => dat2 (VV5 m) c

/-- No core owes another anything: no level is assigned. -/
abbrev LL : GSem nD τ sig → Finset Unit := fun _ => ∅
abbrev lvl : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

set_option backward.isDefEq.respectTransparency.types false in
/-- Launch 0 over the thread state: entered from every unscoped buffer at the contents before it, left at those
    contents with its two result arrays replaced by what the pipeline's write-backs leave. Its arrays are split out of
    the unscoped buffers and put back at the exit contents; the generator register goes into the class invariant and
    comes out; nothing is owed; the kernel has no semaphore of its own. -/
def reg0 : Pipeline.RegionSeg (pcfgs (F := F)) Gen.adm (pdats m) () defs₀ Variants.none LL lvl 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ LL lvl 0 fun _ _ => rfl
  pre c := iprop(StableHlo.held (c : Thread nD τ) (Pipeline.ucRefs τ sig) (VV1v m c) ∗ R c)
  post c := iprop(StableHlo.held (c : Thread nD τ) (Pipeline.ucRefs τ sig) (VV2v m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left at those
    contents with its two result arrays replaced by what the pipeline's write-backs leave. Its arrays are split out of
    the unscoped buffers and put back at the exit contents; the generator register goes into the class invariant and
    comes out; nothing is owed; the kernel has no semaphore of its own. -/
def reg1 : Pipeline.RegionSeg (pcfgs (F := F)) Gen.adm (pdats m) () defs₀ Variants.none LL lvl 1 where
  win := launch1.win.to₀
  block_pos := launch1.block_pos
  stage_whole := launch1.stage_whole
  K := PEmpty
  osem k := k.elim
  ho := Pipeline.OwnSemFacts.none _
  hbody c := (body_obligation1 (VV3 m) c).loose
  hwaits := Pipeline.hwaits_of_owed_zero _ _ _ _ LL lvl 1 fun _ _ => rfl
  pre c := iprop(StableHlo.held (c : Thread nD τ) (Pipeline.ucRefs τ sig) (VV3v m c) ∗ R c)
  post c := iprop(StableHlo.held (c : Thread nD τ) (Pipeline.ucRefs τ sig) (VV4v m c) ∗ R c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VV3 m c) (VV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at the contents before it, left at those
    contents with its two result arrays replaced by what the pipeline's write-backs leave. Its arrays are split out of
    the unscoped buffers and put back at the exit contents; the generator register goes into the class invariant and
    comes out; nothing is owed; the kernel has no semaphore of its own. -/
def reg2 : Pipeline.RegionSeg (pcfgs (F := F)) Gen.adm (pdats m) () defs₀ Variants.none LL lvl 2 where
  win := launch2.win.to₀
  block_pos := launch2.block_pos
  stage_whole := launch2.stage_whole
  K := PEmpty
  osem k := k.elim
  ho := Pipeline.OwnSemFacts.none _
  hbody c := (body_obligation2 (VV5 m) c).loose
  hwaits := Pipeline.hwaits_of_owed_zero _ _ _ _ LL lvl 2 fun _ _ => rfl
  pre c := iprop(StableHlo.held (c : Thread nD τ) (Pipeline.ucRefs τ sig) (VV5v m c) ∗ R c)
  post c := iprop(StableHlo.held (c : Thread nD τ) (Pipeline.ucRefs τ sig) (VV6v m c) ∗ R c)
  X c := iprop(∃ r, prngReg c r)
  Y c := iprop(∃ r, prngReg c r)
  Z c := Pipeline.unscopedRest (Ix := Unit) (Name := ℕ) (U := UR sig nD τ) (Lvl := ℕ) spec2 c (VV5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (VV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (VV5 m c) (VV6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN: from any memory with zero counters every weakly fair execution of the program terminates, nothing
    faulting; the scalar result ends at what the last host stretch computes from the contents after the third launch,
    and the twelve argument arrays end as launched. -/
theorem run (ρ : Dev nD → PrngReg) :
    θ_run defs (onTc (τ := τ) (main (F := F))) ⟨m, fun _ => 0, ρ⟩ (fun r => ∀ c : Dev nD,
      r.2.mem ((c.tc : Thread nD τ).loc main_v113) = Gen.V9 m (outs m) c main_v113
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_cond m emb₁ () Variants.none LL lvl (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach LL lvl fun c => ?_
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => .rfl)
    (reg1 m) (fun c => by rw [V3_outs m c]; exact .rfl) (fun c => .rfl)
    (reg2 m) (fun c => by rw [V5_outs m c]; exact .rfl) (fun c => .rfl)

end Cert.KernelIdeal.Hand

end
-- ==== Proof.Spec.lean ====
/-
  The mathematics both programs compute, written once over the extended reals with the reference's own
  dimension records: a three-layer graph-convolution embedding followed by a pairwise ranking loss.

  * `ego0`      — the node features: user rows stacked on item rows, [100000, 64].
  * `side`      — the sparse product A·x as a segment sum: edge e adds val e · x[col e] into row (row e).
  * `preAct`    — (s·W₁ + b₁) + ((x ⊙ (s − x))·W₂ + b₂), s the sparse product of x.
  * `layerE`    — the leaky rectifier of `preAct`: z where z ≥ 0, 0.01·z elsewhere.
  * `layerN`    — each row divided by max(‖row‖₂, 1e-12).
  * `wg k`, `bg k`, `wb k`, `bb k` — layer k's slice of the stacked weights and biases.
  * `cat`       — the four embeddings side by side, [100000, 256].
  * `tail`      — rows gathered for the users, positive and negative items, the mean log-sigmoid of the
                    score differences negated, plus 1e-5 times the batch-mean of half the squared norms.
  * `result`    — the composition.
-/
import proofs.«117729_j22703197127156_1_alg».proof.ReferenceIdeal
import Idealize.ShloMosaic.PureOps.Ideal

noncomputable section

namespace Cert.Spec

open Idealize.ShloMosaic Cert.ReferenceIdeal
open Cert.ReferenceIdeal.Facts₀ Cert.ReferenceIdeal.Facts

-- the reference's stated side conditions (shape facts of its dimension records): every definition below cites them
variable [Cert.ReferenceIdeal.Facts]

/-- Node features, [100000, 64]. -/
abbrev Nodes : Type := FVec Ideal S100000x64 .f32

def zeroS : FVec Ideal S_ .f32 := constant (F := Ideal) S_ .f32 0x00000000#32

def ego0 (a0 a1 : FVec Ideal S50000x64 .f32) : Nodes :=
  concatenate S100000x64 0 [⟨S50000x64, a0⟩, ⟨S50000x64, a1⟩] concatenates_S50000x64_S50000x64_S100000x64_d0

/-- A column index as the gather reads it: negative indices wrap by the extent. -/
def colIdx (col : IVec S1600000 32) : IVec S1600000x1 32 :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

def side (val : FVec Ideal S1600000 .f32) (row col : IVec S1600000 32) (x : Nodes) : Nodes :=
  Host.scatterAdd scatter_S100000x64_S1600000x1_S1600000x64_1_0_0_1
    (broadcastInDim S100000x64 ![] bcast_S_S100000x64 zeroS)
    (broadcastInDim S1600000x1 ![0] bcast_S1600000_S1600000x1_0 row)
    (mulf (broadcastInDim S1600000x64 ![0, 1] bcast_S1600000x1_S1600000x64_0_1
            (broadcastInDim S1600000x1 ![0] bcast_S1600000_S1600000x1_0 val))
          (Host.gather gather_S100000x64_S1600000x1_S1600000x64_1_0_n_n_0_1_164 x (colIdx col)))

def preAct (x s : Nodes) (w1 : FVec Ideal S64x64 .f32) (b1 : FVec Ideal S1x64 .f32)
    (w2 : FVec Ideal S64x64 .f32) (b2 : FVec Ideal S1x64 .f32) : Nodes :=
  addf
    (addf (Host.dotGeneral dot_S100000x64_S64x64_S100000x64_1_0_0_1_n_n none s w1)
          (broadcastInDim S100000x64 ![0, 1] bcast_S1x64_S100000x64_0_1 b1))
    (addf (Host.dotGeneral dot_S100000x64_S64x64_S100000x64_1_0_0_1_n_n none (mulf x (subf s x)) w2)
          (broadcastInDim S100000x64 ![0, 1] bcast_S1x64_S100000x64_0_1 b2))

def leaky (z : Nodes) : Nodes :=
  select (cmpf .oge z (broadcastInDim S100000x64 ![] bcast_S_S100000x64 zeroS)) z
    (mulf (broadcastInDim S100000x64 ![] bcast_S_S100000x64 (constant (F := Ideal) S_ .f32 0x3C23D70A#32)) z)

def layerE (x s : Nodes) (w1 : FVec Ideal S64x64 .f32) (b1 : FVec Ideal S1x64 .f32)
    (w2 : FVec Ideal S64x64 .f32) (b2 : FVec Ideal S1x64 .f32) : Nodes :=
  leaky (preAct x s w1 b1 w2 b2)

def layerN (e : Nodes) : Nodes :=
  Host.divf e (broadcastInDim S100000x64 ![0, 1] bcast_S100000x1_S100000x64_0_1
    (maximumf
      (Host.sqrt (broadcastInDim S100000x1 ![0] bcast_S100000_S100000x1_0
        (Host.reduceAdd (mulf e e) zeroS reducesTo_S100000x64_S100000_d1 h_S_)))
      (broadcastInDim S100000x1 ![] bcast_S_S100000x1 (constant (F := Ideal) S_ .f32 0x2B8CBCCC#32))))

def wSlice0 (W : FVec Ideal S3x64x64 .f32) : FVec Ideal S64x64 .f32 :=
  shapeCast S64x64 (extractStridedSlice S1x64x64 ![0, 0, 0] W slices_S3x64x64_S1x64x64_0_0_0) shapeCasts_S1x64x64_S64x64
def wSlice1 (W : FVec Ideal S3x64x64 .f32) : FVec Ideal S64x64 .f32 :=
  shapeCast S64x64 (extractStridedSlice S1x64x64 ![1, 0, 0] W slices_S3x64x64_S1x64x64_1_0_0) shapeCasts_S1x64x64_S64x64
def wSlice2 (W : FVec Ideal S3x64x64 .f32) : FVec Ideal S64x64 .f32 :=
  shapeCast S64x64 (extractStridedSlice S1x64x64 ![2, 0, 0] W slices_S3x64x64_S1x64x64_2_0_0) shapeCasts_S1x64x64_S64x64
def bSlice0 (b : FVec Ideal S3x1x64 .f32) : FVec Ideal S1x64 .f32 :=
  shapeCast S1x64 (extractStridedSlice S1x1x64 ![0, 0, 0] b slices_S3x1x64_S1x1x64_0_0_0) shapeCasts_S1x1x64_S1x64
def bSlice1 (b : FVec Ideal S3x1x64 .f32) : FVec Ideal S1x64 .f32 :=
  shapeCast S1x64 (extractStridedSlice S1x1x64 ![1, 0, 0] b slices_S3x1x64_S1x1x64_1_0_0) shapeCasts_S1x1x64_S1x64
def bSlice2 (b : FVec Ideal S3x1x64 .f32) : FVec Ideal S1x64 .f32 :=
  shapeCast S1x64 (extractStridedSlice S1x1x64 ![2, 0, 0] b slices_S3x1x64_S1x1x64_2_0_0) shapeCasts_S1x1x64_S1x64

def cat (x0 n1 n2 n3 : Nodes) : FVec Ideal S100000x256 .f32 :=
  concatenate S100000x256 1 [⟨S100000x64, x0⟩, ⟨S100000x64, n1⟩, ⟨S100000x64, n2⟩, ⟨S100000x64, n3⟩]
    concatenates_S100000x64_S100000x64_S100000x64_S100000x64_S100000x256_d1

/-- A batch index as the gather reads it: negative indices wrap by 50000. -/
def batchIdx (a : IVec S4096 32) : IVec S4096x1 32 :=
  broadcastInDim S4096x1 ![0] bcast_S4096_S4096x1_0
    (select (cmpi .slt a (broadcastInDim S4096 ![] bcast_S_S4096 (constantI S_ 32 0#32)))
      (addi a (broadcastInDim S4096 ![] bcast_S_S4096 (constantI S_ 32 50000#32))) a)

def zero4096 : FVec Ideal S4096 .f32 := broadcastInDim S4096 ![] bcast_S_S4096 zeroS

/-- log(1 + eˣ), in the numerically stable spelling both programs use. -/
def softplus (a : FVec Ideal S4096 .f32) : FVec Ideal S4096 .f32 :=
  select (cmpf .une (subf a zero4096) (subf a zero4096)) (addf a zero4096)
    (addf (maximumf a zero4096) (Host.log1p (Host.exp (Host.negf (Host.absf (subf a zero4096))))))

def logSigmoid (d : FVec Ideal S4096 .f32) : FVec Ideal S4096 .f32 :=
  Host.negf (softplus (Host.negf d))

def halfSq (x : FVec Ideal S4096x256 .f32) : FVec Ideal S_ .f32 :=
  Host.divf (Host.reduceAdd (mulf x x) zeroS reducesTo_S4096x256_S_d0_1 h_S_) (constant (F := Ideal) S_ .f32 0x40000000#32)

def tail (c : FVec Ideal S100000x256 .f32) (u i j : IVec S4096 32) : FVec Ideal S_ .f32 :=
  let ug := extractStridedSlice S50000x256 ![0, 0] c slices_S100000x256_S50000x256_0_0
  let ig := extractStridedSlice S50000x256 ![50000, 0] c slices_S100000x256_S50000x256_50000_0
  let ue := Host.gather gather_S50000x256_S4096x1_S4096x256_1_0_n_n_0_1_1256 ug (batchIdx u)
  let pe := Host.gather gather_S50000x256_S4096x1_S4096x256_1_0_n_n_0_1_1256 ig (batchIdx i)
  let ne := Host.gather gather_S50000x256_S4096x1_S4096x256_1_0_n_n_0_1_1256 ig (batchIdx j)
  let yui := Host.reduceAdd (mulf ue pe) zeroS reducesTo_S4096x256_S4096_d1 h_S_
  let yuj := Host.reduceAdd (mulf ue ne) zeroS reducesTo_S4096x256_S4096_d1 h_S_
  let bpr := Host.negf (Host.divf (Host.reduceAdd (logSigmoid (subf yui yuj)) zeroS reducesTo_S4096_S_d0 h_S_)
      (constant (F := Ideal) S_ .f32 0x45800000#32))
  let l2 := Host.divf (addf (addf (halfSq ue) (halfSq pe)) (halfSq ne)) (constant (F := Ideal) S_ .f32 0x45800000#32)
  addf bpr (mulf (constant (F := Ideal) S_ .f32 0x3727C5AC#32) l2)

/-- The whole computation, from the twelve argument arrays. -/
def result (a0 a1 : FVec Ideal S50000x64 .f32) (Wg : FVec Ideal S3x64x64 .f32) (Bg : FVec Ideal S3x1x64 .f32)
    (Wb : FVec Ideal S3x64x64 .f32) (Bb : FVec Ideal S3x1x64 .f32) (val : FVec Ideal S1600000 .f32)
    (row col : IVec S1600000 32) (u i j : IVec S4096 32) : FVec Ideal S_ .f32 :=
  let x0 := ego0 a0 a1
  let e1 := layerE x0 (side val row col x0) (wSlice0 Wg) (bSlice0 Bg) (wSlice0 Wb) (bSlice0 Bb)
  let e2 := layerE e1 (side val row col e1) (wSlice1 Wg) (bSlice1 Bg) (wSlice1 Wb) (bSlice1 Bb)
  let e3 := layerE e2 (side val row col e2) (wSlice2 Wg) (bSlice2 Bg) (wSlice2 Wb) (bSlice2 Bb)
  tail (cat x0 (layerN e1) (layerN e2) (layerN e3)) u i j

end Cert.Spec

end
-- ==== Proof.KI.Glue.lean ====
/-
  What the host stretches of the idealized program compute, read over an arbitrary valuation `W` of the buffers at the
  stretch's entry: the stacked node features, the sparse product (a gather of the columns' rows, scaled by the edge
  values, summed into the rows' segments), each layer's slice of the stacked weights and biases, and the loss tail
  over the four embeddings side by side — each as the named function of the specification.
-/
import proofs.«117729_j22703197127156_1_alg».proof.Proof.Gen.KernelIdeal.Regions
import proofs.«117729_j22703197127156_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem

variable [Cert.ReferenceIdeal.Facts] [Cert.KernelIdeal.Facts]
variable (W : Valuation τ sig (Elt Ideal))

/-! ## Before the first launch -/

theorem g0_v0 : StableHlo.after (hostOps0 (F := Ideal)) W (Proc.devRef .tc main_v0) = Cert.Spec.ego0 (W (Proc.devRef .tc main_arg0)) (W (Proc.devRef .tc main_arg1)) := by
  after_results_simp; rfl
theorem g0_v13 : StableHlo.after (hostOps0 (F := Ideal)) W (Proc.devRef .tc main_v13)
    = Cert.Spec.side (W (Proc.devRef .tc main_arg6)) (W (Proc.devRef .tc main_arg7)) (W (Proc.devRef .tc main_arg8)) (Cert.Spec.ego0 (W (Proc.devRef .tc main_arg0)) (W (Proc.devRef .tc main_arg1))) := by
  after_results_simp; rfl
theorem g0_v15 : StableHlo.after (hostOps0 (F := Ideal)) W (Proc.devRef .tc main_v15) = Cert.Spec.wSlice0 (W (Proc.devRef .tc main_arg2)) := by
  after_results_simp; rfl
theorem g0_v17 : StableHlo.after (hostOps0 (F := Ideal)) W (Proc.devRef .tc main_v17) = Cert.Spec.bSlice0 (W (Proc.devRef .tc main_arg3)) := by
  after_results_simp; rfl
theorem g0_v19 : StableHlo.after (hostOps0 (F := Ideal)) W (Proc.devRef .tc main_v19) = Cert.Spec.wSlice0 (W (Proc.devRef .tc main_arg4)) := by
  after_results_simp; rfl
theorem g0_v21 : StableHlo.after (hostOps0 (F := Ideal)) W (Proc.devRef .tc main_v21) = Cert.Spec.bSlice0 (W (Proc.devRef .tc main_arg5)) := by
  after_results_simp; rfl

/-! ## Between the first and the second launch -/

theorem g1_v35 : StableHlo.after (hostOps1 (F := Ideal)) W (Proc.devRef .tc main_v35)
    = Cert.Spec.side (W (Proc.devRef .tc main_arg6)) (W (Proc.devRef .tc main_arg7)) (W (Proc.devRef .tc main_arg8)) (W (Proc.devRef .tc main_v22_0)) := by
  after_results_simp; rfl
theorem g1_v37 : StableHlo.after (hostOps1 (F := Ideal)) W (Proc.devRef .tc main_v37) = Cert.Spec.wSlice1 (W (Proc.devRef .tc main_arg2)) := by
  after_results_simp; rfl
theorem g1_v39 : StableHlo.after (hostOps1 (F := Ideal)) W (Proc.devRef .tc main_v39) = Cert.Spec.bSlice1 (W (Proc.devRef .tc main_arg3)) := by
  after_results_simp; rfl
theorem g1_v41 : StableHlo.after (hostOps1 (F := Ideal)) W (Proc.devRef .tc main_v41) = Cert.Spec.wSlice1 (W (Proc.devRef .tc main_arg4)) := by
  after_results_simp; rfl
theorem g1_v43 : StableHlo.after (hostOps1 (F := Ideal)) W (Proc.devRef .tc main_v43) = Cert.Spec.bSlice1 (W (Proc.devRef .tc main_arg5)) := by
  after_results_simp; rfl

/-! ## Between the second and the third launch -/

theorem g2_v57 : StableHlo.after (hostOps2 (F := Ideal)) W (Proc.devRef .tc main_v57)
    = Cert.Spec.side (W (Proc.devRef .tc main_arg6)) (W (Proc.devRef .tc main_arg7)) (W (Proc.devRef .tc main_arg8)) (W (Proc.devRef .tc main_v44_0)) := by
  after_results_simp; rfl
theorem g2_v59 : StableHlo.after (hostOps2 (F := Ideal)) W (Proc.devRef .tc main_v59) = Cert.Spec.wSlice2 (W (Proc.devRef .tc main_arg2)) := by
  after_results_simp; rfl
theorem g2_v61 : StableHlo.after (hostOps2 (F := Ideal)) W (Proc.devRef .tc main_v61) = Cert.Spec.bSlice2 (W (Proc.devRef .tc main_arg3)) := by
  after_results_simp; rfl
theorem g2_v63 : StableHlo.after (hostOps2 (F := Ideal)) W (Proc.devRef .tc main_v63) = Cert.Spec.wSlice2 (W (Proc.devRef .tc main_arg4)) := by
  after_results_simp; rfl
theorem g2_v65 : StableHlo.after (hostOps2 (F := Ideal)) W (Proc.devRef .tc main_v65) = Cert.Spec.bSlice2 (W (Proc.devRef .tc main_arg5)) := by
  after_results_simp; rfl

/-! ## After the third launch -/

set_option maxHeartbeats 2000000 in
theorem g3_v113 :
    StableHlo.after (hostOps3_2 (F := Ideal)) (StableHlo.after (hostOps3_1 (F := Ideal)) (StableHlo.after (hostOps3 (F := Ideal)) W)) (Proc.devRef .tc main_v113)
      = Cert.Spec.tail (Cert.Spec.cat (W (Proc.devRef .tc main_v0)) (W (Proc.devRef .tc main_v22_1)) (W (Proc.devRef .tc main_v44_1)) (W (Proc.devRef .tc main_v66_1)))
          (W (Proc.devRef .tc main_arg9)) (W (Proc.devRef .tc main_arg10)) (W (Proc.devRef .tc main_arg11)) := by
  after_results_simp; rfl

end Cert.KernelIdeal.Hand

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibRowTileDot.lean ====
/-
  A row tile of a matrix product.  Cut the rows of an M × K array X into tiles of B rows; the tile that holds row r at its
  local row p is a B × K array T with T(p, k) = X(r, k).  Multiplying the tile by the whole K × N array W gives, at the
  entry (p, c), the sum over k < K of T(p, k) · W(k, c) = X(r, k) · W(k, c): the entry (r, c) of the whole product X · W.
  Nothing but the two sums being the same sum term by term is used, so the statement holds on the extended reals with
  no finiteness assumption.  The tile's product is the kernel's (into a zero accumulator); the whole product is the
  host's.  Each operand of the tile's product may be a copy of the whole array's rows or columns in any float format:
  only the values at the entries the sum visits are compared.
-/
import Idealize.ShloMosaic.PureOps.Ideal.Laws
import Idealize.ShloMosaic.Lib.ValueIdx
import proofs.«117729_j22703197127156_1_alg».proof.Proof.LibPlainDot

noncomputable section

namespace Cert.LibRowTileDot

open Idealize.ShloMosaic Idealize.ShloMosaic.ValueIdx

variable {M B K N : Nat} {φ₁ φ₂ ψ₁ ψ₂ : FTy}
  (Dt : DotDims (⟨2, ![B, K]⟩ : Shape) (⟨2, ![K, N]⟩ : Shape) (⟨2, ![B, N]⟩ : Shape))
  (htrank : Dt.contr.rank = 1) (htsize : Dt.contr.size ⟨0, by omega⟩ = K)
  (htlc : Dt.lhsContracting = [1]) (htrc : Dt.rhsContracting = [0])
  (htL0 : ∀ j k, (Dt.lhsIdx j k 0).val = (j 0).val) (htR1 : ∀ j k, (Dt.rhsIdx j k 1).val = (j 1).val)
  (Dh : DotDims (⟨2, ![M, K]⟩ : Shape) (⟨2, ![K, N]⟩ : Shape) (⟨2, ![M, N]⟩ : Shape))
  (hhrank : Dh.contr.rank = 1) (hhsize : Dh.contr.size ⟨0, by omega⟩ = K)
  (hhlc : Dh.lhsContracting = [1]) (hhrc : Dh.rhsContracting = [0])
  (hhL0 : ∀ j k, (Dh.lhsIdx j k 0).val = (j 0).val) (hhR1 : ∀ j k, (Dh.rhsIdx j k 1).val = (j 1).val)

include htrank htsize htlc htrc htL0 htR1 hhrank hhsize hhlc hhrc hhL0 hhR1 in
/-- Entry (p, c) of the tile's product into a zero accumulator is entry (r, c) of the whole host product, when the
    tile's row p is the whole array's row r and the tile's right operand has the whole right operand's column c. -/
theorem tile_entry (prec prec' : Option ContractPrecision) (sched : HostSchedule)
    (T : FVec Ideal (⟨2, ![B, K]⟩ : Shape) φ₁) (Wt : FVec Ideal (⟨2, ![K, N]⟩ : Shape) φ₂)
    (X : FVec Ideal (⟨2, ![M, K]⟩ : Shape) ψ₁) (W : FVec Ideal (⟨2, ![K, N]⟩ : Shape) ψ₂)
    (p : Fin B) (c : Fin N) (r : Fin M)
    (hT : ∀ k : Fin K, (T (ix2 p k) : EReal) = X (ix2 r k)) (hW : ∀ k : Fin K, (Wt (ix2 k c) : EReal) = W (ix2 k c)) :
    FloatOps.matmul Dt prec T Wt (constant (⟨2, ![B, N]⟩ : Shape) .f32 0x00000000#32) (ix2 p c)
      = FloatOps.dotGeneral Dh prec' sched X W (ix2 r c) := by
  rw [Cert.LibPlainDot.matmul_zero_apply Dt htrank htsize htlc htrc htL0 htR1 prec T Wt p c,
    Cert.LibPlainDot.dotGeneral_apply Dh hhrank hhsize hhlc hhrc hhL0 hhR1 prec' sched X W r c]
  exact Finset.sum_congr rfl fun k _ => by rw [hT k, hW k]

end Cert.LibRowTileDot

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.LayerAct.lean ====
/-
  One graph-convolution layer, entry by entry, on the extended reals.

  The node arrays have 100000 rows of 64 features and are cut into 20 row tiles of 5000 rows.  For a tile that holds
  the rows 5000·t … 5000·t + 4999 of the features x and of the sparse product s, the tile's activation

      leaky ((s·W₁ + b₁) + ((x ⊙ (s − x))·W₂ + b₂))

  at the local entry (p, q) is the whole arrays' activation at (5000·t + p, q): a row of a matrix product needs only
  that row of the left operand, a bias row is spread over every row alike, and everything else acts entry by entry.
  The tile's normalised activation — each row divided by max(√(row sum of squares), 1e-12) — is likewise the whole
  arrays' normalised activation at that row: the row's sum of squares is a sum over the 64 entries of the row, the
  same sum whether it is taken inside the tile or over the whole array.  No finiteness is assumed anywhere: both
  sides are the same expression of the same entries.
-/
import proofs.«117729_j22703197127156_1_alg».proof.Proof.Spec
import proofs.«117729_j22703197127156_1_alg».proof.Proof.Gen.KernelIdeal.Skeleton
import proofs.«117729_j22703197127156_1_alg».proof.Proof.LibRowTileDot
import proofs.«117729_j22703197127156_1_alg».proof.Proof.LibUnitAxes
import Idealize.ShloMosaic.PureOps.Ideal.Laws
import Idealize.ShloMosaic.Lib.ValueIdx
import Idealize.ShloMosaic.Lib.ValueLayout
import Idealize.ShloMosaic.Lib.Pipeline.Value

noncomputable section

namespace Cert.LayerLaw

open Idealize.ShloMosaic Idealize.ShloMosaic.ValueIdx

variable [Cert.ReferenceIdeal.Facts] [Cert.KernelIdeal.Facts]

/-- The tile product's dimension numbers and the whole product's. -/
abbrev Dt := Cert.KernelIdeal.dot_S5000x64_S64x64_S5000x64_1_0_0_1_n_n
abbrev Dh := Cert.ReferenceIdeal.dot_S100000x64_S64x64_S100000x64_1_0_0_1_n_n

theorem dt_L0 (j k) : ((Dt).lhsIdx j k 0).val = (j 0).val := rfl
theorem dt_R1 (j k) : ((Dt).rhsIdx j k 1).val = (j 1).val := rfl
theorem dh_L0 (j k) : ((Dh).lhsIdx j k 0).val = (j 0).val := rfl
theorem dh_R1 (j k) : ((Dh).rhsIdx j k 1).val = (j 1).val := rfl

/-- Entry (p, q) of a tile's product T·W into the zero accumulator is entry (r, q) of the whole product X·W when
    the tile's row p is the whole array's row r. -/
theorem dot_at {φ₁ φ₂ : FTy} (T : FVec Ideal Cert.KernelIdeal.S5000x64 φ₁) (Wt : FVec Ideal Cert.KernelIdeal.S64x64 φ₂)
    (X : Cert.Spec.Nodes) (W : FVec Ideal Cert.ReferenceIdeal.S64x64 .f32) (p : Fin 5000) (q : Fin 64) (r : Fin 100000)
    (hT : ∀ k : Fin 64, (T (ix2 p k) : EReal) = X (ix2 r k)) (hW : ∀ k : Fin 64, (Wt (ix2 k q) : EReal) = W (ix2 k q)) :
    matmul (Dt) none T Wt (constant Cert.KernelIdeal.S5000x64 .f32 0x00000000#32) (ix2 p q)
      = Host.dotGeneral (Dh) none X W (ix2 r q) :=
  Cert.LibRowTileDot.tile_entry (Dt) rfl rfl rfl rfl dt_L0 dt_R1 (Dh) rfl rfl rfl rfl dh_L0 dh_R1 none none HostSchedule.single
    T Wt X W p q r hT hW

/-- A bias row spread over the tile's rows and over the whole array's rows reads the same entry of the row. -/
theorem bias_at (b : FVec Ideal Cert.ReferenceIdeal.S1x64 .f32) (p : Fin 5000) (q : Fin 64) (r : Fin 100000) :
    broadcastTo Cert.KernelIdeal.S5000x64 b Cert.KernelIdeal.Facts₀.broadcasts_S1x64_S5000x64 (ix2 p q)
      = broadcastInDim Cert.ReferenceIdeal.S100000x64 ![0, 1] Cert.ReferenceIdeal.Facts₀.bcast_S1x64_S100000x64_0_1 b (ix2 r q) :=
  (broadcastTo_1b_ab_apply b _ p q).trans (Cert.LibUnitAxes.broadcastInDim_1b_ab_apply b _ r q).symm

theorem pre_at (x s : Cert.Spec.Nodes) (w1 w2 : FVec Ideal Cert.ReferenceIdeal.S64x64 .f32) (b1 b2 : FVec Ideal Cert.ReferenceIdeal.S1x64 .f32)
    (x0 x1 : Vec Ideal Cert.KernelIdeal.S5000x64 .f32) (t : Fin 20)
    (hx : ∀ (p : Fin 5000) (q : Fin 64), x0 (ix2 p q) = x (ix2 ⟨5000 * t.val + p.val, by omega⟩ q))
    (hs : ∀ (p : Fin 5000) (q : Fin 64), x1 (ix2 p q) = s (ix2 ⟨5000 * t.val + p.val, by omega⟩ q))
    (p : Fin 5000) (q : Fin 64) :
    addf
      (addf (matmul (Dt) none (truncf .bf16 x1 Cert.KernelIdeal.Facts₀.bitsLt_bf16_f32) (truncf .bf16 w1 Cert.KernelIdeal.Facts₀.bitsLt_bf16_f32)
              (constant Cert.KernelIdeal.S5000x64 .f32 0x00000000#32))
            (broadcastTo Cert.KernelIdeal.S5000x64 b1 Cert.KernelIdeal.Facts₀.broadcasts_S1x64_S5000x64))
      (addf (matmul (Dt) none (truncf .bf16 (mulf x0 (subf x1 x0)) Cert.KernelIdeal.Facts₀.bitsLt_bf16_f32)
              (truncf .bf16 w2 Cert.KernelIdeal.Facts₀.bitsLt_bf16_f32) (constant Cert.KernelIdeal.S5000x64 .f32 0x00000000#32))
            (broadcastTo Cert.KernelIdeal.S5000x64 b2 Cert.KernelIdeal.Facts₀.broadcasts_S1x64_S5000x64))
      (ix2 p q)
    = Cert.Spec.preAct x s w1 b1 w2 b2 (ix2 ⟨5000 * t.val + p.val, by omega⟩ q) := by
  unfold Cert.Spec.preAct
  simp only [addf_apply]
  rw [dot_at (truncf .bf16 x1 _) (truncf .bf16 w1 _) s w1 p q ⟨5000 * t.val + p.val, by omega⟩ (fun k => hs p k) (fun _ => rfl),
    dot_at (truncf .bf16 (mulf x0 (subf x1 x0)) _) (truncf .bf16 w2 _) (mulf x (subf s x)) w2 p q ⟨5000 * t.val + p.val, by omega⟩
      (fun k => by
        show x0 (ix2 p k) * (x1 (ix2 p k) - x0 (ix2 p k)) = x (ix2 _ k) * (s (ix2 _ k) - x (ix2 _ k))
        rw [hx p k, hs p k]) (fun _ => rfl),
    bias_at b1 p q ⟨5000 * t.val + p.val, by omega⟩, bias_at b2 p q ⟨5000 * t.val + p.val, by omega⟩]

/-- The tile's activation at (p, q) is the whole arrays' activation at (5000·t + p, q). -/
theorem act_at (x s : Cert.Spec.Nodes) (w1 w2 : FVec Ideal Cert.ReferenceIdeal.S64x64 .f32) (b1 b2 : FVec Ideal Cert.ReferenceIdeal.S1x64 .f32)
    (x0 x1 : Vec Ideal Cert.KernelIdeal.S5000x64 .f32) (t : Fin 20)
    (hx : ∀ (p : Fin 5000) (q : Fin 64), x0 (ix2 p q) = x (ix2 ⟨5000 * t.val + p.val, by omega⟩ q))
    (hs : ∀ (p : Fin 5000) (q : Fin 64), x1 (ix2 p q) = s (ix2 ⟨5000 * t.val + p.val, by omega⟩ q))
    (p : Fin 5000) (q : Fin 64) :
    Cert.KernelIdeal.Gen.k0_pay2 (F := Ideal) x0 x1 w1 w2 b1 b2 (ix2 p q)
      = Cert.Spec.layerE x s w1 b1 w2 b2 (ix2 ⟨5000 * t.val + p.val, by omega⟩ q) := by
  unfold Cert.KernelIdeal.Gen.k0_pay2 Cert.Spec.layerE Cert.Spec.leaky
  simp only [shapeCast_self]
  rw [select_apply, select_apply, cmpf_apply, cmpf_apply, mulf_apply, mulf_apply,
    pre_at x s w1 w2 b1 b2 x0 x1 t hx hs p q,
    Cert.LibUnitAxes.broadcastInDim_scalar_apply, Cert.LibUnitAxes.broadcastInDim_scalar_apply]
  rfl

/-- The second and third launches' activations are the first's, term for term. -/
theorem k1_pay2_eq : @Cert.KernelIdeal.Gen.k1_pay2 = @Cert.KernelIdeal.Gen.k0_pay2 := rfl
theorem k2_pay2_eq : @Cert.KernelIdeal.Gen.k2_pay2 = @Cert.KernelIdeal.Gen.k0_pay2 := rfl

theorem act_at1 (x s : Cert.Spec.Nodes) (w1 w2 : FVec Ideal Cert.ReferenceIdeal.S64x64 .f32) (b1 b2 : FVec Ideal Cert.ReferenceIdeal.S1x64 .f32)
    (x0 x1 : Vec Ideal Cert.KernelIdeal.S5000x64 .f32) (t : Fin 20)
    (hx : ∀ (p : Fin 5000) (q : Fin 64), x0 (ix2 p q) = x (ix2 ⟨5000 * t.val + p.val, by omega⟩ q))
    (hs : ∀ (p : Fin 5000) (q : Fin 64), x1 (ix2 p q) = s (ix2 ⟨5000 * t.val + p.val, by omega⟩ q))
    (p : Fin 5000) (q : Fin 64) :
    Cert.KernelIdeal.Gen.k1_pay2 (F := Ideal) x0 x1 w1 w2 b1 b2 (ix2 p q)
      = Cert.Spec.layerE x s w1 b1 w2 b2 (ix2 ⟨5000 * t.val + p.val, by omega⟩ q) :=
  act_at x s w1 w2 b1 b2 x0 x1 t hx hs p q

theorem act_at2 (x s : Cert.Spec.Nodes) (w1 w2 : FVec Ideal Cert.ReferenceIdeal.S64x64 .f32) (b1 b2 : FVec Ideal Cert.ReferenceIdeal.S1x64 .f32)
    (x0 x1 : Vec Ideal Cert.KernelIdeal.S5000x64 .f32) (t : Fin 20)
    (hx : ∀ (p : Fin 5000) (q : Fin 64), x0 (ix2 p q) = x (ix2 ⟨5000 * t.val + p.val, by omega⟩ q))
    (hs : ∀ (p : Fin 5000) (q : Fin 64), x1 (ix2 p q) = s (ix2 ⟨5000 * t.val + p.val, by omega⟩ q))
    (p : Fin 5000) (q : Fin 64) :
    Cert.KernelIdeal.Gen.k2_pay2 (F := Ideal) x0 x1 w1 w2 b1 b2 (ix2 p q)
      = Cert.Spec.layerE x s w1 b1 w2 b2 (ix2 ⟨5000 * t.val + p.val, by omega⟩ q) :=
  act_at x s w1 w2 b1 b2 x0 x1 t hx hs p q

end Cert.LayerLaw

end
-- ==== Proof.LibLaneSums.lean ====
/-
  Sums along one axis, and trailing unit axes, read at coordinates.

  On the extended reals a sum of a rank-3 array [a, b, c] along its middle axis, started from the neutral element, is at
  (p, f) the plain sum over k < b of the array at (p, k, f); a sum of an [a, b] array along its last axis is at p the sum
  over k < b of the array at (p, k).  A trailing unit axis moves no element: an [a] array seen as [a, 1] reads, at
  (p, 0), the array at p; an [a, b] array seen as [a, b, 1] reads, at (p, j, 0), the array at (p, j); and an [a, b, 1]
  array spread along its unit axis to [a, b, c] reads, at (p, j, f), the array at (p, j, 0).
-/
import Idealize.ShloMosaic.PureOps.Ideal.Laws
import Idealize.ShloMosaic.Lib.ValueIdx
import Idealize.ShloMosaic.Lib.Pipeline.Value

noncomputable section

namespace Cert.LibLaneSums

open Idealize.ShloMosaic Idealize.ShloMosaic.ValueIdx

variable {α : Type}

/-! ## Sums along one axis -/

/-- The source index above (p, f) with k on the summed middle axis is (p, k, f). -/
theorem lift_mid {a b c : ℕ} (h : (⟨3, ![a, b, c]⟩ : Shape).Reduces [1] ⟨2, ![a, c]⟩) (p : Fin a) (f : Fin c) (k : Fin b) :
    h.lift (ix2 p f) k = ix3 p k f := by
  funext d; apply Fin.ext
  show h.liftVal (ix2 p f) k.val d = (ix3 p k f d).val
  unfold Shape.Reduces.liftVal
  match d with
  | ⟨0, _⟩ => rfl
  | ⟨1, _⟩ => rfl
  | ⟨2, _⟩ => rfl

/-- The source index above p with k on the summed last axis is (p, k). -/
theorem lift_last {a b : ℕ} (h : (⟨2, ![a, b]⟩ : Shape).Reduces [1] ⟨1, ![a]⟩) (p : Fin a) (k : Fin b) :
    h.lift (ix1 p) k = ix2 p k := by
  funext d; apply Fin.ext
  show h.liftVal (ix1 p) k.val d = (ix2 p k d).val
  unfold Shape.Reduces.liftVal
  match d with
  | ⟨0, _⟩ => rfl
  | ⟨1, _⟩ => rfl

/-- A sum of an [a, b, c] array along its middle axis, from the neutral element, at (p, f): the sum over k of the
    array at (p, k, f). -/
theorem sum_mid_apply {a b c : ℕ} {φ : FTy} (src : FVec Ideal (⟨3, ![a, b, c]⟩ : Shape) φ) (acc : BitVec φ.bits)
    (h : (⟨3, ![a, b, c]⟩ : Shape).Reduces [1] ⟨2, ![a, c]⟩) (hφ : FKind.Formats φ) (hacc : acc = FKind.add.neutral φ hφ)
    (p : Fin a) (f : Fin c) :
    multiReduction .add [1] (⟨2, ![a, c]⟩ : Shape) src acc h hφ hacc (ix2 p f) = ∑ k : Fin b, src (ix3 p k f) :=
  (Ideal.multiReduction_add_single src acc h hφ hacc (ix2 p f)).trans
    (Finset.sum_congr rfl fun k _ => congrArg src (lift_mid h p f k))

/-- A sum of an [a, b] array along its last axis, from the neutral element, at p: the sum over k of the array at
    (p, k). -/
theorem sum_last_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_last h p k))

/-! ## Trailing unit axes -/

/-- An [a] array seen as [a, 1] reads, at (p, u), the array at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An [a, b] array seen as [a, b, 1] reads, at (p, j, u), the array at (p, j). -/
theorem shapeCast_ab_ab1_apply {a b : ℕ} (x : (⟨2, ![a, b]⟩ : Shape).Idx → α)
    (h : (⟨2, ![a, b]⟩ : Shape).ShapeCasts ⟨3, ![a, b, 1]⟩) (p : Fin a) (j : Fin b) (u : Fin 1) :
    shapeCast ⟨3, ![a, b, 1]⟩ x h (ix3 p j u) = x (ix2 p j) :=
  shapeCast_apply x h _ _ (by
    have hu : u.val = 0 := by omega
    rw [Shape.rowMajor_val_three, Shape.rowMajor_val_two]
    show p.val * b + j.val = (p.val * b + j.val) * 1 + u.val
    omega)

/-- An [a, b, 1] array spread along its unit axis to [a, b, c] reads, at (p, j, f), the array at (p, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (j : Fin b) (f : Fin c) :
    broadcastTo ⟨3, ![a, b, c]⟩ v h (ix3 p j f) = v (ix3 p j (0 : Fin 1)) := by
  refine broadcastTo_apply v h (ix3 p j f) (ix3 p j (0 : Fin 1)) fun ax => ?_
  match ax with
  | ⟨0, _⟩ =>
    show p.val = if a = 1 then 0 else p.val
    split
    · have := p.isLt; omega
    · rfl
  | ⟨1, _⟩ =>
    show j.val = if b = 1 then 0 else j.val
    split
    · have := j.isLt; omega
    · rfl
  | ⟨2, _⟩ => rfl

end Cert.LibLaneSums

end
-- ==== Proof.LibUnitColumns.lean ====
/-
  A vector presented with a unit axis, read at coordinates.  A vector [a] broadcast along dimension 0 of [a, 1], or cast
  to [a, 1], is the same elements in the same order: entry (p, 0) is the vector's entry p.  A vector [b] broadcast along
  dimension 1 of [1, b] reads, at (0, q), the vector's entry q.  (An index vector handed to a scatter or a gather as a
  column of start indices; a per-row factor handed to a kernel as a column; a bias handed to it as a row.)
-/
import Idealize.ShloMosaic.Lib.Pipeline.Value
import Idealize.ShloMosaic.Lib.ValueIdx
import Idealize.ShloMosaic.Lib.ValueLayout

noncomputable section

namespace Cert.LibUnitColumns

open Idealize.ShloMosaic Idealize.ShloMosaic.ValueIdx

variable {α : Type}

/-- The host's broadcast of a vector [a] along dimension 0 of [a, 1] reads, at (p, u), the vector at p. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply ![0] h v (ix2 p u) (ix1 p) (fun ax => match ax with
    | ⟨0, _⟩ => by
      show p.val = if a = 1 then 0 else p.val
      split
      · have := p.isLt; omega
      · rfl)

/-- Casting a vector [a] to a column [a, 1] moves no element: entry (p, u) is the vector at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h (ix2 p u) (ix1 p) (by
    rw [Shape.rowMajor_val_two, Shape.rowMajor_val_one]
    show p.val = p.val * 1 + u.val
    omega)

/-- The host's broadcast of a vector [b] along dimension 1 of [1, b] reads, at (u, q), the vector at q. -/
theorem broadcastInDim_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) :=
  broadcastInDim_apply ![1] h v (ix2 u q) (ix1 q) (fun ax => match ax with
    | ⟨0, _⟩ => by
      show q.val = if b = 1 then 0 else q.val
      split
      · have := q.isLt; omega
      · rfl)

end Cert.LibUnitColumns

end
-- ==== Proof.LayerLaw.lean ====
/-
  One graph-convolution layer, entry by entry, on the extended reals.

  The node arrays have 100000 rows of 64 features and are cut into 20 row tiles of 5000 rows.  For a tile that holds
  the rows 5000·t … 5000·t + 4999 of the features x and of the sparse product s, the tile's activation

      leaky ((s·W₁ + b₁) + ((x ⊙ (s − x))·W₂ + b₂))

  at the local entry (p, q) is the whole arrays' activation at (5000·t + p, q): a row of a matrix product needs only
  that row of the left operand, a bias row is spread over every row alike, and everything else acts entry by entry.
  The tile's normalised activation — each row divided by max(√(row sum of squares), 1e-12) — is likewise the whole
  arrays' normalised activation at that row: the row's sum of squares is a sum over the 64 entries of the row, the
  same sum whether it is taken inside the tile or over the whole array.  No finiteness is assumed anywhere: both
  sides are the same expression of the same entries.
-/
import proofs.«117729_j22703197127156_1_alg».proof.Proof.Spec
import proofs.«117729_j22703197127156_1_alg».proof.Proof.Gen.KernelIdeal.Skeleton
import proofs.«117729_j22703197127156_1_alg».proof.Proof.LayerAct
import proofs.«117729_j22703197127156_1_alg».proof.Proof.LibUnitAxes
import proofs.«117729_j22703197127156_1_alg».proof.Proof.LibLaneSums
import proofs.«117729_j22703197127156_1_alg».proof.Proof.LibUnitColumns
import Idealize.ShloMosaic.PureOps.Ideal.Laws
import Idealize.ShloMosaic.Lib.ValueIdx
import Idealize.ShloMosaic.Lib.ValueLayout
import Idealize.ShloMosaic.Lib.Pipeline.Value

noncomputable section

namespace Cert.LayerLaw

open Idealize.ShloMosaic Idealize.ShloMosaic.ValueIdx

variable [Cert.ReferenceIdeal.Facts] [Cert.KernelIdeal.Facts]

/-- The host's sum of an [a, b] array along its last axis, from an initial value, at p: the initial value plus the sum
    over k of the array at (p, k). -/
theorem hostSum_last_apply {a b : ℕ} (x : (⟨2, ![a, b]⟩ : Shape).Idx → EReal) (init : EReal)
    (h' : (⟨2, ![a, b]⟩ : Shape).ReducesTo [1] ⟨1, ![a]⟩) (p : Fin a) :
    Ideal.hostReduceAdd h' x init (ix1 p) = init + ∑ k : Fin b, x (ix2 p k) :=
  (Ideal.hostReduceAdd_single h' ⟨h'.1, Nat.one_pos, h'.2⟩ x init (ix1 p)).trans
    (congrArg (init + ·) (Finset.sum_congr rfl fun k _ =>
      congrArg x (Cert.LibLaneSums.lift_last (⟨h'.1, Nat.one_pos, h'.2⟩ : (⟨2, ![a, b]⟩ : Shape).Reduces [1] ⟨1, ![a]⟩) p k)))

/-- A tile's row sums of squares, at row p: the sum over the row's 64 entries of their squares. -/
theorem rowsq_tile (A : FVec Ideal Cert.KernelIdeal.S5000x64 .f32) (p : Fin 5000) :
    multiReduction .add [1] Cert.KernelIdeal.S5000 (mulf A A) 0x00000000#32
        Cert.KernelIdeal.Facts₀.reduces_S5000x64_S5000 (.inl rfl) rfl (ix1 p)
      = ∑ k : Fin 64, A (ix2 p k) * A (ix2 p k) :=
  Cert.LibLaneSums.sum_last_apply (mulf A A) 0x00000000#32 _ _ _ p

/-- The whole array's row sums of squares, at row r: the same sum over that row (the host starts from zero). -/
theorem rowsq_host (E : Cert.Spec.Nodes) (r : Fin 100000) :
    Host.reduceAdd (mulf E E) Cert.Spec.zeroS Cert.ReferenceIdeal.Facts₀.reducesTo_S100000x64_S100000_d1
        Cert.ReferenceIdeal.Facts₀.h_S_ (ix1 r)
      = ∑ k : Fin 64, E (ix2 r k) * E (ix2 r k) := by
  unfold Host.reduceAdd
  refine (hostSum_last_apply (mulf E E) _ Cert.ReferenceIdeal.Facts₀.reducesTo_S100000x64_S100000_d1 r).trans ?_
  show Ideal.ofBits .f32 0x00000000#32 + _ = _
  rw [Ideal.ofBits_zero_f32, zero_add]
  rfl

/-- The tile's divisor at (p, q), from the tile's row sums R: max(√R(p), the floor constant). -/
theorem den_tile (R : FVec Ideal Cert.KernelIdeal.S5000 .f32) (p : Fin 5000) (q : Fin 64) :
    broadcastTo Cert.KernelIdeal.S5000x64
        (maximumf (sqrt (shapeCast Cert.KernelIdeal.S5000x1 R Cert.KernelIdeal.Facts₀.shapeCasts_S5000_S5000x1))
          (broadcast Cert.KernelIdeal.S5000x1 (Scalar.ofBits .f32 0x2B8CBCCC#32)))
        Cert.KernelIdeal.Facts₀.broadcasts_S5000x1_S5000x64 (ix2 p q)
      = max (Ideal.sqrt (R (ix1 p))) (Ideal.ofBits .f32 0x2B8CBCCC#32) := by
  refine (Cert.LibUnitAxes.broadcastTo_a1_ab_apply _ _ p q).trans ?_
  refine congrArg (fun z => max (Ideal.sqrt z) (Ideal.ofBits .f32 0x2B8CBCCC#32)) ?_
  exact Cert.LibLaneSums.shapeCast_a_a1_apply _ _ p 0

/-- The whole array's divisor at (r, q), from the whole array's row sums R: the same expression of R(r). -/
theorem den_host (R : FVec Ideal Cert.ReferenceIdeal.S100000 .f32) (r : Fin 100000) (q : Fin 64) :
    broadcastInDim Cert.ReferenceIdeal.S100000x64 ![0, 1] Cert.ReferenceIdeal.Facts₀.bcast_S100000x1_S100000x64_0_1
        (maximumf
          (Host.sqrt (broadcastInDim Cert.ReferenceIdeal.S100000x1 ![0] Cert.ReferenceIdeal.Facts₀.bcast_S100000_S100000x1_0 R))
          (broadcastInDim Cert.ReferenceIdeal.S100000x1 ![] Cert.ReferenceIdeal.Facts₀.bcast_S_S100000x1
            (constant (F := Ideal) Cert.ReferenceIdeal.S_ .f32 0x2B8CBCCC#32))) (ix2 r q)
      = max (Ideal.sqrt (R (ix1 r))) (Ideal.ofBits .f32 0x2B8CBCCC#32) := by
  refine (Cert.LibUnitAxes.broadcastInDim_a1_ab_apply _ _ r q).trans ?_
  refine congrArg₂ max ?_ (Cert.LibUnitAxes.broadcastInDim_scalar_apply _ _ _)
  refine congrArg Ideal.sqrt ?_
  exact Cert.LibUnitColumns.broadcastInDim_a_a1_apply _ _ r 0

/-- The host's quotient at an index is the quotient of the entries. -/
theorem hostDivf_apply {s : Shape} {φ : FTy} (a b : FVec Ideal s φ) (i : s.Idx) : Host.divf a b i = Ideal.div (a i) (b i) := rfl

/-- The tile's normalised activation at (p, q) is the whole arrays' normalised activation at (5000·t + p, q). -/
theorem norm_at (x s : Cert.Spec.Nodes) (w1 w2 : FVec Ideal Cert.ReferenceIdeal.S64x64 .f32) (b1 b2 : FVec Ideal Cert.ReferenceIdeal.S1x64 .f32)
    (x0 x1 : Vec Ideal Cert.KernelIdeal.S5000x64 .f32) (t : Fin 20)
    (hx : ∀ (p : Fin 5000) (q : Fin 64), x0 (ix2 p q) = x (ix2 ⟨5000 * t.val + p.val, by omega⟩ q))
    (hs : ∀ (p : Fin 5000) (q : Fin 64), x1 (ix2 p q) = s (ix2 ⟨5000 * t.val + p.val, by omega⟩ q))
    (p : Fin 5000) (q : Fin 64) :
    Cert.KernelIdeal.Gen.k0_pay1 (F := Ideal) (Cert.KernelIdeal.Gen.k0_pay2 x0 x1 w1 w2 b1 b2) (Cert.KernelIdeal.Gen.k0_pay3 x0 x1 w1 w2 b1 b2) (ix2 p q)
      = Cert.Spec.layerN (Cert.Spec.layerE x s w1 b1 w2 b2) (ix2 ⟨5000 * t.val + p.val, by omega⟩ q) := by
  have hA : ∀ k : Fin 64, Cert.KernelIdeal.Gen.k0_pay2 (F := Ideal) x0 x1 w1 w2 b1 b2 (ix2 p k)
      = Cert.Spec.layerE x s w1 b1 w2 b2 (ix2 ⟨5000 * t.val + p.val, by omega⟩ k) :=
    fun k => act_at x s w1 w2 b1 b2 x0 x1 t hx hs p k
  unfold Cert.KernelIdeal.Gen.k0_pay1 Cert.KernelIdeal.Gen.k0_pay3 Cert.Spec.layerN
  generalize Cert.KernelIdeal.Gen.k0_pay2 (F := Ideal) x0 x1 w1 w2 b1 b2 = A at hA ⊢
  generalize Cert.Spec.layerE x s w1 b1 w2 b2 = E at hA ⊢
  rw [divf_apply, hostDivf_apply, den_tile, den_host, rowsq_tile, rowsq_host]
  simp only [hA]

/-- The second and third launches' payloads are the first's, term for term. -/
theorem k1_pay1_eq : @Cert.KernelIdeal.Gen.k1_pay1 = @Cert.KernelIdeal.Gen.k0_pay1 := rfl
theorem k1_pay3_eq : @Cert.KernelIdeal.Gen.k1_pay3 = @Cert.KernelIdeal.Gen.k0_pay3 := rfl
theorem k2_pay1_eq : @Cert.KernelIdeal.Gen.k2_pay1 = @Cert.KernelIdeal.Gen.k0_pay1 := rfl
theorem k2_pay3_eq : @Cert.KernelIdeal.Gen.k2_pay3 = @Cert.KernelIdeal.Gen.k0_pay3 := rfl

theorem norm_at1 (x s : Cert.Spec.Nodes) (w1 w2 : FVec Ideal Cert.ReferenceIdeal.S64x64 .f32) (b1 b2 : FVec Ideal Cert.ReferenceIdeal.S1x64 .f32)
    (x0 x1 : Vec Ideal Cert.KernelIdeal.S5000x64 .f32) (t : Fin 20)
    (hx : ∀ (p : Fin 5000) (q : Fin 64), x0 (ix2 p q) = x (ix2 ⟨5000 * t.val + p.val, by omega⟩ q))
    (hs : ∀ (p : Fin 5000) (q : Fin 64), x1 (ix2 p q) = s (ix2 ⟨5000 * t.val + p.val, by omega⟩ q))
    (p : Fin 5000) (q : Fin 64) :
    Cert.KernelIdeal.Gen.k1_pay1 (F := Ideal) (Cert.KernelIdeal.Gen.k1_pay2 x0 x1 w1 w2 b1 b2) (Cert.KernelIdeal.Gen.k1_pay3 x0 x1 w1 w2 b1 b2) (ix2 p q)
      = Cert.Spec.layerN (Cert.Spec.layerE x s w1 b1 w2 b2) (ix2 ⟨5000 * t.val + p.val, by omega⟩ q) :=
  norm_at x s w1 w2 b1 b2 x0 x1 t hx hs p q

theorem norm_at2 (x s : Cert.Spec.Nodes) (w1 w2 : FVec Ideal Cert.ReferenceIdeal.S64x64 .f32) (b1 b2 : FVec Ideal Cert.ReferenceIdeal.S1x64 .f32)
    (x0 x1 : Vec Ideal Cert.KernelIdeal.S5000x64 .f32) (t : Fin 20)
    (hx : ∀ (p : Fin 5000) (q : Fin 64), x0 (ix2 p q) = x (ix2 ⟨5000 * t.val + p.val, by omega⟩ q))
    (hs : ∀ (p : Fin 5000) (q : Fin 64), x1 (ix2 p q) = s (ix2 ⟨5000 * t.val + p.val, by omega⟩ q))
    (p : Fin 5000) (q : Fin 64) :
    Cert.KernelIdeal.Gen.k2_pay1 (F := Ideal) (Cert.KernelIdeal.Gen.k2_pay2 x0 x1 w1 w2 b1 b2) (Cert.KernelIdeal.Gen.k2_pay3 x0 x1 w1 w2 b1 b2) (ix2 p q)
      = Cert.Spec.layerN (Cert.Spec.layerE x s w1 b1 w2 b2) (ix2 ⟨5000 * t.val + p.val, by omega⟩ q) :=
  norm_at x s w1 w2 b1 b2 x0 x1 t hx hs p q

end Cert.LayerLaw

end
-- ==== Proof.KI.Value0.lean ====
/-
  Launch 0 of the layer kernel, from blocks to whole arrays, on the extended reals.

  The grid has 20 points.  At point t the features' window and the sparse product's window hold rows
  5000·t … 5000·t + 4999 of their [100000, 64] arrays, the two weight windows and the two bias windows hold their whole
  arrays, and the two result windows write their [5000, 64] staging buffers back to the same rows of the result arrays.
  By the per-entry law of the layer, the body's payload at the local entry (p, q) of tile t is the whole arrays'
  activation (resp. the activation with each row scaled to unit length) at the entry (5000·t + p, q).  So what point t
  writes back is block t of ONE function of the arrays the launch found; row r lies in the block of the point r / 5000,
  every point writes back, and hence after the last point each result array holds that function: the layer's
  activation, and its rows scaled to unit length.
-/
import proofs.«117729_j22703197127156_1_alg».proof.Proof.KI.Region0
import proofs.«117729_j22703197127156_1_alg».proof.Proof.LayerLaw
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable [Cert.ReferenceIdeal.Facts]

/-- The zero offsets of a whole store or load, spelt as a constant function. -/
theorem zero_offsets0 : (![0, 0] : Fin 2 → Nat) = fun _ => 0 := funext fun a => by fin_cases a <;> rfl

/-- The printed index maps, decided over the 20 grid points: the row-tiled windows (features, sparse product, the two
    results) are at block (t, 0) at point t, the weights and biases at block (0, 0) at every point. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt0 (t : Fin cfg0.N) : t.val < 20 := Nat.lt_of_lt_of_eq t.isLt N_0

variable (V : (c : Dev nD) → (b : Ref sig .tc) → Buf (Elt Ideal) ((c : Thread nD τ).loc b))

/-- The features' block at point t is rows 5000·t … 5000·t + 4999 of the features. -/
theorem rows0_0 (c : Dev nD) (t : Fin cfg0.N) (p : Fin 5000) (q : Fin 64) (r : Fin 100000) (hr : r.val = 5000 * t.val + p.val) :
    (iblk0 (F := Ideal) V c 0 t : Vec Ideal S5000x64 .f32) (ix2 p q) = (V c main_v0 : Vec Ideal S100000x64 .f32) (ix2 r q) := by
  obtain ⟨e0, e1, -⟩ := block_index0 t
  unfold iblk0
  rw [View.read_apply]
  show V c main_v0 _ = V c main_v0 _
  refine congrArg _ ?_
  funext a; apply Fin.ext
  match a with
  | ⟨0, _⟩ => show win0_0.index t (0 : Fin 2) * 5000 + 1 * p.val = r.val; rw [e0, hr]; omega
  | ⟨1, _⟩ => show win0_0.index t (1 : Fin 2) * 64 + 1 * q.val = q.val; rw [e1]; omega

/-- The sparse product's block at point t is the same rows of the sparse product. -/
theorem rows0_1 (c : Dev nD) (t : Fin cfg0.N) (p : Fin 5000) (q : Fin 64) (r : Fin 100000) (hr : r.val = 5000 * t.val + p.val) :
    (iblk0 (F := Ideal) V c 1 t : Vec Ideal S5000x64 .f32) (ix2 p q) = (V c main_v13 : Vec Ideal S100000x64 .f32) (ix2 r q) := by
  obtain ⟨-, -, e0, e1, -⟩ := block_index0 t
  unfold iblk0
  rw [View.read_apply]
  show V c main_v13 _ = V c main_v13 _
  refine congrArg _ ?_
  funext a; apply Fin.ext
  match a with
  | ⟨0, _⟩ => show win0_1.index t (0 : Fin 2) * 5000 + 1 * p.val = r.val; rw [e0, hr]; omega
  | ⟨1, _⟩ => show win0_1.index t (1 : Fin 2) * 64 + 1 * q.val = q.val; rw [e1]; omega

/-- A weight or bias window's block is its whole array, at every point. -/
theorem whole0_2 (c : Dev nD) (t : Fin cfg0.N) :
    (iblk0 (F := Ideal) V c 2 t : Vec Ideal S64x64 .f32) = (V c main_v15 : Vec Ideal S64x64 .f32) := by
  obtain ⟨-, -, -, -, e0, e1, -⟩ := block_index0 t
  funext y
  unfold iblk0
  rw [View.read_apply]
  show V c main_v15 _ = V c main_v15 _
  refine congrArg _ ?_
  funext a; apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

theorem whole0_3 (c : Dev nD) (t : Fin cfg0.N) :
    (iblk0 (F := Ideal) V c 3 t : Vec Ideal S1x64 .f32) = (V c main_v17 : Vec Ideal S1x64 .f32) := by
  obtain ⟨-, -, -, -, -, -, e0, e1, -⟩ := block_index0 t
  funext y
  unfold iblk0
  rw [View.read_apply]
  show V c main_v17 _ = V c main_v17 _
  refine congrArg _ ?_
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

theorem whole0_4 (c : Dev nD) (t : Fin cfg0.N) :
    (iblk0 (F := Ideal) V c 4 t : Vec Ideal S64x64 .f32) = (V c main_v19 : Vec Ideal S64x64 .f32) := by
  obtain ⟨-, -, -, -, -, -, -, -, e0, e1, -⟩ := block_index0 t
  funext y
  unfold iblk0
  rw [View.read_apply]
  show V c main_v19 _ = V c main_v19 _
  refine congrArg _ ?_
  funext a; apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

theorem whole0_5 (c : Dev nD) (t : Fin cfg0.N) :
    (iblk0 (F := Ideal) V c 5 t : Vec Ideal S1x64 .f32) = (V c main_v21 : Vec Ideal S1x64 .f32) := by
  obtain ⟨-, -, -, -, -, -, -, -, -, -, e0, e1, -⟩ := block_index0 t
  funext y
  unfold iblk0
  rw [View.read_apply]
  show V c main_v21 _ = V c main_v21 _
  refine congrArg _ ?_
  funext a; apply Fin.ext
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- The tile's activation at a local entry is the whole arrays' activation at the entry's place in the array: the
    per-entry law, with the entry and its place given by their coordinates. -/
theorem act_place0 (x s : Cert.Spec.Nodes) (w1 w2 : FVec Ideal S64x64 .f32) (b1 b2 : FVec Ideal S1x64 .f32)
    (x0 x1 : Vec Ideal S5000x64 .f32) (x2 x4 : Vec Ideal S64x64 .f32) (x3 x5 : Vec Ideal S1x64 .f32) (t : Fin 20)
    (hx : ∀ (p : Fin 5000) (q : Fin 64) (r : Fin 100000), r.val = 5000 * t.val + p.val → x0 (ix2 p q) = x (ix2 r q))
    (hs : ∀ (p : Fin 5000) (q : Fin 64) (r : Fin 100000), r.val = 5000 * t.val + p.val → x1 (ix2 p q) = s (ix2 r q))
    (h2 : x2 = w1) (h3 : x3 = b1) (h4 : x4 = w2) (h5 : x5 = b2)
    (j : S5000x64.Idx) (i : S100000x64.Idx) (hi0 : (i 0).val = 5000 * t.val + (j 0).val) (hi1 : (i 1).val = (j 1).val) :
    k0_pay2 (F := Ideal) x0 x1 x2 x4 x3 x5 j = Cert.Spec.layerE x s w1 b1 w2 b2 i := by
  subst h2 h3 h4 h5
  obtain ⟨p, q, rfl⟩ : ∃ (p : Fin 5000) (q : Fin 64), j = ix2 p q := ⟨j 0, j 1, eq_ix2 j⟩
  have hi : i = ix2 ⟨5000 * t.val + p.val, by omega⟩ q := by
    funext a; apply Fin.ext
    match a with
    | ⟨0, _⟩ => exact hi0
    | ⟨1, _⟩ => exact hi1
  rw [hi]
  exact Cert.LayerLaw.act_at x s x2 x4 x3 x5 x0 x1 t (fun p q => hx p q _ rfl) (fun p q => hs p q _ rfl) p q

theorem norm_place0 (x s : Cert.Spec.Nodes) (w1 w2 : FVec Ideal S64x64 .f32) (b1 b2 : FVec Ideal S1x64 .f32)
    (x0 x1 : Vec Ideal S5000x64 .f32) (x2 x4 : Vec Ideal S64x64 .f32) (x3 x5 : Vec Ideal S1x64 .f32) (t : Fin 20)
    (hx : ∀ (p : Fin 5000) (q : Fin 64) (r : Fin 100000), r.val = 5000 * t.val + p.val → x0 (ix2 p q) = x (ix2 r q))
    (hs : ∀ (p : Fin 5000) (q : Fin 64) (r : Fin 100000), r.val = 5000 * t.val + p.val → x1 (ix2 p q) = s (ix2 r q))
    (h2 : x2 = w1) (h3 : x3 = b1) (h4 : x4 = w2) (h5 : x5 = b2)
    (j : S5000x64.Idx) (i : S100000x64.Idx) (hi0 : (i 0).val = 5000 * t.val + (j 0).val) (hi1 : (i 1).val = (j 1).val) :
    k0_pay1 (F := Ideal) (k0_pay2 x0 x1 x2 x4 x3 x5) (k0_pay3 x0 x1 x2 x4 x3 x5) j
      = Cert.Spec.layerN (Cert.Spec.layerE x s w1 b1 w2 b2) i := by
  subst h2 h3 h4 h5
  obtain ⟨p, q, rfl⟩ : ∃ (p : Fin 5000) (q : Fin 64), j = ix2 p q := ⟨j 0, j 1, eq_ix2 j⟩
  have hi : i = ix2 ⟨5000 * t.val + p.val, by omega⟩ q := by
    funext a; apply Fin.ext
    match a with
    | ⟨0, _⟩ => exact hi0
    | ⟨1, _⟩ => exact hi1
  rw [hi]
  exact Cert.LayerLaw.norm_at x s x2 x4 x3 x5 x0 x1 t (fun p q => hx p q _ rfl) (fun p q => hs p q _ rfl) p q

/-- What point t writes back to the new features' array is block t of the whole arrays' activation. -/
theorem flushed0_6 (c : Dev nD) (t : Fin cfg0.N) :
    (dat0 (F := Ideal) V c).flushed 6 t = ((cfg0.win 6).blk t).view.read (Elt Ideal)
      (Cert.Spec.layerE (V c main_v0) (V c main_v13) (V c main_v15) (V c main_v17) (V c main_v19) (V c main_v21)) := by
  show (cfg0.win 6).cut (grid0.coords t) ((dat0 V c).after 6 t) = _
  rw [after0_6]
  unfold out0_6
  rw [View.canon_unit_zero zero_offsets0]
  simp only [View.ld_unit_zero (S := S5000x64) zero_offsets0, View.ld_unit_zero (S := S64x64) zero_offsets0, View.ld_unit_zero (S := S1x64) zero_offsets0]
  obtain ⟨-, -, -, -, -, -, -, -, -, -, -, -, e0, e1, -⟩ := block_index0 t
  funext j
  refine act_place0 _ _ _ _ _ _ (iblk0 V c 0 t) (iblk0 V c 1 t) (iblk0 V c 2 t) (iblk0 V c 4 t) (iblk0 V c 3 t) (iblk0 V c 5 t) ⟨t.val, point_lt0 t⟩
    (fun p q r hr => rows0_0 V c t p q r hr) (fun p q r hr => rows0_1 V c t p q r hr)
    (whole0_2 V c t) (whole0_3 V c t) (whole0_4 V c t) (whole0_5 V c t) _ _ ?_ ?_
  · show win0_6.index t (0 : Fin 2) * 5000 + 1 * (j 0).val = 5000 * t.val + (j 0).val; rw [e0]; omega
  · show win0_6.index t (1 : Fin 2) * 64 + 1 * (j 1).val = (j 1).val; rw [e1]; omega

/-- What point t writes back to the unit-length rows' array is block t of the whole arrays' normalised activation. -/
theorem flushed0_7 (c : Dev nD) (t : Fin cfg0.N) :
    (dat0 (F := Ideal) V c).flushed 7 t = ((cfg0.win 7).blk t).view.read (Elt Ideal)
      (Cert.Spec.layerN (Cert.Spec.layerE (V c main_v0) (V c main_v13) (V c main_v15) (V c main_v17) (V c main_v19) (V c main_v21))) := by
  show (cfg0.win 7).cut (grid0.coords t) ((dat0 V c).after 7 t) = _
  rw [after0_7]
  unfold out0_7
  rw [View.canon_unit_zero zero_offsets0]
  simp only [View.ld_unit_zero (S := S5000x64) zero_offsets0, View.ld_unit_zero (S := S64x64) zero_offsets0, View.ld_unit_zero (S := S1x64) zero_offsets0]
  obtain ⟨-, -, -, -, -, -, -, -, -, -, -, -, -, -, e0, e1⟩ := block_index0 t
  funext j
  refine norm_place0 _ _ _ _ _ _ (iblk0 V c 0 t) (iblk0 V c 1 t) (iblk0 V c 2 t) (iblk0 V c 4 t) (iblk0 V c 3 t) (iblk0 V c 5 t) ⟨t.val, point_lt0 t⟩
    (fun p q r hr => rows0_0 V c t p q r hr) (fun p q r hr => rows0_1 V c t p q r hr)
    (whole0_2 V c t) (whole0_3 V c t) (whole0_4 V c t) (whole0_5 V c t) _ _ ?_ ?_
  · show win0_7.index t (0 : Fin 2) * 5000 + 1 * (j 0).val = 5000 * t.val + (j 0).val; rw [e0]; omega
  · show win0_7.index t (1 : Fin 2) * 64 + 1 * (j 1).val = (j 1).val; rw [e1]; omega

/-- An entry of the array is in point t's block of a result window iff each coordinate is in the block's range. -/
theorem mem_blk0_6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v22_0).slice (win0_6.rect t)).set ↔ _
  rw [View.set_slice_whole, Rect.mem_set_unit]
  exact Iff.rfl

theorem mem_blk0_7 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v22_1).slice (win0_7.rect t)).set ↔ _
  rw [View.set_slice_whole, Rect.mem_set_unit]
  exact Iff.rfl

/-- Every row r of a result array is in the block of the point r / 5000, which writes back. -/
theorem cover0_arr6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_6 _, ?_⟩
  rw [mem_blk0_6]
  obtain ⟨-, -, -, -, -, -, -, -, -, -, -, -, e0, e1, -⟩ := block_index0 ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e1]; omega

theorem cover0_arr7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_7 _, ?_⟩
  rw [mem_blk0_7]
  obtain ⟨-, -, -, -, -, -, -, -, -, -, -, -, -, -, e0, e1⟩ := block_index0 ⟨(i 0).val / 5000, by rw [hN]; omega⟩
  intro a
  match a with
  | ⟨0, _⟩ =>
    show win0_7.index _ (0 : Fin 2) * 5000 ≤ (i 0).val ∧ (i 0).val < win0_7.index _ (0 : Fin 2) * 5000 + 5000
    rw [e0]; show (i 0).val / 5000 * 5000 ≤ (i 0).val ∧ (i 0).val < (i 0).val / 5000 * 5000 + 5000; omega
  | ⟨1, _⟩ =>
    show win0_7.index _ (1 : Fin 2) * 64 ≤ (i 1).val ∧ (i 1).val < win0_7.index _ (1 : Fin 2) * 64 + 64
    rw [e1]; omega

section
variable [Cert.KernelIdeal.Facts]

/-- After launch 0 the new features' array holds the layer's activation of the arrays the launch found. -/
theorem final0_6 (c : Dev nD) :
    (dat0 (F := Ideal) V c).arrAt 6 cfg0.N
      = Cert.Spec.layerE (V c main_v0) (V c main_v13) (V c main_v15) (V c main_v17) (V c main_v19) (V c main_v21) :=
  (dat0 (F := Ideal) V c).arrAt_eq_of_cover 6 _ (fun t _ => flushed0_6 V c t) cover0_arr6

/-- After launch 0 the unit-length rows' array holds the activation's rows scaled to unit length. -/
theorem final0_7 (c : Dev nD) :
    (dat0 (F := Ideal) V c).arrAt 7 cfg0.N
      = Cert.Spec.layerN (Cert.Spec.layerE (V c main_v0) (V c main_v13) (V c main_v15) (V c main_v17) (V c main_v19) (V c main_v21)) :=
  (dat0 (F := Ideal) V c).arrAt_eq_of_cover 7 _ (fun t _ => flushed0_7 V c t) cover0_arr7

end

end Cert.KernelIdeal.Hand

end
-- ==== Proof.KI.Value1.lean ====
/-
  Launch 1 of the layer kernel, from blocks to whole arrays, on the extended reals.

  The grid has 20 points.  At point t the features' window and the sparse product's window hold rows
  5000·t … 5000·t + 4999 of their [100000, 64] arrays, the two weight windows and the two bias windows hold their whole
  arrays, and the two result windows write their [5000, 64] staging buffers back to the same rows of the result arrays.
  By the per-entry law of the layer, the body's payload at the local entry (p, q) of tile t is the whole arrays'
  activation (resp. the activation with each row scaled to unit length) at the entry (5000·t + p, q).  So what point t
  writes back is block t of ONE function of the arrays the launch found; row r lies in the block of the point r / 5000,
  every point writes back, and hence after the last point each result array holds that function: the layer's
  activation, and its rows scaled to unit length.
-/
import proofs.«117729_j22703197127156_1_alg».proof.Proof.KI.Region1
import proofs.«117729_j22703197127156_1_alg».proof.Proof.LayerLaw
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable [Cert.ReferenceIdeal.Facts]

/-- The zero offsets of a whole store or load, spelt as a constant function. -/
theorem zero_offsets1 : (![0, 0] : Fin 2 → Nat) = fun _ => 0 := funext fun a => by fin_cases a <;> rfl

/-- The printed index maps, decided over the 20 grid points: the row-tiled windows (features, sparse product, the two
    results) are at block (t, 0) at point t, the weights and biases at block (0, 0) at every point. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem point_lt1 (t : Fin cfg1.N) : t.val < 20 := Nat.lt_of_lt_of_eq t.isLt N_1

variable (V : (c : Dev nD) → (b : Ref sig .tc) → Buf (Elt Ideal) ((c : Thread nD τ).loc b))

/-- The features' block at point t is rows 5000·t … 5000·t + 4999 of the features. -/
theorem rows1_0 (c : Dev nD) (t : Fin cfg1.N) (p : Fin 5000) (q : Fin 64) (r : Fin 100000) (hr : r.val = 5000 * t.val + p.val) :
    (iblk1 (F := Ideal) V c 0 t : Vec Ideal S5000x64 .f32) (ix2 p q) = (V c main_v22_0 : Vec Ideal S100000x64 .f32) (ix2 r q) := by
  obtain ⟨e0, e1, -⟩ := block_index1 t
  unfold iblk1
  rw [View.read_apply]
  show V c main_v22_0 _ = V c main_v22_0 _
  refine congrArg _ ?_
  funext a; apply Fin.ext
  match a with
  | ⟨0, _⟩ => show win1_0.index t (0 : Fin 2) * 5000 + 1 * p.val = r.val; rw [e0, hr]; omega
  | ⟨1, _⟩ => show win1_0.index t (1 : Fin 2) * 64 + 1 * q.val = q.val; rw [e1]; omega

/-- The sparse product's block at point t is the same rows of the sparse product. -/
theorem rows1_1 (c : Dev nD) (t : Fin cfg1.N) (p : Fin 5000) (q : Fin 64) (r : Fin 100000) (hr : r.val = 5000 * t.val + p.val) :
    (iblk1 (F := Ideal) V c 1 t : Vec Ideal S5000x64 .f32) (ix2 p q) = (V c main_v35 : Vec Ideal S100000x64 .f32) (ix2 r q) := by
  obtain ⟨-, -, e0, e1, -⟩ := block_index1 t
  unfold iblk1
  rw [View.read_apply]
  show V c main_v35 _ = V c main_v35 _
  refine congrArg _ ?_
  funext a; apply Fin.ext
  match a with
  | ⟨0, _⟩ => show win1_1.index t (0 : Fin 2) * 5000 + 1 * p.val = r.val; rw [e0, hr]; omega
  | ⟨1, _⟩ => show win1_1.index t (1 : Fin 2) * 64 + 1 * q.val = q.val; rw [e1]; omega

/-- A weight or bias window's block is its whole array, at every point. -/
theorem whole1_2 (c : Dev nD) (t : Fin cfg1.N) :
    (iblk1 (F := Ideal) V c 2 t : Vec Ideal S64x64 .f32) = (V c main_v37 : Vec Ideal S64x64 .f32) := by
  obtain ⟨-, -, -, -, e0, e1, -⟩ := block_index1 t
  funext y
  unfold iblk1
  rw [View.read_apply]
  show V c main_v37 _ = V c main_v37 _
  refine congrArg _ ?_
  funext a; apply Fin.ext
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

theorem whole1_3 (c : Dev nD) (t : Fin cfg1.N) :
    (iblk1 (F := Ideal) V c 3 t : Vec Ideal S1x64 .f32) = (V c main_v39 : Vec Ideal S1x64 .f32) := by
  obtain ⟨-, -, -, -, -, -, e0, e1, -⟩ := block_index1 t
  funext y
  unfold iblk1
  rw [View.read_apply]
  show V c main_v39 _ = V c main_v39 _
  refine congrArg _ ?_
  funext a; apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

theorem whole1_4 (c : Dev nD) (t : Fin cfg1.N) :
    (iblk1 (F := Ideal) V c 4 t : Vec Ideal S64x64 .f32) = (V c main_v41 : Vec Ideal S64x64 .f32) := by
  obtain ⟨-, -, -, -, -, -, -, -, e0, e1, -⟩ := block_index1 t
  funext y
  unfold iblk1
  rw [View.read_apply]
  show V c main_v41 _ = V c main_v41 _
  refine congrArg _ ?_
  funext a; apply Fin.ext
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

theorem whole1_5 (c : Dev nD) (t : Fin cfg1.N) :
    (iblk1 (F := Ideal) V c 5 t : Vec Ideal S1x64 .f32) = (V c main_v43 : Vec Ideal S1x64 .f32) := by
  obtain ⟨-, -, -, -, -, -, -, -, -, -, e0, e1, -⟩ := block_index1 t
  funext y
  unfold iblk1
  rw [View.read_apply]
  show V c main_v43 _ = V c main_v43 _
  refine congrArg _ ?_
  funext a; apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- The tile's activation at a local entry is the whole arrays' activation at the entry's place in the array: the
    per-entry law, with the entry and its place given by their coordinates. -/
theorem act_place1 (x s : Cert.Spec.Nodes) (w1 w2 : FVec Ideal S64x64 .f32) (b1 b2 : FVec Ideal S1x64 .f32)
    (x0 x1 : Vec Ideal S5000x64 .f32) (x2 x4 : Vec Ideal S64x64 .f32) (x3 x5 : Vec Ideal S1x64 .f32) (t : Fin 20)
    (hx : ∀ (p : Fin 5000) (q : Fin 64) (r : Fin 100000), r.val = 5000 * t.val + p.val → x0 (ix2 p q) = x (ix2 r q))
    (hs : ∀ (p : Fin 5000) (q : Fin 64) (r : Fin 100000), r.val = 5000 * t.val + p.val → x1 (ix2 p q) = s (ix2 r q))
    (h2 : x2 = w1) (h3 : x3 = b1) (h4 : x4 = w2) (h5 : x5 = b2)
    (j : S5000x64.Idx) (i : S100000x64.Idx) (hi0 : (i 0).val = 5000 * t.val + (j 0).val) (hi1 : (i 1).val = (j 1).val) :
    k1_pay2 (F := Ideal) x0 x1 x2 x4 x3 x5 j = Cert.Spec.layerE x s w1 b1 w2 b2 i := by
  subst h2 h3 h4 h5
  obtain ⟨p, q, rfl⟩ : ∃ (p : Fin 5000) (q : Fin 64), j = ix2 p q := ⟨j 0, j 1, eq_ix2 j⟩
  have hi : i = ix2 ⟨5000 * t.val + p.val, by omega⟩ q := by
    funext a; apply Fin.ext
    match a with
    | ⟨0, _⟩ => exact hi0
    | ⟨1, _⟩ => exact hi1
  rw [hi]
  exact Cert.LayerLaw.act_at1 x s x2 x4 x3 x5 x0 x1 t (fun p q => hx p q _ rfl) (fun p q => hs p q _ rfl) p q

theorem norm_place1 (x s : Cert.Spec.Nodes) (w1 w2 : FVec Ideal S64x64 .f32) (b1 b2 : FVec Ideal S1x64 .f32)
    (x0 x1 : Vec Ideal S5000x64 .f32) (x2 x4 : Vec Ideal S64x64 .f32) (x3 x5 : Vec Ideal S1x64 .f32) (t : Fin 20)
    (hx : ∀ (p : Fin 5000) (q : Fin 64) (r : Fin 100000), r.val = 5000 * t.val + p.val → x0 (ix2 p q) = x (ix2 r q))
    (hs : ∀ (p : Fin 5000) (q : Fin 64) (r : Fin 100000), r.val = 5000 * t.val + p.val → x1 (ix2 p q) = s (ix2 r q))
    (h2 : x2 = w1) (h3 : x3 = b1) (h4 : x4 = w2) (h5 : x5 = b2)
    (j : S5000x64.Idx) (i : S100000x64.Idx) (hi0 : (i 0).val = 5000 * t.val + (j 0).val) (hi1 : (i 1).val = (j 1).val) :
    k1_pay1 (F := Ideal) (k1_pay2 x0 x1 x2 x4 x3 x5) (k1_pay3 x0 x1 x2 x4 x3 x5) j
      = Cert.Spec.layerN (Cert.Spec.layerE x s w1 b1 w2 b2) i := by
  subst h2 h3 h4 h5
  obtain ⟨p, q, rfl⟩ : ∃ (p : Fin 5000) (q : Fin 64), j = ix2 p q := ⟨j 0, j 1, eq_ix2 j⟩
  have hi : i = ix2 ⟨5000 * t.val + p.val, by omega⟩ q := by
    funext a; apply Fin.ext
    match a with
    | ⟨0, _⟩ => exact hi0
    | ⟨1, _⟩ => exact hi1
  rw [hi]
  exact Cert.LayerLaw.norm_at1 x s x2 x4 x3 x5 x0 x1 t (fun p q => hx p q _ rfl) (fun p q => hs p q _ rfl) p q

/-- What point t writes back to the new features' array is block t of the whole arrays' activation. -/
theorem flushed1_6 (c : Dev nD) (t : Fin cfg1.N) :
    (dat1 (F := Ideal) V c).flushed 6 t = ((cfg1.win 6).blk t).view.read (Elt Ideal)
      (Cert.Spec.layerE (V c main_v22_0) (V c main_v35) (V c main_v37) (V c main_v39) (V c main_v41) (V c main_v43)) := by
  show (cfg1.win 6).cut (grid1.coords t) ((dat1 V c).after 6 t) = _
  rw [after1_6]
  unfold out1_6
  rw [View.canon_unit_zero zero_offsets1]
  simp only [View.ld_unit_zero (S := S5000x64) zero_offsets1, View.ld_unit_zero (S := S64x64) zero_offsets1, View.ld_unit_zero (S := S1x64) zero_offsets1]
  obtain ⟨-, -, -, -, -, -, -, -, -, -, -, -, e0, e1, -⟩ := block_index1 t
  funext j
  refine act_place1 _ _ _ _ _ _ (iblk1 V c 0 t) (iblk1 V c 1 t) (iblk1 V c 2 t) (iblk1 V c 4 t) (iblk1 V c 3 t) (iblk1 V c 5 t) ⟨t.val, point_lt1 t⟩
    (fun p q r hr => rows1_0 V c t p q r hr) (fun p q r hr => rows1_1 V c t p q r hr)
    (whole1_2 V c t) (whole1_3 V c t) (whole1_4 V c t) (whole1_5 V c t) _ _ ?_ ?_
  · show win1_6.index t (0 : Fin 2) * 5000 + 1 * (j 0).val = 5000 * t.val + (j 0).val; rw [e0]; omega
  · show win1_6.index t (1 : Fin 2) * 64 + 1 * (j 1).val = (j 1).val; rw [e1]; omega

/-- What point t writes back to the unit-length rows' array is block t of the whole arrays' normalised activation. -/
theorem flushed1_7 (c : Dev nD) (t : Fin cfg1.N) :
    (dat1 (F := Ideal) V c).flushed 7 t = ((cfg1.win 7).blk t).view.read (Elt Ideal)
      (Cert.Spec.layerN (Cert.Spec.layerE (V c main_v22_0) (V c main_v35) (V c main_v37) (V c main_v39) (V c main_v41) (V c main_v43))) := by
  show (cfg1.win 7).cut (grid1.coords t) ((dat1 V c).after 7 t) = _
  rw [after1_7]
  unfold out1_7
  rw [View.canon_unit_zero zero_offsets1]
  simp only [View.ld_unit_zero (S := S5000x64) zero_offsets1, View.ld_unit_zero (S := S64x64) zero_offsets1, View.ld_unit_zero (S := S1x64) zero_offsets1]
  obtain ⟨-, -, -, -, -, -, -, -, -, -, -, -, -, -, e0, e1⟩ := block_index1 t
  funext j
  refine norm_place1 _ _ _ _ _ _ (iblk1 V c 0 t) (iblk1 V c 1 t) (iblk1 V c 2 t) (iblk1 V c 4 t) (iblk1 V c 3 t) (iblk1 V c 5 t) ⟨t.val, point_lt1 t⟩
    (fun p q r hr => rows1_0 V c t p q r hr) (fun p q r hr => rows1_1 V c t p q r hr)
    (whole1_2 V c t) (whole1_3 V c t) (whole1_4 V c t) (whole1_5 V c t) _ _ ?_ ?_
  · show win1_7.index t (0 : Fin 2) * 5000 + 1 * (j 0).val = 5000 * t.val + (j 0).val; rw [e0]; omega
  · show win1_7.index t (1 : Fin 2) * 64 + 1 * (j 1).val = (j 1).val; rw [e1]; omega

/-- An entry of the array is in point t's block of a result window iff each coordinate is in the block's range. -/
theorem mem_blk1_6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v44_0).slice (win1_6.rect t)).set ↔ _
  rw [View.set_slice_whole, Rect.mem_set_unit]
  exact Iff.rfl

theorem mem_blk1_7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v44_1).slice (win1_7.rect t)).set ↔ _
  rw [View.set_slice_whole, Rect.mem_set_unit]
  exact Iff.rfl

/-- Every row r of a result array is in the block of the point r / 5000, which writes back. -/
theorem cover1_arr6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_6 _, ?_⟩
  rw [mem_blk1_6]
  obtain ⟨-, -, -, -, -, -, -, -, -, -, -, -, e0, e1, -⟩ := block_index1 ⟨(i 0).val / 5000, by rw [hN]; omega⟩
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 64 ≤ (i 1).val ∧ (i 1).val < win1_6.index _ (1 : Fin 2) * 64 + 64
    rw [e1]; omega

theorem cover1_arr7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_7 _, ?_⟩
  rw [mem_blk1_7]
  obtain ⟨-, -, -, -, -, -, -, -, -, -, -, -, -, -, e0, e1⟩ := block_index1 ⟨(i 0).val / 5000, by rw [hN]; omega⟩
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 64 ≤ (i 1).val ∧ (i 1).val < win1_7.index _ (1 : Fin 2) * 64 + 64
    rw [e1]; omega

section
variable [Cert.KernelIdeal.Facts]

/-- After launch 1 the new features' array holds the layer's activation of the arrays the launch found. -/
theorem final1_6 (c : Dev nD) :
    (dat1 (F := Ideal) V c).arrAt 6 cfg1.N
      = Cert.Spec.layerE (V c main_v22_0) (V c main_v35) (V c main_v37) (V c main_v39) (V c main_v41) (V c main_v43) :=
  (dat1 (F := Ideal) V c).arrAt_eq_of_cover 6 _ (fun t _ => flushed1_6 V c t) cover1_arr6

/-- After launch 1 the unit-length rows' array holds the activation's rows scaled to unit length. -/
theorem final1_7 (c : Dev nD) :
    (dat1 (F := Ideal) V c).arrAt 7 cfg1.N
      = Cert.Spec.layerN (Cert.Spec.layerE (V c main_v22_0) (V c main_v35) (V c main_v37) (V c main_v39) (V c main_v41) (V c main_v43)) :=
  (dat1 (F := Ideal) V c).arrAt_eq_of_cover 7 _ (fun t _ => flushed1_7 V c t) cover1_arr7

end

end Cert.KernelIdeal.Hand

end
-- ==== Proof.KI.Value2.lean ====
/-
  Launch 2 of the layer kernel, from blocks to whole arrays, on the extended reals.

  The grid has 20 points.  At point t the features' window and the sparse product's window hold rows
  5000·t … 5000·t + 4999 of their [100000, 64] arrays, the two weight windows and the two bias windows hold their whole
  arrays, and the two result windows write their [5000, 64] staging buffers back to the same rows of the result arrays.
  By the per-entry law of the layer, the body's payload at the local entry (p, q) of tile t is the whole arrays'
  activation (resp. the activation with each row scaled to unit length) at the entry (5000·t + p, q).  So what point t
  writes back is block t of ONE function of the arrays the launch found; row r lies in the block of the point r / 5000,
  every point writes back, and hence after the last point each result array holds that function: the layer's
  activation, and its rows scaled to unit length.
-/
import proofs.«117729_j22703197127156_1_alg».proof.Proof.KI.Region2
import proofs.«117729_j22703197127156_1_alg».proof.Proof.LayerLaw
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable [Cert.ReferenceIdeal.Facts]

/-- The zero offsets of a whole store or load, spelt as a constant function. -/
theorem zero_offsets2 : (![0, 0] : Fin 2 → Nat) = fun _ => 0 := funext fun a => by fin_cases a <;> rfl

/-- The printed index maps, decided over the 20 grid points: the row-tiled windows (features, sparse product, the two
    results) are at block (t, 0) at point t, the weights and biases at block (0, 0) at every point. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem point_lt2 (t : Fin cfg2.N) : t.val < 20 := Nat.lt_of_lt_of_eq t.isLt N_2

variable (V : (c : Dev nD) → (b : Ref sig .tc) → Buf (Elt Ideal) ((c : Thread nD τ).loc b))

/-- The features' block at point t is rows 5000·t … 5000·t + 4999 of the features. -/
theorem rows2_0 (c : Dev nD) (t : Fin cfg2.N) (p : Fin 5000) (q : Fin 64) (r : Fin 100000) (hr : r.val = 5000 * t.val + p.val) :
    (iblk2 (F := Ideal) V c 0 t : Vec Ideal S5000x64 .f32) (ix2 p q) = (V c main_v44_0 : Vec Ideal S100000x64 .f32) (ix2 r q) := by
  obtain ⟨e0, e1, -⟩ := block_index2 t
  unfold iblk2
  rw [View.read_apply]
  show V c main_v44_0 _ = V c main_v44_0 _
  refine congrArg _ ?_
  funext a; apply Fin.ext
  match a with
  | ⟨0, _⟩ => show win2_0.index t (0 : Fin 2) * 5000 + 1 * p.val = r.val; rw [e0, hr]; omega
  | ⟨1, _⟩ => show win2_0.index t (1 : Fin 2) * 64 + 1 * q.val = q.val; rw [e1]; omega

/-- The sparse product's block at point t is the same rows of the sparse product. -/
theorem rows2_1 (c : Dev nD) (t : Fin cfg2.N) (p : Fin 5000) (q : Fin 64) (r : Fin 100000) (hr : r.val = 5000 * t.val + p.val) :
    (iblk2 (F := Ideal) V c 1 t : Vec Ideal S5000x64 .f32) (ix2 p q) = (V c main_v57 : Vec Ideal S100000x64 .f32) (ix2 r q) := by
  obtain ⟨-, -, e0, e1, -⟩ := block_index2 t
  unfold iblk2
  rw [View.read_apply]
  show V c main_v57 _ = V c main_v57 _
  refine congrArg _ ?_
  funext a; apply Fin.ext
  match a with
  | ⟨0, _⟩ => show win2_1.index t (0 : Fin 2) * 5000 + 1 * p.val = r.val; rw [e0, hr]; omega
  | ⟨1, _⟩ => show win2_1.index t (1 : Fin 2) * 64 + 1 * q.val = q.val; rw [e1]; omega

/-- A weight or bias window's block is its whole array, at every point. -/
theorem whole2_2 (c : Dev nD) (t : Fin cfg2.N) :
    (iblk2 (F := Ideal) V c 2 t : Vec Ideal S64x64 .f32) = (V c main_v59 : Vec Ideal S64x64 .f32) := by
  obtain ⟨-, -, -, -, e0, e1, -⟩ := block_index2 t
  funext y
  unfold iblk2
  rw [View.read_apply]
  show V c main_v59 _ = V c main_v59 _
  refine congrArg _ ?_
  funext a; apply Fin.ext
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

theorem whole2_3 (c : Dev nD) (t : Fin cfg2.N) :
    (iblk2 (F := Ideal) V c 3 t : Vec Ideal S1x64 .f32) = (V c main_v61 : Vec Ideal S1x64 .f32) := by
  obtain ⟨-, -, -, -, -, -, e0, e1, -⟩ := block_index2 t
  funext y
  unfold iblk2
  rw [View.read_apply]
  show V c main_v61 _ = V c main_v61 _
  refine congrArg _ ?_
  funext a; apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

theorem whole2_4 (c : Dev nD) (t : Fin cfg2.N) :
    (iblk2 (F := Ideal) V c 4 t : Vec Ideal S64x64 .f32) = (V c main_v63 : Vec Ideal S64x64 .f32) := by
  obtain ⟨-, -, -, -, -, -, -, -, e0, e1, -⟩ := block_index2 t
  funext y
  unfold iblk2
  rw [View.read_apply]
  show V c main_v63 _ = V c main_v63 _
  refine congrArg _ ?_
  funext a; apply Fin.ext
  match a with
  | ⟨0, _⟩ => show win2_4.index t (0 : Fin 2) * 64 + 1 * (y 0).val = (y 0).val; rw [e0]; omega
  | ⟨1, _⟩ => show win2_4.index t (1 : Fin 2) * 64 + 1 * (y 1).val = (y 1).val; rw [e1]; omega

theorem whole2_5 (c : Dev nD) (t : Fin cfg2.N) :
    (iblk2 (F := Ideal) V c 5 t : Vec Ideal S1x64 .f32) = (V c main_v65 : Vec Ideal S1x64 .f32) := by
  obtain ⟨-, -, -, -, -, -, -, -, -, -, e0, e1, -⟩ := block_index2 t
  funext y
  unfold iblk2
  rw [View.read_apply]
  show V c main_v65 _ = V c main_v65 _
  refine congrArg _ ?_
  funext a; apply Fin.ext
  match a with
  | ⟨0, _⟩ => show win2_5.index t (0 : Fin 2) * 1 + 1 * (y 0).val = (y 0).val; rw [e0]; omega
  | ⟨1, _⟩ => show win2_5.index t (1 : Fin 2) * 64 + 1 * (y 1).val = (y 1).val; rw [e1]; omega

/-- The tile's activation at a local entry is the whole arrays' activation at the entry's place in the array: the
    per-entry law, with the entry and its place given by their coordinates. -/
theorem act_place2 (x s : Cert.Spec.Nodes) (w1 w2 : FVec Ideal S64x64 .f32) (b1 b2 : FVec Ideal S1x64 .f32)
    (x0 x1 : Vec Ideal S5000x64 .f32) (x2 x4 : Vec Ideal S64x64 .f32) (x3 x5 : Vec Ideal S1x64 .f32) (t : Fin 20)
    (hx : ∀ (p : Fin 5000) (q : Fin 64) (r : Fin 100000), r.val = 5000 * t.val + p.val → x0 (ix2 p q) = x (ix2 r q))
    (hs : ∀ (p : Fin 5000) (q : Fin 64) (r : Fin 100000), r.val = 5000 * t.val + p.val → x1 (ix2 p q) = s (ix2 r q))
    (h2 : x2 = w1) (h3 : x3 = b1) (h4 : x4 = w2) (h5 : x5 = b2)
    (j : S5000x64.Idx) (i : S100000x64.Idx) (hi0 : (i 0).val = 5000 * t.val + (j 0).val) (hi1 : (i 1).val = (j 1).val) :
    k2_pay2 (F := Ideal) x0 x1 x2 x4 x3 x5 j = Cert.Spec.layerE x s w1 b1 w2 b2 i := by
  subst h2 h3 h4 h5
  obtain ⟨p, q, rfl⟩ : ∃ (p : Fin 5000) (q : Fin 64), j = ix2 p q := ⟨j 0, j 1, eq_ix2 j⟩
  have hi : i = ix2 ⟨5000 * t.val + p.val, by omega⟩ q := by
    funext a; apply Fin.ext
    match a with
    | ⟨0, _⟩ => exact hi0
    | ⟨1, _⟩ => exact hi1
  rw [hi]
  exact Cert.LayerLaw.act_at2 x s x2 x4 x3 x5 x0 x1 t (fun p q => hx p q _ rfl) (fun p q => hs p q _ rfl) p q

theorem norm_place2 (x s : Cert.Spec.Nodes) (w1 w2 : FVec Ideal S64x64 .f32) (b1 b2 : FVec Ideal S1x64 .f32)
    (x0 x1 : Vec Ideal S5000x64 .f32) (x2 x4 : Vec Ideal S64x64 .f32) (x3 x5 : Vec Ideal S1x64 .f32) (t : Fin 20)
    (hx : ∀ (p : Fin 5000) (q : Fin 64) (r : Fin 100000), r.val = 5000 * t.val + p.val → x0 (ix2 p q) = x (ix2 r q))
    (hs : ∀ (p : Fin 5000) (q : Fin 64) (r : Fin 100000), r.val = 5000 * t.val + p.val → x1 (ix2 p q) = s (ix2 r q))
    (h2 : x2 = w1) (h3 : x3 = b1) (h4 : x4 = w2) (h5 : x5 = b2)
    (j : S5000x64.Idx) (i : S100000x64.Idx) (hi0 : (i 0).val = 5000 * t.val + (j 0).val) (hi1 : (i 1).val = (j 1).val) :
    k2_pay1 (F := Ideal) (k2_pay2 x0 x1 x2 x4 x3 x5) (k2_pay3 x0 x1 x2 x4 x3 x5) j
      = Cert.Spec.layerN (Cert.Spec.layerE x s w1 b1 w2 b2) i := by
  subst h2 h3 h4 h5
  obtain ⟨p, q, rfl⟩ : ∃ (p : Fin 5000) (q : Fin 64), j = ix2 p q := ⟨j 0, j 1, eq_ix2 j⟩
  have hi : i = ix2 ⟨5000 * t.val + p.val, by omega⟩ q := by
    funext a; apply Fin.ext
    match a with
    | ⟨0, _⟩ => exact hi0
    | ⟨1, _⟩ => exact hi1
  rw [hi]
  exact Cert.LayerLaw.norm_at2 x s x2 x4 x3 x5 x0 x1 t (fun p q => hx p q _ rfl) (fun p q => hs p q _ rfl) p q

/-- What point t writes back to the new features' array is block t of the whole arrays' activation. -/
theorem flushed2_6 (c : Dev nD) (t : Fin cfg2.N) :
    (dat2 (F := Ideal) V c).flushed 6 t = ((cfg2.win 6).blk t).view.read (Elt Ideal)
      (Cert.Spec.layerE (V c main_v44_0) (V c main_v57) (V c main_v59) (V c main_v61) (V c main_v63) (V c main_v65)) := by
  show (cfg2.win 6).cut (grid2.coords t) ((dat2 V c).after 6 t) = _
  rw [after2_6]
  unfold out2_6
  rw [View.canon_unit_zero zero_offsets2]
  simp only [View.ld_unit_zero (S := S5000x64) zero_offsets2, View.ld_unit_zero (S := S64x64) zero_offsets2, View.ld_unit_zero (S := S1x64) zero_offsets2]
  obtain ⟨-, -, -, -, -, -, -, -, -, -, -, -, e0, e1, -⟩ := block_index2 t
  funext j
  refine act_place2 _ _ _ _ _ _ (iblk2 V c 0 t) (iblk2 V c 1 t) (iblk2 V c 2 t) (iblk2 V c 4 t) (iblk2 V c 3 t) (iblk2 V c 5 t) ⟨t.val, point_lt2 t⟩
    (fun p q r hr => rows2_0 V c t p q r hr) (fun p q r hr => rows2_1 V c t p q r hr)
    (whole2_2 V c t) (whole2_3 V c t) (whole2_4 V c t) (whole2_5 V c t) _ _ ?_ ?_
  · show win2_6.index t (0 : Fin 2) * 5000 + 1 * (j 0).val = 5000 * t.val + (j 0).val; rw [e0]; omega
  · show win2_6.index t (1 : Fin 2) * 64 + 1 * (j 1).val = (j 1).val; rw [e1]; omega

/-- What point t writes back to the unit-length rows' array is block t of the whole arrays' normalised activation. -/
theorem flushed2_7 (c : Dev nD) (t : Fin cfg2.N) :
    (dat2 (F := Ideal) V c).flushed 7 t = ((cfg2.win 7).blk t).view.read (Elt Ideal)
      (Cert.Spec.layerN (Cert.Spec.layerE (V c main_v44_0) (V c main_v57) (V c main_v59) (V c main_v61) (V c main_v63) (V c main_v65))) := by
  show (cfg2.win 7).cut (grid2.coords t) ((dat2 V c).after 7 t) = _
  rw [after2_7]
  unfold out2_7
  rw [View.canon_unit_zero zero_offsets2]
  simp only [View.ld_unit_zero (S := S5000x64) zero_offsets2, View.ld_unit_zero (S := S64x64) zero_offsets2, View.ld_unit_zero (S := S1x64) zero_offsets2]
  obtain ⟨-, -, -, -, -, -, -, -, -, -, -, -, -, -, e0, e1⟩ := block_index2 t
  funext j
  refine norm_place2 _ _ _ _ _ _ (iblk2 V c 0 t) (iblk2 V c 1 t) (iblk2 V c 2 t) (iblk2 V c 4 t) (iblk2 V c 3 t) (iblk2 V c 5 t) ⟨t.val, point_lt2 t⟩
    (fun p q r hr => rows2_0 V c t p q r hr) (fun p q r hr => rows2_1 V c t p q r hr)
    (whole2_2 V c t) (whole2_3 V c t) (whole2_4 V c t) (whole2_5 V c t) _ _ ?_ ?_
  · show win2_7.index t (0 : Fin 2) * 5000 + 1 * (j 0).val = 5000 * t.val + (j 0).val; rw [e0]; omega
  · show win2_7.index t (1 : Fin 2) * 64 + 1 * (j 1).val = (j 1).val; rw [e1]; omega

/-- An entry of the array is in point t's block of a result window iff each coordinate is in the block's range. -/
theorem mem_blk2_6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v66_0).slice (win2_6.rect t)).set ↔ _
  rw [View.set_slice_whole, Rect.mem_set_unit]
  exact Iff.rfl

theorem mem_blk2_7 (t : Fin cfg2.N) (i : S100000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v66_1).slice (win2_7.rect t)).set ↔ _
  rw [View.set_slice_whole, Rect.mem_set_unit]
  exact Iff.rfl

/-- Every row r of a result array is in the block of the point r / 5000, which writes back. -/
theorem cover2_arr6 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_6 _, ?_⟩
  rw [mem_blk2_6]
  obtain ⟨-, -, -, -, -, -, -, -, -, -, -, -, e0, e1, -⟩ := block_index2 ⟨(i 0).val / 5000, by rw [hN]; omega⟩
  intro a
  match a with
  | ⟨0, _⟩ =>
    show win2_6.index _ (0 : Fin 2) * 5000 ≤ (i 0).val ∧ (i 0).val < win2_6.index _ (0 : Fin 2) * 5000 + 5000
    rw [e0]; show (i 0).val / 5000 * 5000 ≤ (i 0).val ∧ (i 0).val < (i 0).val / 5000 * 5000 + 5000; omega
  | ⟨1, _⟩ =>
    show win2_6.index _ (1 : Fin 2) * 64 ≤ (i 1).val ∧ (i 1).val < win2_6.index _ (1 : Fin 2) * 64 + 64
    rw [e1]; omega

theorem cover2_arr7 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_7 _, ?_⟩
  rw [mem_blk2_7]
  obtain ⟨-, -, -, -, -, -, -, -, -, -, -, -, -, -, e0, e1⟩ := block_index2 ⟨(i 0).val / 5000, by rw [hN]; omega⟩
  intro a
  match a with
  | ⟨0, _⟩ =>
    show win2_7.index _ (0 : Fin 2) * 5000 ≤ (i 0).val ∧ (i 0).val < win2_7.index _ (0 : Fin 2) * 5000 + 5000
    rw [e0]; show (i 0).val / 5000 * 5000 ≤ (i 0).val ∧ (i 0).val < (i 0).val / 5000 * 5000 + 5000; omega
  | ⟨1, _⟩ =>
    show win2_7.index _ (1 : Fin 2) * 64 ≤ (i 1).val ∧ (i 1).val < win2_7.index _ (1 : Fin 2) * 64 + 64
    rw [e1]; omega

section
variable [Cert.KernelIdeal.Facts]

/-- After launch 2 the new features' array holds the layer's activation of the arrays the launch found. -/
theorem final2_6 (c : Dev nD) :
    (dat2 (F := Ideal) V c).arrAt 6 cfg2.N
      = Cert.Spec.layerE (V c main_v44_0) (V c main_v57) (V c main_v59) (V c main_v61) (V c main_v63) (V c main_v65) :=
  (dat2 (F := Ideal) V c).arrAt_eq_of_cover 6 _ (fun t _ => flushed2_6 V c t) cover2_arr6

/-- After launch 2 the unit-length rows' array holds the activation's rows scaled to unit length. -/
theorem final2_7 (c : Dev nD) :
    (dat2 (F := Ideal) V c).arrAt 7 cfg2.N
      = Cert.Spec.layerN (Cert.Spec.layerE (V c main_v44_0) (V c main_v57) (V c main_v59) (V c main_v61) (V c main_v63) (V c main_v65)) :=
  (dat2 (F := Ideal) V c).arrAt_eq_of_cover 7 _ (fun t _ => flushed2_7 V c t) cover2_arr7

end

end Cert.KernelIdeal.Hand

end
-- ==== Proof.KI.ValueRun.lean ====
/-
  The idealized program's scalar result as the specification's function of the twelve argument arrays: the contents
  of the buffers are followed through the run — the stacked features and their sparse product before the first launch,
  each launch's two result arrays (the new features and their unit-length rows, by the blocks-to-array lemmas), the next
  sparse product and weight slices between launches, and the loss tail after the third — and composed.
-/
import proofs.«117729_j22703197127156_1_alg».proof.Proof.KI.Run
import proofs.«117729_j22703197127156_1_alg».proof.Proof.KI.Glue
import proofs.«117729_j22703197127156_1_alg».proof.Proof.KI.Value0
import proofs.«117729_j22703197127156_1_alg».proof.Proof.KI.Value1
import proofs.«117729_j22703197127156_1_alg».proof.Proof.KI.Value2

set_option maxRecDepth 16384

noncomputable section

namespace Cert.KernelIdeal.Hand

open Cert.KernelIdeal Cert.KernelIdeal.Gen
open Idealize.ShloMosaic Idealize.ShloMosaic.TcCoe Idealize.SL.Sem

variable [Cert.ReferenceIdeal.Facts] [Cert.KernelIdeal.Facts]
variable (m : (ℓ : Loc nD τ sig) → Buf (Elt Ideal) ℓ)

/-! ## The specification's intermediate values on core `c` -/

/-- The stacked node features. -/
abbrev X0 (c : Dev nD) : Cert.Spec.Nodes := Cert.Spec.ego0 (m ((c.tc : Thread nD τ).loc main_arg0)) (m ((c.tc : Thread nD τ).loc main_arg1))
/-- The sparse product of `x`. -/
abbrev SP (c : Dev nD) (x : Cert.Spec.Nodes) : Cert.Spec.Nodes := Cert.Spec.side (m ((c.tc : Thread nD τ).loc main_arg6)) (m ((c.tc : Thread nD τ).loc main_arg7)) (m ((c.tc : Thread nD τ).loc main_arg8)) x
/-- The features after one, two and three layers. -/
abbrev E1 (c : Dev nD) : Cert.Spec.Nodes :=
  Cert.Spec.layerE (X0 m c) (SP m c (X0 m c)) (Cert.Spec.wSlice0 (m ((c.tc : Thread nD τ).loc main_arg2))) (Cert.Spec.bSlice0 (m ((c.tc : Thread nD τ).loc main_arg3))) (Cert.Spec.wSlice0 (m ((c.tc : Thread nD τ).loc main_arg4))) (Cert.Spec.bSlice0 (m ((c.tc : Thread nD τ).loc main_arg5)))
abbrev E2 (c : Dev nD) : Cert.Spec.Nodes :=
  Cert.Spec.layerE (E1 m c) (SP m c (E1 m c)) (Cert.Spec.wSlice1 (m ((c.tc : Thread nD τ).loc main_arg2))) (Cert.Spec.bSlice1 (m ((c.tc : Thread nD τ).loc main_arg3))) (Cert.Spec.wSlice1 (m ((c.tc : Thread nD τ).loc main_arg4))) (Cert.Spec.bSlice1 (m ((c.tc : Thread nD τ).loc main_arg5)))
abbrev E3 (c : Dev nD) : Cert.Spec.Nodes :=
  Cert.Spec.layerE (E2 m c) (SP m c (E2 m c)) (Cert.Spec.wSlice2 (m ((c.tc : Thread nD τ).loc main_arg2))) (Cert.Spec.bSlice2 (m ((c.tc : Thread nD τ).loc main_arg3))) (Cert.Spec.wSlice2 (m ((c.tc : Thread nD τ).loc main_arg4))) (Cert.Spec.bSlice2 (m ((c.tc : Thread nD τ).loc main_arg5)))

/-! ## A buffer no item has written yet holds its launch contents -/

variable (o : Gen.Outs (F := Ideal))

theorem keep1 (c : Dev nD) (r : Ref sig .tc) (h0 : r ∉ hostOps0_W) : Gen.V1 m c r = m ((c.tc : Thread nD τ).loc r) :=
  (Gen.V1_of m c r h0).trans rfl
theorem keep2 (c : Dev nD) (r : Ref sig .tc) (h0 : r ∉ hostOps0_W) (h2 : r ∉ ([main_v22_0, main_v22_1] : List (Ref sig .tc))) :
    Gen.V2 m o c r = m ((c.tc : Thread nD τ).loc r) :=
  (Gen.V2_of m o c r h2).trans (keep1 m c r h0)
theorem keep3 (c : Dev nD) (r : Ref sig .tc) (h0 : r ∉ hostOps0_W) (h2 : r ∉ ([main_v22_0, main_v22_1] : List (Ref sig .tc)))
    (h1 : r ∉ hostOps1_W) : Gen.V3 m o c r = m ((c.tc : Thread nD τ).loc r) :=
  (Gen.V3_of m o c r h1).trans (keep2 m o c r h0 h2)
theorem keep4 (c : Dev nD) (r : Ref sig .tc) (h0 : r ∉ hostOps0_W) (h2 : r ∉ ([main_v22_0, main_v22_1] : List (Ref sig .tc)))
    (h1 : r ∉ hostOps1_W) (h4 : r ∉ ([main_v44_0, main_v44_1] : List (Ref sig .tc))) : Gen.V4 m o c r = m ((c.tc : Thread nD τ).loc r) :=
  (Gen.V4_of m o c r h4).trans (keep3 m o c r h0 h2 h1)
theorem keep5 (c : Dev nD) (r : Ref sig .tc) (h0 : r ∉ hostOps0_W) (h2 : r ∉ ([main_v22_0, main_v22_1] : List (Ref sig .tc)))
    (h1 : r ∉ hostOps1_W) (h4 : r ∉ ([main_v44_0, main_v44_1] : List (Ref sig .tc))) (h5 : r ∉ hostOps2_W) :
    Gen.V5 m o c r = m ((c.tc : Thread nD τ).loc r) :=
  (Gen.V5_of m o c r h5).trans (keep4 m o c r h0 h2 h1 h4)
theorem keep6 (c : Dev nD) (r : Ref sig .tc) (h0 : r ∉ hostOps0_W) (h2 : r ∉ ([main_v22_0, main_v22_1] : List (Ref sig .tc)))
    (h1 : r ∉ hostOps1_W) (h4 : r ∉ ([main_v44_0, main_v44_1] : List (Ref sig .tc))) (h5 : r ∉ hostOps2_W)
    (h6 : r ∉ ([main_v66_0, main_v66_1] : List (Ref sig .tc))) : Gen.V6 m o c r = m ((c.tc : Thread nD τ).loc r) :=
  (Gen.V6_of m o c r h6).trans (keep5 m o c r h0 h2 h1 h4 h5)

/-! ## Before and through the first launch -/

theorem in0_x (c : Dev nD) : (Gen.V1 m c main_v0 : Cert.Spec.Nodes) = X0 m c := g0_v0 (Gen.V0 m c)
theorem in0_s (c : Dev nD) : (Gen.V1 m c main_v13 : Cert.Spec.Nodes) = SP m c (X0 m c) := g0_v13 (Gen.V0 m c)
theorem in0_w1 (c : Dev nD) : Gen.V1 m c main_v15 = Cert.Spec.wSlice0 (m ((c.tc : Thread nD τ).loc main_arg2)) := g0_v15 (Gen.V0 m c)
theorem in0_b1 (c : Dev nD) : Gen.V1 m c main_v17 = Cert.Spec.bSlice0 (m ((c.tc : Thread nD τ).loc main_arg3)) := g0_v17 (Gen.V0 m c)
theorem in0_w2 (c : Dev nD) : Gen.V1 m c main_v19 = Cert.Spec.wSlice0 (m ((c.tc : Thread nD τ).loc main_arg4)) := g0_v19 (Gen.V0 m c)
theorem in0_b2 (c : Dev nD) : Gen.V1 m c main_v21 = Cert.Spec.bSlice0 (m ((c.tc : Thread nD τ).loc main_arg5)) := g0_v21 (Gen.V0 m c)

/-- The first launch leaves the one-layer features -/
theorem out0_e (c : Dev nD) : (Gen.V2 m (outs m) c main_v22_0 : Cert.Spec.Nodes) = E1 m c := by
  rw [V2_main_v22_0 m c, final0_6 (VV1 m) c]
  show Cert.Spec.layerE (Gen.V1 m c main_v0) (Gen.V1 m c main_v13) (Gen.V1 m c main_v15) (Gen.V1 m c main_v17) (Gen.V1 m c main_v19) (Gen.V1 m c main_v21) = _
  rw [in0_x, in0_s, in0_w1, in0_b1, in0_w2, in0_b2]
/-- and their unit-length rows. -/
theorem out0_n (c : Dev nD) : (Gen.V2 m (outs m) c main_v22_1 : Cert.Spec.Nodes) = Cert.Spec.layerN (E1 m c) := by
  rw [V2_main_v22_1 m c, final0_7 (VV1 m) c]
  show Cert.Spec.layerN (Cert.Spec.layerE (Gen.V1 m c main_v0) (Gen.V1 m c main_v13) (Gen.V1 m c main_v15) (Gen.V1 m c main_v17) (Gen.V1 m c main_v19) (Gen.V1 m c main_v21)) = _
  rw [in0_x, in0_s, in0_w1, in0_b1, in0_w2, in0_b2]

/-! ## Between the first and the second launch, and through the second -/

/-- The contents after the first launch read only that launch's results. -/
theorem V2A (c : Dev nD) : Gen.V2 m (outsA m) c = Gen.V2 m (outs m) c := rfl

theorem in1_x (c : Dev nD) : (Gen.V3 m (outsA m) c main_v22_0 : Cert.Spec.Nodes) = E1 m c := by
  rw [Gen.V3_of m (outsA m) c main_v22_0 (by decide), V2A m c]; exact out0_e m c
theorem in1_s (c : Dev nD) : (Gen.V3 m (outsA m) c main_v35 : Cert.Spec.Nodes) = SP m c (E1 m c) := by
  show StableHlo.after (hostOps1 (F := Ideal)) (Gen.V2 m (outsA m) c) (Proc.devRef .tc main_v35) = _
  rw [g1_v35 (Gen.V2 m (outsA m) c), keep2 m (outsA m) c main_arg6 (by decide) (by decide), keep2 m (outsA m) c main_arg7 (by decide) (by decide), keep2 m (outsA m) c main_arg8 (by decide) (by decide), V2A m c, out0_e m c]
theorem in1_w1 (c : Dev nD) : Gen.V3 m (outsA m) c main_v37 = Cert.Spec.wSlice1 (m ((c.tc : Thread nD τ).loc main_arg2)) := by
  show StableHlo.after (hostOps1 (F := Ideal)) (Gen.V2 m (outsA m) c) (Proc.devRef .tc main_v37) = _
  rw [g1_v37 (Gen.V2 m (outsA m) c), keep2 m (outsA m) c main_arg2 (by decide) (by decide)]
theorem in1_b1 (c : Dev nD) : Gen.V3 m (outsA m) c main_v39 = Cert.Spec.bSlice1 (m ((c.tc : Thread nD τ).loc main_arg3)) := by
  show StableHlo.after (hostOps1 (F := Ideal)) (Gen.V2 m (outsA m) c) (Proc.devRef .tc main_v39) = _
  rw [g1_v39 (Gen.V2 m (outsA m) c), keep2 m (outsA m) c main_arg3 (by decide) (by decide)]
theorem in1_w2 (c : Dev nD) : Gen.V3 m (outsA m) c main_v41 = Cert.Spec.wSlice1 (m ((c.tc : Thread nD τ).loc main_arg4)) := by
  show StableHlo.after (hostOps1 (F := Ideal)) (Gen.V2 m (outsA m) c) (Proc.devRef .tc main_v41) = _
  rw [g1_v41 (Gen.V2 m (outsA m) c), keep2 m (outsA m) c main_arg4 (by decide) (by decide)]
theorem in1_b2 (c : Dev nD) : Gen.V3 m (outsA m) c main_v43 = Cert.Spec.bSlice1 (m ((c.tc : Thread nD τ).loc main_arg5)) := by
  show StableHlo.after (hostOps1 (F := Ideal)) (Gen.V2 m (outsA m) c) (Proc.devRef .tc main_v43) = _
  rw [g1_v43 (Gen.V2 m (outsA m) c), keep2 m (outsA m) c main_arg5 (by decide) (by decide)]

theorem out1_e (c : Dev nD) : (Gen.V4 m (outs m) c main_v44_0 : Cert.Spec.Nodes) = E2 m c := by
  rw [V4_main_v44_0 m c, final1_6 (VV3 m) c]
  show Cert.Spec.layerE (Gen.V3 m (outsA m) c main_v22_0) (Gen.V3 m (outsA m) c main_v35) (Gen.V3 m (outsA m) c main_v37) (Gen.V3 m (outsA m) c main_v39) (Gen.V3 m (outsA m) c main_v41) (Gen.V3 m (outsA m) c main_v43) = _
  rw [in1_x, in1_s, in1_w1, in1_b1, in1_w2, in1_b2]
theorem out1_n (c : Dev nD) : (Gen.V4 m (outs m) c main_v44_1 : Cert.Spec.Nodes) = Cert.Spec.layerN (E2 m c) := by
  rw [V4_main_v44_1 m c, final1_7 (VV3 m) c]
  show Cert.Spec.layerN (Cert.Spec.layerE (Gen.V3 m (outsA m) c main_v22_0) (Gen.V3 m (outsA m) c main_v35) (Gen.V3 m (outsA m) c main_v37) (Gen.V3 m (outsA m) c main_v39) (Gen.V3 m (outsA m) c main_v41) (Gen.V3 m (outsA m) c main_v43)) = _
  rw [in1_x, in1_s, in1_w1, in1_b1, in1_w2, in1_b2]

/-! ## Between the second and the third launch, and through the third -/

theorem V4B (c : Dev nD) : Gen.V4 m (outsB m) c = Gen.V4 m (outs m) c := rfl

theorem in2_x (c : Dev nD) : (Gen.V5 m (outsB m) c main_v44_0 : Cert.Spec.Nodes) = E2 m c := by
  rw [Gen.V5_of m (outsB m) c main_v44_0 (by decide), V4B m c]; exact out1_e m c
theorem in2_s (c : Dev nD) : (Gen.V5 m (outsB m) c main_v57 : Cert.Spec.Nodes) = SP m c (E2 m c) := by
  show StableHlo.after (hostOps2 (F := Ideal)) (Gen.V4 m (outsB m) c) (Proc.devRef .tc main_v57) = _
  rw [g2_v57 (Gen.V4 m (outsB m) c), keep4 m (outsB m) c main_arg6 (by decide) (by decide) (by decide) (by decide), keep4 m (outsB m) c main_arg7 (by decide) (by decide) (by decide) (by decide), keep4 m (outsB m) c main_arg8 (by decide) (by decide) (by decide) (by decide), V4B m c, out1_e m c]
theorem in2_w1 (c : Dev nD) : Gen.V5 m (outsB m) c main_v59 = Cert.Spec.wSlice2 (m ((c.tc : Thread nD τ).loc main_arg2)) := by
  show StableHlo.after (hostOps2 (F := Ideal)) (Gen.V4 m (outsB m) c) (Proc.devRef .tc main_v59) = _
  rw [g2_v59 (Gen.V4 m (outsB m) c), keep4 m (outsB m) c main_arg2 (by decide) (by decide) (by decide) (by decide)]
theorem in2_b1 (c : Dev nD) : Gen.V5 m (outsB m) c main_v61 = Cert.Spec.bSlice2 (m ((c.tc : Thread nD τ).loc main_arg3)) := by
  show StableHlo.after (hostOps2 (F := Ideal)) (Gen.V4 m (outsB m) c) (Proc.devRef .tc main_v61) = _
  rw [g2_v61 (Gen.V4 m (outsB m) c), keep4 m (outsB m) c main_arg3 (by decide) (by decide) (by decide) (by decide)]
theorem in2_w2 (c : Dev nD) : Gen.V5 m (outsB m) c main_v63 = Cert.Spec.wSlice2 (m ((c.tc : Thread nD τ).loc main_arg4)) := by
  show StableHlo.after (hostOps2 (F := Ideal)) (Gen.V4 m (outsB m) c) (Proc.devRef .tc main_v63) = _
  rw [g2_v63 (Gen.V4 m (outsB m) c), keep4 m (outsB m) c main_arg4 (by decide) (by decide) (by decide) (by decide)]
theorem in2_b2 (c : Dev nD) : Gen.V5 m (outsB m) c main_v65 = Cert.Spec.bSlice2 (m ((c.tc : Thread nD τ).loc main_arg5)) := by
  show StableHlo.after (hostOps2 (F := Ideal)) (Gen.V4 m (outsB m) c) (Proc.devRef .tc main_v65) = _
  rw [g2_v65 (Gen.V4 m (outsB m) c), keep4 m (outsB m) c main_arg5 (by decide) (by decide) (by decide) (by decide)]

theorem out2_n (c : Dev nD) : (Gen.V6 m (outs m) c main_v66_1 : Cert.Spec.Nodes) = Cert.Spec.layerN (E3 m c) := by
  rw [V6_main_v66_1 m c, final2_7 (VV5 m) c]
  show Cert.Spec.layerN (Cert.Spec.layerE (Gen.V5 m (outsB m) c main_v44_0) (Gen.V5 m (outsB m) c main_v57) (Gen.V5 m (outsB m) c main_v59) (Gen.V5 m (outsB m) c main_v61) (Gen.V5 m (outsB m) c main_v63) (Gen.V5 m (outsB m) c main_v65)) = _
  rw [in2_x, in2_s, in2_w1, in2_b1, in2_w2, in2_b2]

/-! ## After the third launch -/

/-- The stacked features are still there, -/
theorem fin_x (c : Dev nD) : (Gen.V6 m (outs m) c main_v0 : Cert.Spec.Nodes) = X0 m c :=
  (Gen.V6_of m (outs m) c main_v0 (by decide)).trans <| (Gen.V5_of m (outs m) c main_v0 (by decide)).trans <|
    (Gen.V4_of m (outs m) c main_v0 (by decide)).trans <| (Gen.V3_of m (outs m) c main_v0 (by decide)).trans <|
    (Gen.V2_of m (outs m) c main_v0 (by decide)).trans (in0_x m c)
/-- and so are the first two launches' unit-length rows. -/
theorem fin_n1 (c : Dev nD) : (Gen.V6 m (outs m) c main_v22_1 : Cert.Spec.Nodes) = Cert.Spec.layerN (E1 m c) :=
  (Gen.V6_of m (outs m) c main_v22_1 (by decide)).trans <| (Gen.V5_of m (outs m) c main_v22_1 (by decide)).trans <|
    (Gen.V4_of m (outs m) c main_v22_1 (by decide)).trans <| (Gen.V3_of m (outs m) c main_v22_1 (by decide)).trans (out0_n m c)
theorem fin_n2 (c : Dev nD) : (Gen.V6 m (outs m) c main_v44_1 : Cert.Spec.Nodes) = Cert.Spec.layerN (E2 m c) :=
  (Gen.V6_of m (outs m) c main_v44_1 (by decide)).trans <| (Gen.V5_of m (outs m) c main_v44_1 (by decide)).trans (out1_n m c)

/-- THE RESULT: what the run leaves in the scalar result buffer is the specification's function of the arguments. -/
theorem result_eq (c : Dev nD) :
    Gen.V9 m (outs m) c main_v113
      = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after (hostOps3_2 (F := Ideal)) (StableHlo.after (hostOps3_1 (F := Ideal)) (StableHlo.after (hostOps3 (F := Ideal)) (Gen.V6 m (outs m) c))) (Proc.devRef .tc main_v113) = _
  rw [g3_v113 (Gen.V6 m (outs m) c), fin_x m c, fin_n1 m c, fin_n2 m c, out2_n m c,
    keep6 m (outs m) c main_arg9 (by decide) (by decide) (by decide) (by decide) (by decide) (by decide), keep6 m (outs m) c main_arg10 (by decide) (by decide) (by decide) (by decide) (by decide) (by decide), keep6 m (outs m) c main_arg11 (by decide) (by decide) (by decide) (by decide) (by decide) (by decide)]
  rfl

end Cert.KernelIdeal.Hand

end
-- ==== Proof.RefRun.Ops.lean ====
/-
  The reference program's @main as a list of host operations.

  @main is stated in four windows of statements; three of its statements are calls of outlined
  functions (the leaky rectifier, which itself calls the select; the row norm; the log-sigmoid, which calls the
  softplus).  A call executes the callee's body on the call's own buffers, so each window is a straight line of
  operations once the callee's operations are written at the call site, each over the buffers
  the call's record names (a typed reference to a literal buffer is that buffer, its casts the identity).  This module lists them, shows that each
  window is that line, and that every operation only touches device buffers.
-/
import proofs.«117729_j22703197127156_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- The concatenation of the four embeddings as a function of four plain arguments.  Inside the concatenation the operands
    sit in a list of (shape, array) pairs, and the evidence that the shapes concatenate depends on that list, so an
    equation between operands cannot be used under it; over this function's arguments it can. -/
def fn_main_v109 : (main_v0 : Ref sig .tc).ty.Contents (Elt F) → (main_v36 : Ref sig .tc).ty.Contents (Elt F) → (main_v72 : Ref sig .tc).ty.Contents (Elt F) → (main_v108 : Ref sig .tc).ty.Contents (Elt F) → (main_v109 : Ref sig .tc).ty.Contents (Elt F) :=
  (fun u0 u1 u2 u3 => concatenate S100000x256 1 [⟨S100000x64, u0⟩, ⟨S100000x64, u1⟩, ⟨S100000x64, u2⟩, ⟨S100000x64, u3⟩] concatenates_S100000x64_S100000x64_S100000x64_S100000x64_S100000x256_d1)

/-- The operations of statements window 0 of @main, the outlined functions' operations listed at their call sites. -/
abbrev ops_part0 : List (HloOp τ sig (Elt F)) :=
  [ StableHlo.binary main_arg0 main_arg1 main_v0 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)),
    StableHlo.unary main_arg6 main_v1 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v2 (broadcastInDim S1600000 ![] bcast_S_S1600000 : (⟨S_, .i32⟩ : BufTy).Contents (Elt F) → (⟨S1600000, .i32⟩ : BufTy).Contents (Elt F)),
    StableHlo.binary main_arg8 main_v2 main_v3 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v4 (broadcastInDim S1600000 ![] bcast_S_S1600000 : (⟨S_, .i32⟩ : BufTy).Contents (Elt F) → (⟨S1600000, .i32⟩ : BufTy).Contents (Elt F)),
    StableHlo.binary main_arg8 main_v4 main_v5 (addi : (⟨S1600000, .i32⟩ : BufTy).Contents (Elt F) → (⟨S1600000, .i32⟩ : BufTy).Contents (Elt F) → (⟨S1600000, .i32⟩ : BufTy).Contents (Elt F)),
    StableHlo.ternary main_v3 main_v5 main_arg8 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v6 main_v7 (broadcastInDim S1600000x1 ![0] bcast_S1600000_S1600000x1_0 : (⟨S1600000, .i32⟩ : BufTy).Contents (Elt F) → (⟨S1600000x1, .i32⟩ : BufTy).Contents (Elt F)),
    StableHlo.binary main_v0 main_v7 main_v8 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v1 main_v9 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v9 main_v8 main_v10 (mulf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_arg7 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v13 main_v0 main_v14 (subf : (⟨S100000x64, .f32⟩ : BufTy).Contents (Elt F) → (⟨S100000x64, .f32⟩ : BufTy).Contents (Elt F) → (⟨S100000x64, .f32⟩ : BufTy).Contents (Elt F)),
    StableHlo.unary main_arg2 main_v15 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v15 main_v16 rfl shapeCasts_S1x64x64_S64x64,
    StableHlo.binary main_v13 main_v16 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v18 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v18 main_v19 rfl shapeCasts_S1x1x64_S1x64,
    StableHlo.unary main_v19 main_v20 (broadcastInDim S100000x64 ![0, 1] bcast_S1x64_S100000x64_0_1 : (⟨S1x64, .f32⟩ : BufTy).Contents (Elt F) → (⟨S100000x64, .f32⟩ : BufTy).Contents (Elt F)),
    StableHlo.binary main_v17 main_v20 main_v21 (addf : (⟨S100000x64, .f32⟩ : BufTy).Contents (Elt F) → (⟨S100000x64, .f32⟩ : BufTy).Contents (Elt F) → (⟨S100000x64, .f32⟩ : BufTy).Contents (Elt F)),
    StableHlo.binary main_v0 main_v14 main_v22 (mulf : (⟨S100000x64, .f32⟩ : BufTy).Contents (Elt F) → (⟨S100000x64, .f32⟩ : BufTy).Contents (Elt F) → (⟨S100000x64, .f32⟩ : BufTy).Contents (Elt F)),
    StableHlo.unary main_arg4 main_v23 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v23 main_v24 rfl shapeCasts_S1x64x64_S64x64,
    StableHlo.binary main_v22 main_v24 main_v25 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v26 ((extractStridedSlice S1x1x64 ![0, 0, 0] · slices_S3x1x64_S1x1x64_0_0_0) : (⟨S3x1x64, .f32⟩ : BufTy).Contents (Elt F) → (⟨S1x1x64, .f32⟩ : BufTy).Contents (Elt F)),
    StableHlo.reshape main_v26 main_v27 rfl shapeCasts_S1x1x64_S1x64,
    StableHlo.unary main_v27 main_v28 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v28 main_v29 (addf : (⟨S100000x64, .f32⟩ : BufTy).Contents (Elt F) → (⟨S100000x64, .f32⟩ : BufTy).Contents (Elt F) → (⟨S100000x64, .f32⟩ : BufTy).Contents (Elt F)),
    StableHlo.binary main_v21 main_v29 main_v30 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3C23D70A#32),
    StableHlo.nullary main_call0_cst (constant S_ .f32 0x00000000#32),
    StableHlo.unary main_call0_cst main_call0_v0 (broadcastInDim S100000x64 ![] bcast_S_S100000x64 : (⟨S_, .f32⟩ : BufTy).Contents (Elt F) → (⟨S100000x64, .f32⟩ : BufTy).Contents (Elt F)),
    StableHlo.binary main_v30 main_call0_v0 main_call0_v1 (cmpf .oge : (⟨S100000x64, .f32⟩ : BufTy).Contents (Elt F) → (⟨S100000x64, .f32⟩ : BufTy).Contents (Elt F) → (⟨S100000x64, .i1⟩ : BufTy).Contents (Elt F)),
    StableHlo.unary main_cst_1 main_call0_v2 (id : (⟨S_, .f32⟩ : BufTy).Contents (Elt F) → (⟨S_, .f32⟩ : BufTy).Contents (Elt F)),
    StableHlo.unary main_call0_v2 main_call0_v3 (broadcastInDim S100000x64 ![] bcast_S_S100000x64 : (⟨S_, .f32⟩ : BufTy).Contents (Elt F) → (⟨S100000x64, .f32⟩ : BufTy).Contents (Elt F)),
    StableHlo.binary main_call0_v3 main_v30 main_call0_v4 (mulf : (⟨S100000x64, .f32⟩ : BufTy).Contents (Elt F) → (⟨S100000x64, .f32⟩ : BufTy).Contents (Elt F) → (⟨S100000x64, .f32⟩ : BufTy).Contents (Elt F)),
    StableHlo.ternary main_call0_v1 main_v30 main_call0_v4 main_v31 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v31 main_v31 main_call1_v0 (mulf : (⟨S100000x64, .f32⟩ : BufTy).Contents (Elt F) → (⟨S100000x64, .f32⟩ : BufTy).Contents (Elt F) → (⟨S100000x64, .f32⟩ : BufTy).Contents (Elt F)),
    StableHlo.nullary main_call1_cst (constant S_ .f32 0x00000000#32),
    StableHlo.binary main_call1_v0 main_call1_cst main_call1_v1 (fun x v => Host.reduceAdd x v reducesTo_S100000x64_S100000_d1 h_S_ : (⟨S100000x64, .f32⟩ : BufTy).Contents (Elt F) → (⟨S_, .f32⟩ : BufTy).Contents (Elt F) → (⟨S100000, .f32⟩ : BufTy).Contents (Elt F)),
    StableHlo.unary main_call1_v1 main_call1_v2 (broadcastInDim S100000x1 ![0] bcast_S100000_S100000x1_0 : (⟨S100000, .f32⟩ : BufTy).Contents (Elt F) → (⟨S100000x1, .f32⟩ : BufTy).Contents (Elt F)),
    StableHlo.unary main_call1_v2 main_v32 (Host.sqrt : (⟨S100000x1, .f32⟩ : BufTy).Contents (Elt F) → (⟨S100000x1, .f32⟩ : BufTy).Contents (Elt F)),
    StableHlo.nullary main_cst_2 (constant S_ .f32 0x2B8CBCCC#32),
    StableHlo.unary main_cst_2 main_v33 (broadcastInDim S100000x1 ![] bcast_S_S100000x1 : (⟨S_, .f32⟩ : BufTy).Contents (Elt F) → (⟨S100000x1, .f32⟩ : BufTy).Contents (Elt F)),
    StableHlo.binary main_v32 main_v33 main_v34 (maximumf : (⟨S100000x1, .f32⟩ : BufTy).Contents (Elt F) → (⟨S100000x1, .f32⟩ : BufTy).Contents (Elt F) → (⟨S100000x1, .f32⟩ : BufTy).Contents (Elt F)),
    StableHlo.unary main_v34 main_v35 (broadcastInDim S100000x64 ![0, 1] bcast_S100000x1_S100000x64_0_1 : (⟨S100000x1, .f32⟩ : BufTy).Contents (Elt F) → (⟨S100000x64, .f32⟩ : BufTy).Contents (Elt F)),
    StableHlo.binary main_v31 main_v35 main_v36 (Host.divf : (⟨S100000x64, .f32⟩ : BufTy).Contents (Elt F) → (⟨S100000x64, .f32⟩ : BufTy).Contents (Elt F) → (⟨S100000x64, .f32⟩ : BufTy).Contents (Elt F)),
    StableHlo.unary main_arg6 main_v37 (broadcastInDim S1600000x1 ![0] bcast_S1600000_S1600000x1_0 : (⟨S1600000, .f32⟩ : BufTy).Contents (Elt F) → (⟨S1600000x1, .f32⟩ : BufTy).Contents (Elt F)),
    StableHlo.nullary main_c_3 (constantI S_ 32 0#32),
    StableHlo.unary main_c_3 main_v38 (broadcastInDim S1600000 ![] bcast_S_S1600000 : (⟨S_, .i32⟩ : BufTy).Contents (Elt F) → (⟨S1600000, .i32⟩ : BufTy).Contents (Elt F)),
    StableHlo.binary main_arg8 main_v38 main_v39 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v40 (broadcastInDim S1600000 ![] bcast_S_S1600000 : (⟨S_, .i32⟩ : BufTy).Contents (Elt F) → (⟨S1600000, .i32⟩ : BufTy).Contents (Elt F)),
    StableHlo.binary main_arg8 main_v40 main_v41 (addi : (⟨S1600000, .i32⟩ : BufTy).Contents (Elt F) → (⟨S1600000, .i32⟩ : BufTy).Contents (Elt F) → (⟨S1600000, .i32⟩ : BufTy).Contents (Elt F)),
    StableHlo.ternary main_v39 main_v41 main_arg8 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v42 main_v43 (broadcastInDim S1600000x1 ![0] bcast_S1600000_S1600000x1_0 : (⟨S1600000, .i32⟩ : BufTy).Contents (Elt F) → (⟨S1600000x1, .i32⟩ : BufTy).Contents (Elt F)),
    StableHlo.binary main_v31 main_v43 main_v44 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v37 main_v45 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v45 main_v44 main_v46 (mulf : (⟨S1600000x64, .f32⟩ : BufTy).Contents (Elt F) → (⟨S1600000x64, .f32⟩ : BufTy).Contents (Elt F) → (⟨S1600000x64, .f32⟩ : BufTy).Contents (Elt F)),
    StableHlo.nullary main_cst_5 (constant S_ .f32 0x00000000#32),
    StableHlo.unary main_cst_5 main_v47 (broadcastInDim S100000x64 ![] bcast_S_S100000x64 : (⟨S_, .f32⟩ : BufTy).Contents (Elt F) → (⟨S100000x64, .f32⟩ : BufTy).Contents (Elt F)),
    StableHlo.unary main_arg7 main_v48 (broadcastInDim S1600000x1 ![0] bcast_S1600000_S1600000x1_0 : (⟨S1600000, .i32⟩ : BufTy).Contents (Elt F) → (⟨S1600000x1, .i32⟩ : BufTy).Contents (Elt F)),
    StableHlo.ternary main_v47 main_v48 main_v46 main_v49 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v49 main_v31 main_v50 (subf : (⟨S100000x64, .f32⟩ : BufTy).Contents (Elt F) → (⟨S100000x64, .f32⟩ : BufTy).Contents (Elt F) → (⟨S100000x64, .f32⟩ : BufTy).Contents (Elt F)),
    StableHlo.unary main_arg2 main_v51 ((extractStridedSlice S1x64x64 ![1, 0, 0] · slices_S3x64x64_S1x64x64_1_0_0) : (⟨S3x64x64, .f32⟩ : BufTy).Contents (Elt F) → (⟨S1x64x64, .f32⟩ : BufTy).Contents (Elt F)) ]

/-- The operations of statements window 1 of @main, the outlined functions' operations listed at their call sites. -/
abbrev ops_part1 : List (HloOp τ sig (Elt F)) :=
  [ StableHlo.reshape main_v51 main_v52 rfl shapeCasts_S1x64x64_S64x64,
    StableHlo.binary main_v49 main_v52 main_v53 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v54 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v54 main_v55 rfl shapeCasts_S1x1x64_S1x64,
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v53 main_v56 main_v57 (addf : (⟨S100000x64, .f32⟩ : BufTy).Contents (Elt F) → (⟨S100000x64, .f32⟩ : BufTy).Contents (Elt F) → (⟨S100000x64, .f32⟩ : BufTy).Contents (Elt F)),
    StableHlo.binary main_v31 main_v50 main_v58 (mulf : (⟨S100000x64, .f32⟩ : BufTy).Contents (Elt F) → (⟨S100000x64, .f32⟩ : BufTy).Contents (Elt F) → (⟨S100000x64, .f32⟩ : BufTy).Contents (Elt F)),
    StableHlo.unary main_arg4 main_v59 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v59 main_v60 rfl shapeCasts_S1x64x64_S64x64,
    StableHlo.binary main_v58 main_v60 main_v61 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v62 ((extractStridedSlice S1x1x64 ![1, 0, 0] · slices_S3x1x64_S1x1x64_1_0_0) : (⟨S3x1x64, .f32⟩ : BufTy).Contents (Elt F) → (⟨S1x1x64, .f32⟩ : BufTy).Contents (Elt F)),
    StableHlo.reshape main_v62 main_v63 rfl shapeCasts_S1x1x64_S1x64,
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v64 main_v65 (addf : (⟨S100000x64, .f32⟩ : BufTy).Contents (Elt F) → (⟨S100000x64, .f32⟩ : BufTy).Contents (Elt F) → (⟨S100000x64, .f32⟩ : BufTy).Contents (Elt F)),
    StableHlo.binary main_v57 main_v65 main_v66 (addf : (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3C23D70A#32),
    StableHlo.nullary main_call2_cst (constant S_ .f32 0x00000000#32),
    StableHlo.unary main_call2_cst main_call2_v0 (broadcastInDim S100000x64 ![] bcast_S_S100000x64 : (⟨S_, .f32⟩ : BufTy).Contents (Elt F) → (⟨S100000x64, .f32⟩ : BufTy).Contents (Elt F)),
    StableHlo.binary main_v66 main_call2_v0 main_call2_v1 (cmpf .oge : (⟨S100000x64, .f32⟩ : BufTy).Contents (Elt F) → (⟨S100000x64, .f32⟩ : BufTy).Contents (Elt F) → (⟨S100000x64, .i1⟩ : BufTy).Contents (Elt F)),
    StableHlo.unary main_cst_6 main_call2_v2 (id : (⟨S_, .f32⟩ : BufTy).Contents (Elt F) → (⟨S_, .f32⟩ : BufTy).Contents (Elt F)),
    StableHlo.unary main_call2_v2 main_call2_v3 (broadcastInDim S100000x64 ![] bcast_S_S100000x64 : (⟨S_, .f32⟩ : BufTy).Contents (Elt F) → (⟨S100000x64, .f32⟩ : BufTy).Contents (Elt F)),
    StableHlo.binary main_call2_v3 main_v66 main_call2_v4 (mulf : (⟨S100000x64, .f32⟩ : BufTy).Contents (Elt F) → (⟨S100000x64, .f32⟩ : BufTy).Contents (Elt F) → (⟨S100000x64, .f32⟩ : BufTy).Contents (Elt F)),
    StableHlo.ternary main_call2_v1 main_v66 main_call2_v4 main_v67 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v67 main_v67 main_call3_v0 (mulf : (⟨S100000x64, .f32⟩ : BufTy).Contents (Elt F) → (⟨S100000x64, .f32⟩ : BufTy).Contents (Elt F) → (⟨S100000x64, .f32⟩ : BufTy).Contents (Elt F)),
    StableHlo.nullary main_call3_cst (constant S_ .f32 0x00000000#32),
    StableHlo.binary main_call3_v0 main_call3_cst main_call3_v1 (fun x v => Host.reduceAdd x v reducesTo_S100000x64_S100000_d1 h_S_ : (⟨S100000x64, .f32⟩ : BufTy).Contents (Elt F) → (⟨S_, .f32⟩ : BufTy).Contents (Elt F) → (⟨S100000, .f32⟩ : BufTy).Contents (Elt F)),
    StableHlo.unary main_call3_v1 main_call3_v2 (broadcastInDim S100000x1 ![0] bcast_S100000_S100000x1_0 : (⟨S100000, .f32⟩ : BufTy).Contents (Elt F) → (⟨S100000x1, .f32⟩ : BufTy).Contents (Elt F)),
    StableHlo.unary main_call3_v2 main_v68 (Host.sqrt : (⟨S100000x1, .f32⟩ : BufTy).Contents (Elt F) → (⟨S100000x1, .f32⟩ : BufTy).Contents (Elt F)),
    StableHlo.nullary main_cst_7 (constant S_ .f32 0x2B8CBCCC#32),
    StableHlo.unary main_cst_7 main_v69 (broadcastInDim S100000x1 ![] bcast_S_S100000x1 : (⟨S_, .f32⟩ : BufTy).Contents (Elt F) → (⟨S100000x1, .f32⟩ : BufTy).Contents (Elt F)),
    StableHlo.binary main_v68 main_v69 main_v70 (maximumf : (⟨S100000x1, .f32⟩ : BufTy).Contents (Elt F) → (⟨S100000x1, .f32⟩ : BufTy).Contents (Elt F) → (⟨S100000x1, .f32⟩ : BufTy).Contents (Elt F)),
    StableHlo.unary main_v70 main_v71 (broadcastInDim S100000x64 ![0, 1] bcast_S100000x1_S100000x64_0_1 : (⟨S100000x1, .f32⟩ : BufTy).Contents (Elt F) → (⟨S100000x64, .f32⟩ : BufTy).Contents (Elt F)),
    StableHlo.binary main_v67 main_v71 main_v72 (Host.divf : (⟨S100000x64, .f32⟩ : BufTy).Contents (Elt F) → (⟨S100000x64, .f32⟩ : BufTy).Contents (Elt F) → (⟨S100000x64, .f32⟩ : BufTy).Contents (Elt F)),
    StableHlo.unary main_arg6 main_v73 (broadcastInDim S1600000x1 ![0] bcast_S1600000_S1600000x1_0 : (⟨S1600000, .f32⟩ : BufTy).Contents (Elt F) → (⟨S1600000x1, .f32⟩ : BufTy).Contents (Elt F)),
    StableHlo.nullary main_c_8 (constantI S_ 32 0#32),
    StableHlo.unary main_c_8 main_v74 (broadcastInDim S1600000 ![] bcast_S_S1600000 : (⟨S_, .i32⟩ : BufTy).Contents (Elt F) → (⟨S1600000, .i32⟩ : BufTy).Contents (Elt F)),
    StableHlo.binary main_arg8 main_v74 main_v75 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v76 (broadcastInDim S1600000 ![] bcast_S_S1600000 : (⟨S_, .i32⟩ : BufTy).Contents (Elt F) → (⟨S1600000, .i32⟩ : BufTy).Contents (Elt F)),
    StableHlo.binary main_arg8 main_v76 main_v77 (addi : (⟨S1600000, .i32⟩ : BufTy).Contents (Elt F) → (⟨S1600000, .i32⟩ : BufTy).Contents (Elt F) → (⟨S1600000, .i32⟩ : BufTy).Contents (Elt F)),
    StableHlo.ternary main_v75 main_v77 main_arg8 main_v78 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v78 main_v79 (broadcastInDim S1600000x1 ![0] bcast_S1600000_S1600000x1_0 : (⟨S1600000, .i32⟩ : BufTy).Contents (Elt F) → (⟨S1600000x1, .i32⟩ : BufTy).Contents (Elt F)),
    StableHlo.binary main_v67 main_v79 main_v80 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v73 main_v81 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v81 main_v80 main_v82 (mulf : (⟨S1600000x64, .f32⟩ : BufTy).Contents (Elt F) → (⟨S1600000x64, .f32⟩ : BufTy).Contents (Elt F) → (⟨S1600000x64, .f32⟩ : BufTy).Contents (Elt F)),
    StableHlo.nullary main_cst_10 (constant S_ .f32 0x00000000#32),
    StableHlo.unary main_cst_10 main_v83 (broadcastInDim S100000x64 ![] bcast_S_S100000x64 : (⟨S_, .f32⟩ : BufTy).Contents (Elt F) → (⟨S100000x64, .f32⟩ : BufTy).Contents (Elt F)),
    StableHlo.unary main_arg7 main_v84 (broadcastInDim S1600000x1 ![0] bcast_S1600000_S1600000x1_0 : (⟨S1600000, .i32⟩ : BufTy).Contents (Elt F) → (⟨S1600000x1, .i32⟩ : BufTy).Contents (Elt F)),
    StableHlo.ternary main_v83 main_v84 main_v82 main_v85 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v85 main_v67 main_v86 (subf : (⟨S100000x64, .f32⟩ : BufTy).Contents (Elt F) → (⟨S100000x64, .f32⟩ : BufTy).Contents (Elt F) → (⟨S100000x64, .f32⟩ : BufTy).Contents (Elt F)),
    StableHlo.unary main_arg2 main_v87 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v87 main_v88 rfl shapeCasts_S1x64x64_S64x64,
    StableHlo.binary main_v85 main_v88 main_v89 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v90 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v90 main_v91 rfl shapeCasts_S1x1x64_S1x64,
    StableHlo.unary main_v91 main_v92 (broadcastInDim S100000x64 ![0, 1] bcast_S1x64_S100000x64_0_1 : (⟨S1x64, .f32⟩ : BufTy).Contents (Elt F) → (⟨S100000x64, .f32⟩ : BufTy).Contents (Elt F)),
    StableHlo.binary main_v89 main_v92 main_v93 (addf : (⟨S100000x64, .f32⟩ : BufTy).Contents (Elt F) → (⟨S100000x64, .f32⟩ : BufTy).Contents (Elt F) → (⟨S100000x64, .f32⟩ : BufTy).Contents (Elt F)),
    StableHlo.binary main_v67 main_v86 main_v94 (mulf : (⟨S100000x64, .f32⟩ : BufTy).Contents (Elt F) → (⟨S100000x64, .f32⟩ : BufTy).Contents (Elt F) → (⟨S100000x64, .f32⟩ : BufTy).Contents (Elt F)),
    StableHlo.unary main_arg4 main_v95 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v95 main_v96 rfl shapeCasts_S1x64x64_S64x64,
    StableHlo.binary main_v94 main_v96 main_v97 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v98 ((extractStridedSlice S1x1x64 ![2, 0, 0] · slices_S3x1x64_S1x1x64_2_0_0) : (⟨S3x1x64, .f32⟩ : BufTy).Contents (Elt F) → (⟨S1x1x64, .f32⟩ : BufTy).Contents (Elt F)),
    StableHlo.reshape main_v98 main_v99 rfl shapeCasts_S1x1x64_S1x64,
    StableHlo.unary main_v99 main_v100 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v100 main_v101 (addf : (⟨S100000x64, .f32⟩ : BufTy).Contents (Elt F) → (⟨S100000x64, .f32⟩ : BufTy).Contents (Elt F) → (⟨S100000x64, .f32⟩ : BufTy).Contents (Elt F)),
    StableHlo.binary main_v93 main_v101 main_v102 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3C23D70A#32),
    StableHlo.nullary main_call4_cst (constant S_ .f32 0x00000000#32),
    StableHlo.unary main_call4_cst main_call4_v0 (broadcastInDim S100000x64 ![] bcast_S_S100000x64 : (⟨S_, .f32⟩ : BufTy).Contents (Elt F) → (⟨S100000x64, .f32⟩ : BufTy).Contents (Elt F)),
    StableHlo.binary main_v102 main_call4_v0 main_call4_v1 (cmpf .oge : (⟨S100000x64, .f32⟩ : BufTy).Contents (Elt F) → (⟨S100000x64, .f32⟩ : BufTy).Contents (Elt F) → (⟨S100000x64, .i1⟩ : BufTy).Contents (Elt F)),
    StableHlo.unary main_cst_11 main_call4_v2 (id : (⟨S_, .f32⟩ : BufTy).Contents (Elt F) → (⟨S_, .f32⟩ : BufTy).Contents (Elt F)),
    StableHlo.unary main_call4_v2 main_call4_v3 (broadcastInDim S100000x64 ![] bcast_S_S100000x64 : (⟨S_, .f32⟩ : BufTy).Contents (Elt F) → (⟨S100000x64, .f32⟩ : BufTy).Contents (Elt F)),
    StableHlo.binary main_call4_v3 main_v102 main_call4_v4 (mulf : (⟨S100000x64, .f32⟩ : BufTy).Contents (Elt F) → (⟨S100000x64, .f32⟩ : BufTy).Contents (Elt F) → (⟨S100000x64, .f32⟩ : BufTy).Contents (Elt F)),
    StableHlo.ternary main_call4_v1 main_v102 main_call4_v4 main_v103 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.binary main_v103 main_v103 main_call5_v0 (mulf : (⟨S100000x64, .f32⟩ : BufTy).Contents (Elt F) → (⟨S100000x64, .f32⟩ : BufTy).Contents (Elt F) → (⟨S100000x64, .f32⟩ : BufTy).Contents (Elt F)),
    StableHlo.nullary main_call5_cst (constant S_ .f32 0x00000000#32),
    StableHlo.binary main_call5_v0 main_call5_cst main_call5_v1 (fun x v => Host.reduceAdd x v reducesTo_S100000x64_S100000_d1 h_S_ : (⟨S100000x64, .f32⟩ : BufTy).Contents (Elt F) → (⟨S_, .f32⟩ : BufTy).Contents (Elt F) → (⟨S100000, .f32⟩ : BufTy).Contents (Elt F)),
    StableHlo.unary main_call5_v1 main_call5_v2 (broadcastInDim S100000x1 ![0] bcast_S100000_S100000x1_0 : (⟨S100000, .f32⟩ : BufTy).Contents (Elt F) → (⟨S100000x1, .f32⟩ : BufTy).Contents (Elt F)),
    StableHlo.unary main_call5_v2 main_v104 (Host.sqrt : (⟨S100000x1, .f32⟩ : BufTy).Contents (Elt F) → (⟨S100000x1, .f32⟩ : BufTy).Contents (Elt F)),
    StableHlo.nullary main_cst_12 (constant S_ .f32 0x2B8CBCCC#32) ]

/-- The operations of statements window 2 of @main, the outlined functions' operations listed at their call sites. -/
abbrev ops_part2 : List (HloOp τ sig (Elt F)) :=
  [ StableHlo.unary main_cst_12 main_v105 (broadcastInDim S100000x1 ![] bcast_S_S100000x1 : (⟨S_, .f32⟩ : BufTy).Contents (Elt F) → (⟨S100000x1, .f32⟩ : BufTy).Contents (Elt F)),
    StableHlo.binary main_v104 main_v105 main_v106 (maximumf : (⟨S100000x1, .f32⟩ : BufTy).Contents (Elt F) → (⟨S100000x1, .f32⟩ : BufTy).Contents (Elt F) → (⟨S100000x1, .f32⟩ : BufTy).Contents (Elt F)),
    StableHlo.unary main_v106 main_v107 (broadcastInDim S100000x64 ![0, 1] bcast_S100000x1_S100000x64_0_1 : (⟨S100000x1, .f32⟩ : BufTy).Contents (Elt F) → (⟨S100000x64, .f32⟩ : BufTy).Contents (Elt F)),
    StableHlo.binary main_v103 main_v107 main_v108 (Host.divf : (⟨S100000x64, .f32⟩ : BufTy).Contents (Elt F) → (⟨S100000x64, .f32⟩ : BufTy).Contents (Elt F) → (⟨S100000x64, .f32⟩ : BufTy).Contents (Elt F)),
    StableHlo.nary ![main_v0, main_v36, main_v72, main_v108] main_v109 (fun u => fn_main_v109 (F := F) (u 0) (u 1) (u 2) (u 3)),
    StableHlo.unary main_v109 main_v110 ((extractStridedSlice S50000x256 ![0, 0] · slices_S100000x256_S50000x256_0_0) : (⟨S100000x256, .f32⟩ : BufTy).Contents (Elt F) → (⟨S50000x256, .f32⟩ : BufTy).Contents (Elt F)),
    StableHlo.unary main_v109 main_v111 ((extractStridedSlice S50000x256 ![50000, 0] · slices_S100000x256_S50000x256_50000_0) : (⟨S100000x256, .f32⟩ : BufTy).Contents (Elt F) → (⟨S50000x256, .f32⟩ : BufTy).Contents (Elt F)),
    StableHlo.nullary main_c_13 (constantI S_ 32 0#32),
    StableHlo.unary main_c_13 main_v112 (broadcastInDim S4096 ![] bcast_S_S4096 : (⟨S_, .i32⟩ : BufTy).Contents (Elt F) → (⟨S4096, .i32⟩ : BufTy).Contents (Elt F)),
    StableHlo.binary main_arg9 main_v112 main_v113 (cmpi .slt : (⟨S4096, .i32⟩ : BufTy).Contents (Elt F) → (⟨S4096, .i32⟩ : BufTy).Contents (Elt F) → (⟨S4096, .i1⟩ : BufTy).Contents (Elt F)),
    StableHlo.nullary main_c_14 (constantI S_ 32 50000#32),
    StableHlo.unary main_c_14 main_v114 (broadcastInDim S4096 ![] bcast_S_S4096 : (⟨S_, .i32⟩ : BufTy).Contents (Elt F) → (⟨S4096, .i32⟩ : BufTy).Contents (Elt F)),
    StableHlo.binary main_arg9 main_v114 main_v115 (addi : (⟨S4096, .i32⟩ : BufTy).Contents (Elt F) → (⟨S4096, .i32⟩ : BufTy).Contents (Elt F) → (⟨S4096, .i32⟩ : BufTy).Contents (Elt F)),
    StableHlo.ternary main_v113 main_v115 main_arg9 main_v116 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v116 main_v117 (broadcastInDim S4096x1 ![0] bcast_S4096_S4096x1_0 : (⟨S4096, .i32⟩ : BufTy).Contents (Elt F) → (⟨S4096x1, .i32⟩ : BufTy).Contents (Elt F)),
    StableHlo.binary main_v110 main_v117 main_v118 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.nullary main_c_15 (constantI S_ 32 0#32),
    StableHlo.unary main_c_15 main_v119 (broadcastInDim S4096 ![] bcast_S_S4096 : (⟨S_, .i32⟩ : BufTy).Contents (Elt F) → (⟨S4096, .i32⟩ : BufTy).Contents (Elt F)),
    StableHlo.binary main_arg10 main_v119 main_v120 (cmpi .slt : (⟨S4096, .i32⟩ : BufTy).Contents (Elt F) → (⟨S4096, .i32⟩ : BufTy).Contents (Elt F) → (⟨S4096, .i1⟩ : BufTy).Contents (Elt F)),
    StableHlo.nullary main_c_16 (constantI S_ 32 50000#32),
    StableHlo.unary main_c_16 main_v121 (broadcastInDim S4096 ![] bcast_S_S4096 : (⟨S_, .i32⟩ : BufTy).Contents (Elt F) → (⟨S4096, .i32⟩ : BufTy).Contents (Elt F)),
    StableHlo.binary main_arg10 main_v121 main_v122 (addi : (⟨S4096, .i32⟩ : BufTy).Contents (Elt F) → (⟨S4096, .i32⟩ : BufTy).Contents (Elt F) → (⟨S4096, .i32⟩ : BufTy).Contents (Elt F)),
    StableHlo.ternary main_v120 main_v122 main_arg10 main_v123 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v123 main_v124 (broadcastInDim S4096x1 ![0] bcast_S4096_S4096x1_0 : (⟨S4096, .i32⟩ : BufTy).Contents (Elt F) → (⟨S4096x1, .i32⟩ : BufTy).Contents (Elt F)),
    StableHlo.binary main_v111 main_v124 main_v125 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.nullary main_c_17 (constantI S_ 32 0#32),
    StableHlo.unary main_c_17 main_v126 (broadcastInDim S4096 ![] bcast_S_S4096 : (⟨S_, .i32⟩ : BufTy).Contents (Elt F) → (⟨S4096, .i32⟩ : BufTy).Contents (Elt F)),
    StableHlo.binary main_arg11 main_v126 main_v127 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 50000#32),
    StableHlo.unary main_c_18 main_v128 (broadcastInDim S4096 ![] bcast_S_S4096 : (⟨S_, .i32⟩ : BufTy).Contents (Elt F) → (⟨S4096, .i32⟩ : BufTy).Contents (Elt F)),
    StableHlo.binary main_arg11 main_v128 main_v129 (addi : (⟨S4096, .i32⟩ : BufTy).Contents (Elt F) → (⟨S4096, .i32⟩ : BufTy).Contents (Elt F) → (⟨S4096, .i32⟩ : BufTy).Contents (Elt F)),
    StableHlo.ternary main_v127 main_v129 main_arg11 main_v130 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v130 main_v131 (broadcastInDim S4096x1 ![0] bcast_S4096_S4096x1_0 : (⟨S4096, .i32⟩ : BufTy).Contents (Elt F) → (⟨S4096x1, .i32⟩ : BufTy).Contents (Elt F)),
    StableHlo.binary main_v111 main_v131 main_v132 ((fun x i => Host.gather gather_S50000x256_S4096x1_S4096x256_1_0_n_n_0_1_1256 x i) : (⟨S50000x256, .f32⟩ : BufTy).Contents (Elt F) → (⟨S4096x1, .i32⟩ : BufTy).Contents (Elt F) → (⟨S4096x256, .f32⟩ : BufTy).Contents (Elt F)),
    StableHlo.binary main_v118 main_v125 main_v133 (mulf : (⟨S4096x256, .f32⟩ : BufTy).Contents (Elt F) → (⟨S4096x256, .f32⟩ : BufTy).Contents (Elt F) → (⟨S4096x256, .f32⟩ : BufTy).Contents (Elt F)),
    StableHlo.nullary main_cst_19 (constant S_ .f32 0x00000000#32),
    StableHlo.binary main_v133 main_cst_19 main_v134 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.binary main_v118 main_v132 main_v135 (mulf : (⟨S4096x256, .f32⟩ : BufTy).Contents (Elt F) → (⟨S4096x256, .f32⟩ : BufTy).Contents (Elt F) → (⟨S4096x256, .f32⟩ : BufTy).Contents (Elt F)),
    StableHlo.nullary main_cst_20 (constant S_ .f32 0x00000000#32),
    StableHlo.binary main_v135 main_cst_20 main_v136 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.binary main_v134 main_v136 main_v137 (subf : (⟨S4096, .f32⟩ : BufTy).Contents (Elt F) → (⟨S4096, .f32⟩ : BufTy).Contents (Elt F) → (⟨S4096, .f32⟩ : BufTy).Contents (Elt F)),
    StableHlo.unary main_v137 main_call6_v0 (Host.negf : (⟨S4096, .f32⟩ : BufTy).Contents (Elt F) → (⟨S4096, .f32⟩ : BufTy).Contents (Elt F)),
    StableHlo.nullary main_call6_call0_cst (constant S_ .f32 0x00000000#32),
    StableHlo.unary main_call6_call0_cst main_call6_call0_v0 (broadcastInDim S4096 ![] bcast_S_S4096 : (⟨S_, .f32⟩ : BufTy).Contents (Elt F) → (⟨S4096, .f32⟩ : BufTy).Contents (Elt F)),
    StableHlo.binary main_call6_v0 main_call6_call0_v0 main_call6_call0_v1 (maximumf : (⟨S4096, .f32⟩ : BufTy).Contents (Elt F) → (⟨S4096, .f32⟩ : BufTy).Contents (Elt F) → (⟨S4096, .f32⟩ : BufTy).Contents (Elt F)),
    StableHlo.unary main_call6_call0_cst main_call6_call0_v2 (broadcastInDim S4096 ![] bcast_S_S4096 : (⟨S_, .f32⟩ : BufTy).Contents (Elt F) → (⟨S4096, .f32⟩ : BufTy).Contents (Elt F)),
    StableHlo.binary main_call6_v0 main_call6_call0_v2 main_call6_call0_v3 (subf : (⟨S4096, .f32⟩ : BufTy).Contents (Elt F) → (⟨S4096, .f32⟩ : BufTy).Contents (Elt F) → (⟨S4096, .f32⟩ : BufTy).Contents (Elt F)),
    StableHlo.binary main_call6_call0_v3 main_call6_call0_v3 main_call6_call0_v4 (cmpf .une : (⟨S4096, .f32⟩ : BufTy).Contents (Elt F) → (⟨S4096, .f32⟩ : BufTy).Contents (Elt F) → (⟨S4096, .i1⟩ : BufTy).Contents (Elt F)),
    StableHlo.unary main_call6_call0_cst main_call6_call0_v5 (broadcastInDim S4096 ![] bcast_S_S4096 : (⟨S_, .f32⟩ : BufTy).Contents (Elt F) → (⟨S4096, .f32⟩ : BufTy).Contents (Elt F)),
    StableHlo.binary main_call6_v0 main_call6_call0_v5 main_call6_call0_v6 (addf : (⟨S4096, .f32⟩ : BufTy).Contents (Elt F) → (⟨S4096, .f32⟩ : BufTy).Contents (Elt F) → (⟨S4096, .f32⟩ : BufTy).Contents (Elt F)),
    StableHlo.unary main_call6_call0_v3 main_call6_call0_v7 (Host.absf : (⟨S4096, .f32⟩ : BufTy).Contents (Elt F) → (⟨S4096, .f32⟩ : BufTy).Contents (Elt F)),
    StableHlo.unary main_call6_call0_v7 main_call6_call0_v8 (Host.negf : (⟨S4096, .f32⟩ : BufTy).Contents (Elt F) → (⟨S4096, .f32⟩ : BufTy).Contents (Elt F)),
    StableHlo.unary main_call6_call0_v8 main_call6_call0_v9 (Host.exp : (⟨S4096, .f32⟩ : BufTy).Contents (Elt F) → (⟨S4096, .f32⟩ : BufTy).Contents (Elt F)),
    StableHlo.unary main_call6_call0_v9 main_call6_call0_v10 (Host.log1p : (⟨S4096, .f32⟩ : BufTy).Contents (Elt F) → (⟨S4096, .f32⟩ : BufTy).Contents (Elt F)),
    StableHlo.binary main_call6_call0_v1 main_call6_call0_v10 main_call6_call0_v11 (addf : (⟨S4096, .f32⟩ : BufTy).Contents (Elt F) → (⟨S4096, .f32⟩ : BufTy).Contents (Elt F) → (⟨S4096, .f32⟩ : BufTy).Contents (Elt F)),
    StableHlo.ternary main_call6_call0_v4 main_call6_call0_v6 main_call6_call0_v11 main_call6_v1 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    StableHlo.unary main_call6_v1 main_v138 (Host.negf : (⟨S4096, .f32⟩ : BufTy).Contents (Elt F) → (⟨S4096, .f32⟩ : BufTy).Contents (Elt F)),
    StableHlo.nullary main_cst_21 (constant S_ .f32 0x00000000#32),
    StableHlo.binary main_v138 main_cst_21 main_v139 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_22 (constant S_ .f32 0x45800000#32),
    StableHlo.binary main_v139 main_cst_22 main_v140 (Host.divf : (⟨S_, .f32⟩ : BufTy).Contents (Elt F) → (⟨S_, .f32⟩ : BufTy).Contents (Elt F) → (⟨S_, .f32⟩ : BufTy).Contents (Elt F)),
    StableHlo.unary main_v140 main_v141 (Host.negf : (⟨S_, .f32⟩ : BufTy).Contents (Elt F) → (⟨S_, .f32⟩ : BufTy).Contents (Elt F)),
    StableHlo.binary main_v118 main_v118 main_v142 (mulf : (⟨S4096x256, .f32⟩ : BufTy).Contents (Elt F) → (⟨S4096x256, .f32⟩ : BufTy).Contents (Elt F) → (⟨S4096x256, .f32⟩ : BufTy).Contents (Elt F)),
    StableHlo.nullary main_cst_23 (constant S_ .f32 0x00000000#32),
    StableHlo.binary main_v142 main_cst_23 main_v143 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.nullary main_cst_24 (constant S_ .f32 0x40000000#32),
    StableHlo.binary main_v143 main_cst_24 main_v144 (Host.divf : (⟨S_, .f32⟩ : BufTy).Contents (Elt F) → (⟨S_, .f32⟩ : BufTy).Contents (Elt F) → (⟨S_, .f32⟩ : BufTy).Contents (Elt F)),
    StableHlo.binary main_v125 main_v125 main_v145 (mulf : (⟨S4096x256, .f32⟩ : BufTy).Contents (Elt F) → (⟨S4096x256, .f32⟩ : BufTy).Contents (Elt F) → (⟨S4096x256, .f32⟩ : BufTy).Contents (Elt F)),
    StableHlo.nullary main_cst_25 (constant S_ .f32 0x00000000#32),
    StableHlo.binary main_v145 main_cst_25 main_v146 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.nullary main_cst_26 (constant S_ .f32 0x40000000#32),
    StableHlo.binary main_v146 main_cst_26 main_v147 (Host.divf : (⟨S_, .f32⟩ : BufTy).Contents (Elt F) → (⟨S_, .f32⟩ : BufTy).Contents (Elt F) → (⟨S_, .f32⟩ : BufTy).Contents (Elt F)),
    StableHlo.binary main_v144 main_v147 main_v148 (addf : (⟨S_, .f32⟩ : BufTy).Contents (Elt F) → (⟨S_, .f32⟩ : BufTy).Contents (Elt F) → (⟨S_, .f32⟩ : BufTy).Contents (Elt F)),
    StableHlo.binary main_v132 main_v132 main_v149 (mulf : (⟨S4096x256, .f32⟩ : BufTy).Contents (Elt F) → (⟨S4096x256, .f32⟩ : BufTy).Contents (Elt F) → (⟨S4096x256, .f32⟩ : BufTy).Contents (Elt F)),
    StableHlo.nullary main_cst_27 (constant S_ .f32 0x00000000#32) ]

/-- The operations of statements window 3 of @main, the outlined functions' operations listed at their call sites. -/
abbrev ops_part3 : List (HloOp τ sig (Elt F)) :=
  [ StableHlo.binary main_v149 main_cst_27 main_v150 ((fun x v => Host.reduceAdd x v reducesTo_S4096x256_S_d0_1 h_S_) : (⟨S4096x256, .f32⟩ : BufTy).Contents (Elt F) → (⟨S_, .f32⟩ : BufTy).Contents (Elt F) → (⟨S_, .f32⟩ : BufTy).Contents (Elt F)),
    StableHlo.nullary main_cst_28 (constant S_ .f32 0x40000000#32),
    StableHlo.binary main_v150 main_cst_28 main_v151 (Host.divf : (⟨S_, .f32⟩ : BufTy).Contents (Elt F) → (⟨S_, .f32⟩ : BufTy).Contents (Elt F) → (⟨S_, .f32⟩ : BufTy).Contents (Elt F)),
    StableHlo.binary main_v148 main_v151 main_v152 (addf : (⟨S_, .f32⟩ : BufTy).Contents (Elt F) → (⟨S_, .f32⟩ : BufTy).Contents (Elt F) → (⟨S_, .f32⟩ : BufTy).Contents (Elt F)),
    StableHlo.nullary main_cst_29 (constant S_ .f32 0x45800000#32),
    StableHlo.binary main_v152 main_cst_29 main_v153 (Host.divf : (⟨S_, .f32⟩ : BufTy).Contents (Elt F) → (⟨S_, .f32⟩ : BufTy).Contents (Elt F) → (⟨S_, .f32⟩ : BufTy).Contents (Elt F)),
    StableHlo.nullary main_cst_30 (constant S_ .f32 0x3727C5AC#32),
    StableHlo.binary main_cst_30 main_v153 main_v154 (mulf : (⟨S_, .f32⟩ : BufTy).Contents (Elt F) → (⟨S_, .f32⟩ : BufTy).Contents (Elt F) → (⟨S_, .f32⟩ : BufTy).Contents (Elt F)),
    StableHlo.binary main_v141 main_v154 main_v155 (addf : (⟨S_, .f32⟩ : BufTy).Contents (Elt F) → (⟨S_, .f32⟩ : BufTy).Contents (Elt F) → (⟨S_, .f32⟩ : BufTy).Contents (Elt F)) ]

/-- All of @main's operations, in order. -/
abbrev ops : List (HloOp τ sig (Elt F)) :=
  ops_part0 ++ (ops_part1 ++ (ops_part2 ++ ops_part3))

-- each window: the callees' definitions unfolded at their calls, sequencing reassociated; both sides are then the
-- same chain of steps
set_option maxRecDepth 16384 in
set_option maxHeartbeats 4000000 in
theorem main_part0_eq (c : Dev nD) : main_part0 (F := F) c = seq ops_part0 := by
  simp only [main_part0, fn_leaky_relu.body, fn_where.body, fn_norm.body, seq, bind_assoc, pure_bind]
  rfl
set_option maxRecDepth 16384 in
set_option maxHeartbeats 4000000 in
theorem main_part1_eq (c : Dev nD) : main_part1 (F := F) c = seq ops_part1 := by
  simp only [main_part1, fn_leaky_relu.body, fn_where.body, fn_norm.body, seq, bind_assoc, pure_bind]
  rfl
set_option maxRecDepth 16384 in
set_option maxHeartbeats 4000000 in
theorem main_part2_eq (c : Dev nD) : main_part2 (F := F) c = seq ops_part2 := by
  simp only [main_part2, fn_log_sigmoid.body, fn_softplus.body, seq, bind_assoc, pure_bind]
  rfl
set_option maxRecDepth 16384 in
theorem main_part3_eq (c : Dev nD) : main_part3 (F := F) c = seq ops_part3 := rfl

set_option maxRecDepth 16384 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub ..⟩
set_option maxRecDepth 8192 in
theorem ops_part1_sub : (ops_part1 : List (HloOp τ sig (Elt F))).Forall fun op => op.bufs ⊆ tcRefs τ sig :=
  ⟨reshape_bufs_sub .., binary_bufs_sub .., unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., binary_bufs_sub .., binary_bufs_sub .., unary_bufs_sub .., reshape_bufs_sub .., binary_bufs_sub .., unary_bufs_sub .., reshape_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub ..⟩
set_option maxRecDepth 8192 in
theorem ops_part2_sub : (ops_part2 : List (HloOp τ sig (Elt F))).Forall fun op => op.bufs ⊆ tcRefs τ sig :=
  ⟨unary_bufs_sub .., binary_bufs_sub .., unary_bufs_sub .., binary_bufs_sub .., nary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., nullary_bufs_sub .., binary_bufs_sub .., unary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., binary_bufs_sub .., nullary_bufs_sub ..⟩
set_option maxRecDepth 8192 in
theorem ops_part3_sub : (ops_part3 : List (HloOp τ sig (Elt F))).Forall fun op => op.bufs ⊆ tcRefs τ sig :=
  ⟨binary_bufs_sub .., nullary_bufs_sub .., binary_bufs_sub .., binary_bufs_sub .., nullary_bufs_sub .., binary_bufs_sub .., nullary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h,
      List.forall_iff_forall_mem.mp ops_part2_sub op h, List.forall_iff_forall_mem.mp ops_part3_sub op h]

end Cert.ReferenceIdeal.RefRun

end
-- ==== Proof.RefRun.Val1.lean ====
/-
  The reference's intermediate values, named, and the contents of the device's buffers after the first window of
  @main's operations.

  The named terms are the specification's functions applied to the argument buffers' launch contents:
  the stacked node features, the sparse product of a feature matrix, and the three layers' activations.  After the
  first window (the first layer, and the second layer's sparse product) the buffers later windows read hold: the
  node features, the first activation and its row-normalised form, the second sparse product and its
  difference with the first activation, and the second slice of the first weight stack.
-/
import proofs.«117729_j22703197127156_1_alg».proof.Proof.RefRun.Ops
import proofs.«117729_j22703197127156_1_alg».proof.Proof.Spec

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- A device's buffer contents over the extended reals. -/
abbrev Vl : Type := Valuation τ sig (Elt Ideal)

/-- The node features: the two embedding tables stacked. -/
def x0 (V : Vl) : Cert.Spec.Nodes := Cert.Spec.ego0 (V (Proc.devRef .tc main_arg0)) (V (Proc.devRef .tc main_arg1))
/-- The sparse product A·x over the edge list in the arguments. -/
def sd (V : Vl) (x : Cert.Spec.Nodes) : Cert.Spec.Nodes := Cert.Spec.side (V (Proc.devRef .tc main_arg6)) (V (Proc.devRef .tc main_arg7)) (V (Proc.devRef .tc main_arg8)) x
/-- The first layer's activation. -/
def e1 (V : Vl) : Cert.Spec.Nodes :=
  Cert.Spec.layerE (x0 V) (sd V (x0 V)) (Cert.Spec.wSlice0 (V (Proc.devRef .tc main_arg2))) (Cert.Spec.bSlice0 (V (Proc.devRef .tc main_arg3))) (Cert.Spec.wSlice0 (V (Proc.devRef .tc main_arg4))) (Cert.Spec.bSlice0 (V (Proc.devRef .tc main_arg5)))
/-- The second layer's activation. -/
def e2 (V : Vl) : Cert.Spec.Nodes :=
  Cert.Spec.layerE (e1 V) (sd V (e1 V)) (Cert.Spec.wSlice1 (V (Proc.devRef .tc main_arg2))) (Cert.Spec.bSlice1 (V (Proc.devRef .tc main_arg3))) (Cert.Spec.wSlice1 (V (Proc.devRef .tc main_arg4))) (Cert.Spec.bSlice1 (V (Proc.devRef .tc main_arg5)))
/-- The third layer's activation. -/
def e3 (V : Vl) : Cert.Spec.Nodes :=
  Cert.Spec.layerE (e2 V) (sd V (e2 V)) (Cert.Spec.wSlice2 (V (Proc.devRef .tc main_arg2))) (Cert.Spec.bSlice2 (V (Proc.devRef .tc main_arg3))) (Cert.Spec.wSlice2 (V (Proc.devRef .tc main_arg4))) (Cert.Spec.bSlice2 (V (Proc.devRef .tc main_arg5)))
/-- The four embeddings side by side. -/
def catV (V : Vl) : FVec Ideal S100000x256 .f32 :=
  Cert.Spec.cat (x0 V) (Cert.Spec.layerN (e1 V)) (Cert.Spec.layerN (e2 V)) (Cert.Spec.layerN (e3 V))

/-- The specification's result is the loss tail of the concatenated embeddings. -/
theorem result_eq (V : Vl) :
    Cert.Spec.tail (catV V) (V (Proc.devRef .tc main_arg9)) (V (Proc.devRef .tc main_arg10)) (V (Proc.devRef .tc main_arg11))
      = Cert.Spec.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := rfl

/-- The device's buffer contents after @main's first window. -/
def val1 (V0 : Vl) : Vl := after ops_part0 V0

/-- The buffers that window 0's operations write. -/
abbrev ops_part0_W : List (Ref sig .tc) := [main_v0, main_v1, main_c, main_v2, main_v3, main_c_0, main_v4, main_v5, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_cst_1, main_call0_cst, main_call0_v0, main_call0_v1, main_call0_v2, main_call0_v3, main_call0_v4, main_v31, main_call1_v0, main_call1_cst, main_call1_v1, main_call1_v2, main_v32, main_cst_2, main_v33, main_v34, main_v35, main_v36, main_v37, main_c_3, main_v38, main_v39, main_c_4, main_v40, main_v41, main_v42, main_v43, main_v44, main_v45, main_v46, main_cst_5, main_v47, main_v48, main_v49, main_v50, main_v51]
set_option maxRecDepth 8192 in
set_option maxHeartbeats 4000000 in
theorem ops_part0_writes : (ops_part0 : List (HloOp τ sig (Elt Ideal))).Forall fun op => op.writes ⊆ (ops_part0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))
/-- A buffer the first window does not write keeps its contents through it. -/
theorem val1_keep (V0 : Vl) (r : Ref sig .tc) (h : r ∉ ops_part0_W) :
    val1 V0 (Proc.devRef .tc r) = V0 (Proc.devRef .tc r) :=
  after_of_writes_sub ops_part0 _ ops_part0_writes h
theorem val1_main_arg0 (V0 : Vl) : val1 V0 (no_index (Proc.devRef .tc main_arg0)) = V0 (Proc.devRef .tc main_arg0) :=
  val1_keep V0 main_arg0 (by decide)
theorem val1_main_arg1 (V0 : Vl) : val1 V0 (no_index (Proc.devRef .tc main_arg1)) = V0 (Proc.devRef .tc main_arg1) :=
  val1_keep V0 main_arg1 (by decide)
theorem val1_main_arg2 (V0 : Vl) : val1 V0 (no_index (Proc.devRef .tc main_arg2)) = V0 (Proc.devRef .tc main_arg2) :=
  val1_keep V0 main_arg2 (by decide)
theorem val1_main_arg3 (V0 : Vl) : val1 V0 (no_index (Proc.devRef .tc main_arg3)) = V0 (Proc.devRef .tc main_arg3) :=
  val1_keep V0 main_arg3 (by decide)
theorem val1_main_arg4 (V0 : Vl) : val1 V0 (no_index (Proc.devRef .tc main_arg4)) = V0 (Proc.devRef .tc main_arg4) :=
  val1_keep V0 main_arg4 (by decide)
theorem val1_main_arg5 (V0 : Vl) : val1 V0 (no_index (Proc.devRef .tc main_arg5)) = V0 (Proc.devRef .tc main_arg5) :=
  val1_keep V0 main_arg5 (by decide)
theorem val1_main_arg6 (V0 : Vl) : val1 V0 (no_index (Proc.devRef .tc main_arg6)) = V0 (Proc.devRef .tc main_arg6) :=
  val1_keep V0 main_arg6 (by decide)
theorem val1_main_arg7 (V0 : Vl) : val1 V0 (no_index (Proc.devRef .tc main_arg7)) = V0 (Proc.devRef .tc main_arg7) :=
  val1_keep V0 main_arg7 (by decide)
theorem val1_main_arg8 (V0 : Vl) : val1 V0 (no_index (Proc.devRef .tc main_arg8)) = V0 (Proc.devRef .tc main_arg8) :=
  val1_keep V0 main_arg8 (by decide)
theorem val1_main_arg9 (V0 : Vl) : val1 V0 (no_index (Proc.devRef .tc main_arg9)) = V0 (Proc.devRef .tc main_arg9) :=
  val1_keep V0 main_arg9 (by decide)
theorem val1_main_arg10 (V0 : Vl) : val1 V0 (no_index (Proc.devRef .tc main_arg10)) = V0 (Proc.devRef .tc main_arg10) :=
  val1_keep V0 main_arg10 (by decide)
theorem val1_main_arg11 (V0 : Vl) : val1 V0 (no_index (Proc.devRef .tc main_arg11)) = V0 (Proc.devRef .tc main_arg11) :=
  val1_keep V0 main_arg11 (by decide)

set_option maxRecDepth 16384 in
set_option maxHeartbeats 1000000 in
theorem val1_main_v0 (V0 : Vl) : val1 V0 (no_index (Proc.devRef .tc main_v0)) = x0 V0 := by
  unfold val1
  simp only [ops_part0]
  after_results_simp
  all_goals rfl

set_option maxRecDepth 16384 in
set_option maxHeartbeats 1000000 in
theorem val1_main_v31 (V0 : Vl) : val1 V0 (no_index (Proc.devRef .tc main_v31)) = e1 V0 := by
  unfold val1
  simp only [ops_part0]
  after_results_simp
  all_goals rfl

set_option maxRecDepth 16384 in
set_option maxHeartbeats 1000000 in
theorem val1_main_v36 (V0 : Vl) : val1 V0 (no_index (Proc.devRef .tc main_v36)) = Cert.Spec.layerN (e1 V0) := by
  unfold val1
  simp only [ops_part0]
  after_results_simp
  all_goals rfl

set_option maxRecDepth 16384 in
set_option maxHeartbeats 1000000 in
theorem val1_main_v49 (V0 : Vl) : val1 V0 (no_index (Proc.devRef .tc main_v49)) = sd V0 (e1 V0) := by
  unfold val1
  simp only [ops_part0]
  after_results_simp
  all_goals rfl

set_option maxRecDepth 16384 in
set_option maxHeartbeats 1000000 in
theorem val1_main_v50 (V0 : Vl) : val1 V0 (no_index (Proc.devRef .tc main_v50)) = subf (sd V0 (e1 V0)) (e1 V0) := by
  unfold val1
  simp only [ops_part0]
  after_results_simp
  all_goals rfl

set_option maxRecDepth 16384 in
set_option maxHeartbeats 1000000 in
theorem val1_main_v51 (V0 : Vl) : val1 V0 (no_index (Proc.devRef .tc main_v51)) = extractStridedSlice S1x64x64 ![1, 0, 0] (V0 (Proc.devRef .tc main_arg2)) slices_S3x64x64_S1x64x64_1_0_0 := by
  unfold val1
  simp only [ops_part0]
  after_results_simp
  all_goals rfl

end Cert.ReferenceIdeal.RefRun

end
-- ==== Proof.RefRun.Val2.lean ====
/-
  The contents of the device's buffers after the second window of @main's operations: the second and third
  layers' activations, the second one row-normalised, and the third one's row norms.
-/
import proofs.«117729_j22703197127156_1_alg».proof.Proof.RefRun.Val1

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The device's buffer contents after @main's first 2 windows. -/
def val2 (V0 : Vl) : Vl := after ops_part1 (val1 V0)

/-- The buffers that window 1's operations write. -/
abbrev ops_part1_W : List (Ref sig .tc) := [main_v52, main_v53, main_v54, main_v55, main_v56, main_v57, main_v58, main_v59, main_v60, main_v61, main_v62, main_v63, main_v64, main_v65, main_v66, main_cst_6, main_call2_cst, main_call2_v0, main_call2_v1, main_call2_v2, main_call2_v3, main_call2_v4, main_v67, main_call3_v0, main_call3_cst, main_call3_v1, main_call3_v2, main_v68, main_cst_7, main_v69, main_v70, main_v71, main_v72, main_v73, main_c_8, main_v74, main_v75, main_c_9, main_v76, main_v77, main_v78, main_v79, main_v80, main_v81, main_v82, main_cst_10, main_v83, main_v84, main_v85, main_v86, main_v87, main_v88, main_v89, main_v90, main_v91, main_v92, main_v93, main_v94, main_v95, main_v96, main_v97, main_v98, main_v99, main_v100, main_v101, main_v102, main_cst_11, main_call4_cst, main_call4_v0, main_call4_v1, main_call4_v2, main_call4_v3, main_call4_v4, main_v103, main_call5_v0, main_call5_cst, main_call5_v1, main_call5_v2, main_v104, main_cst_12]
set_option maxRecDepth 8192 in
set_option maxHeartbeats 4000000 in
theorem ops_part1_writes : (ops_part1 : List (HloOp τ sig (Elt Ideal))).Forall fun op => op.writes ⊆ (ops_part1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

/-- A buffer window 1 does not write keeps its contents through it. -/
theorem val2_keep (V0 : Vl) (r : Ref sig .tc) (h : r ∉ ops_part1_W) :
    val2 V0 (Proc.devRef .tc r) = val1 V0 (Proc.devRef .tc r) :=
  after_of_writes_sub ops_part1 _ ops_part1_writes h
theorem val2_main_arg0 (V0 : Vl) : val2 V0 (no_index (Proc.devRef .tc main_arg0)) = V0 (Proc.devRef .tc main_arg0) :=
  (val2_keep V0 main_arg0 (by decide)).trans (val1_main_arg0 V0)
theorem val2_main_arg1 (V0 : Vl) : val2 V0 (no_index (Proc.devRef .tc main_arg1)) = V0 (Proc.devRef .tc main_arg1) :=
  (val2_keep V0 main_arg1 (by decide)).trans (val1_main_arg1 V0)
theorem val2_main_arg2 (V0 : Vl) : val2 V0 (no_index (Proc.devRef .tc main_arg2)) = V0 (Proc.devRef .tc main_arg2) :=
  (val2_keep V0 main_arg2 (by decide)).trans (val1_main_arg2 V0)
theorem val2_main_arg3 (V0 : Vl) : val2 V0 (no_index (Proc.devRef .tc main_arg3)) = V0 (Proc.devRef .tc main_arg3) :=
  (val2_keep V0 main_arg3 (by decide)).trans (val1_main_arg3 V0)
theorem val2_main_arg4 (V0 : Vl) : val2 V0 (no_index (Proc.devRef .tc main_arg4)) = V0 (Proc.devRef .tc main_arg4) :=
  (val2_keep V0 main_arg4 (by decide)).trans (val1_main_arg4 V0)
theorem val2_main_arg5 (V0 : Vl) : val2 V0 (no_index (Proc.devRef .tc main_arg5)) = V0 (Proc.devRef .tc main_arg5) :=
  (val2_keep V0 main_arg5 (by decide)).trans (val1_main_arg5 V0)
theorem val2_main_arg6 (V0 : Vl) : val2 V0 (no_index (Proc.devRef .tc main_arg6)) = V0 (Proc.devRef .tc main_arg6) :=
  (val2_keep V0 main_arg6 (by decide)).trans (val1_main_arg6 V0)
theorem val2_main_arg7 (V0 : Vl) : val2 V0 (no_index (Proc.devRef .tc main_arg7)) = V0 (Proc.devRef .tc main_arg7) :=
  (val2_keep V0 main_arg7 (by decide)).trans (val1_main_arg7 V0)
theorem val2_main_arg8 (V0 : Vl) : val2 V0 (no_index (Proc.devRef .tc main_arg8)) = V0 (Proc.devRef .tc main_arg8) :=
  (val2_keep V0 main_arg8 (by decide)).trans (val1_main_arg8 V0)
theorem val2_main_arg9 (V0 : Vl) : val2 V0 (no_index (Proc.devRef .tc main_arg9)) = V0 (Proc.devRef .tc main_arg9) :=
  (val2_keep V0 main_arg9 (by decide)).trans (val1_main_arg9 V0)
theorem val2_main_arg10 (V0 : Vl) : val2 V0 (no_index (Proc.devRef .tc main_arg10)) = V0 (Proc.devRef .tc main_arg10) :=
  (val2_keep V0 main_arg10 (by decide)).trans (val1_main_arg10 V0)
theorem val2_main_arg11 (V0 : Vl) : val2 V0 (no_index (Proc.devRef .tc main_arg11)) = V0 (Proc.devRef .tc main_arg11) :=
  (val2_keep V0 main_arg11 (by decide)).trans (val1_main_arg11 V0)
theorem val2_main_v0 (V0 : Vl) : val2 V0 (no_index (Proc.devRef .tc main_v0)) = x0 V0 :=
  (val2_keep V0 main_v0 (by decide)).trans (val1_main_v0 V0)
theorem val2_main_v36 (V0 : Vl) : val2 V0 (no_index (Proc.devRef .tc main_v36)) = Cert.Spec.layerN (e1 V0) :=
  (val2_keep V0 main_v36 (by decide)).trans (val1_main_v36 V0)

set_option maxRecDepth 16384 in
set_option maxHeartbeats 1000000 in
theorem val2_main_v67 (V0 : Vl) : val2 V0 (no_index (Proc.devRef .tc main_v67)) = e2 V0 := by
  unfold val2
  simp only [ops_part1]
  after_results_simp
  all_goals (try simp only [val1_main_v0, val1_main_v31, val1_main_v36, val1_main_v49, val1_main_v50, val1_main_v51, val1_main_arg0, val1_main_arg1, val1_main_arg2, val1_main_arg3, val1_main_arg4, val1_main_arg5, val1_main_arg6, val1_main_arg7, val1_main_arg8, val1_main_arg9, val1_main_arg10, val1_main_arg11])
  all_goals rfl

set_option maxRecDepth 16384 in
set_option maxHeartbeats 1000000 in
theorem val2_main_v72 (V0 : Vl) : val2 V0 (no_index (Proc.devRef .tc main_v72)) = Cert.Spec.layerN (e2 V0) := by
  unfold val2
  simp only [ops_part1]
  after_results_simp
  all_goals (try simp only [val1_main_v0, val1_main_v31, val1_main_v36, val1_main_v49, val1_main_v50, val1_main_v51, val1_main_arg0, val1_main_arg1, val1_main_arg2, val1_main_arg3, val1_main_arg4, val1_main_arg5, val1_main_arg6, val1_main_arg7, val1_main_arg8, val1_main_arg9, val1_main_arg10, val1_main_arg11])
  all_goals rfl

set_option maxRecDepth 16384 in
set_option maxHeartbeats 1000000 in
theorem val2_main_v103 (V0 : Vl) : val2 V0 (no_index (Proc.devRef .tc main_v103)) = e3 V0 := by
  unfold val2
  simp only [ops_part1]
  after_results_simp
  all_goals (try simp only [val1_main_v0, val1_main_v31, val1_main_v36, val1_main_v49, val1_main_v50, val1_main_v51, val1_main_arg0, val1_main_arg1, val1_main_arg2, val1_main_arg3, val1_main_arg4, val1_main_arg5, val1_main_arg6, val1_main_arg7, val1_main_arg8, val1_main_arg9, val1_main_arg10, val1_main_arg11])
  all_goals rfl

set_option maxRecDepth 16384 in
set_option maxHeartbeats 1000000 in
theorem val2_main_v104 (V0 : Vl) : val2 V0 (no_index (Proc.devRef .tc main_v104)) = Host.sqrt (broadcastInDim S100000x1 ![0] bcast_S100000_S100000x1_0 (Host.reduceAdd (mulf (e3 V0) (e3 V0)) Cert.Spec.zeroS reducesTo_S100000x64_S100000_d1 h_S_)) := by
  unfold val2
  simp only [ops_part1]
  after_results_simp
  all_goals (try simp only [val1_main_v0, val1_main_v31, val1_main_v36, val1_main_v49, val1_main_v50, val1_main_v51, val1_main_arg0, val1_main_arg1, val1_main_arg2, val1_main_arg3, val1_main_arg4, val1_main_arg5, val1_main_arg6, val1_main_arg7, val1_main_arg8, val1_main_arg9, val1_main_arg10, val1_main_arg11])
  all_goals rfl

set_option maxRecDepth 16384 in
set_option maxHeartbeats 1000000 in
theorem val2_main_cst_12 (V0 : Vl) : val2 V0 (no_index (Proc.devRef .tc main_cst_12)) = constant (F := Ideal) S_ .f32 0x2B8CBCCC#32 := by
  unfold val2
  simp only [ops_part1]
  after_results_simp
  all_goals (try simp only [val1_main_v0, val1_main_v31, val1_main_v36, val1_main_v49, val1_main_v50, val1_main_v51, val1_main_arg0, val1_main_arg1, val1_main_arg2, val1_main_arg3, val1_main_arg4, val1_main_arg5, val1_main_arg6, val1_main_arg7, val1_main_arg8, val1_main_arg9, val1_main_arg10, val1_main_arg11])
  all_goals rfl

end Cert.ReferenceIdeal.RefRun

end
-- ==== Proof.RefRun.Val3.lean ====
/-
  The contents of the device's buffers after the third window of @main's operations: the third layer
  row-normalised, the four embeddings concatenated, the batch's rows gathered, the ranking term, and the first two of
  the three half squared norms.
-/
import proofs.«117729_j22703197127156_1_alg».proof.Proof.RefRun.Val2

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The user rows and the item rows of the concatenated embeddings. -/
def ugV (V : Vl) : FVec Ideal S50000x256 .f32 := extractStridedSlice S50000x256 ![0, 0] (catV V) slices_S100000x256_S50000x256_0_0
@[inherit_doc ugV]
def igV (V : Vl) : FVec Ideal S50000x256 .f32 := extractStridedSlice S50000x256 ![50000, 0] (catV V) slices_S100000x256_S50000x256_50000_0
/-- The rows gathered for the batch's users, positive items and negative items. -/
def ueV (V : Vl) : FVec Ideal S4096x256 .f32 := Host.gather gather_S50000x256_S4096x1_S4096x256_1_0_n_n_0_1_1256 (ugV V) (Cert.Spec.batchIdx (V (Proc.devRef .tc main_arg9)))
@[inherit_doc ueV]
def peV (V : Vl) : FVec Ideal S4096x256 .f32 := Host.gather gather_S50000x256_S4096x1_S4096x256_1_0_n_n_0_1_1256 (igV V) (Cert.Spec.batchIdx (V (Proc.devRef .tc main_arg10)))
@[inherit_doc ueV]
def neV (V : Vl) : FVec Ideal S4096x256 .f32 := Host.gather gather_S50000x256_S4096x1_S4096x256_1_0_n_n_0_1_1256 (igV V) (Cert.Spec.batchIdx (V (Proc.devRef .tc main_arg11)))
/-- The ranking term: minus the batch mean of the log-sigmoid of the score differences. -/
def bprV (V : Vl) : FVec Ideal S_ .f32 :=
  Host.negf (Host.divf (Host.reduceAdd (Cert.Spec.logSigmoid (subf
      (Host.reduceAdd (mulf (ueV V) (peV V)) Cert.Spec.zeroS reducesTo_S4096x256_S4096_d1 h_S_)
      (Host.reduceAdd (mulf (ueV V) (neV V)) Cert.Spec.zeroS reducesTo_S4096x256_S4096_d1 h_S_))) Cert.Spec.zeroS reducesTo_S4096_S_d0 h_S_)
    (constant (F := Ideal) S_ .f32 0x45800000#32))

/-- The loss tail of the concatenated embeddings, over the named terms. -/
theorem tail_eq (V : Vl) :
    Cert.Spec.tail (catV V) (V (Proc.devRef .tc main_arg9)) (V (Proc.devRef .tc main_arg10)) (V (Proc.devRef .tc main_arg11))
      = addf (bprV V) (mulf (constant (F := Ideal) S_ .f32 0x3727C5AC#32)
          (Host.divf (addf (addf (Cert.Spec.halfSq (ueV V)) (Cert.Spec.halfSq (peV V))) (Cert.Spec.halfSq (neV V)))
            (constant (F := Ideal) S_ .f32 0x45800000#32))) := rfl

/-- The device's buffer contents after @main's first 3 windows. -/
def val3 (V0 : Vl) : Vl := after ops_part2 (val2 V0)

/-- The buffers that window 2's operations write. -/
abbrev ops_part2_W : List (Ref sig .tc) := [main_v105, main_v106, main_v107, main_v108, main_v109, main_v110, main_v111, main_c_13, main_v112, main_v113, main_c_14, main_v114, main_v115, main_v116, main_v117, main_v118, main_c_15, main_v119, main_v120, main_c_16, main_v121, main_v122, main_v123, main_v124, main_v125, main_c_17, main_v126, main_v127, main_c_18, main_v128, main_v129, main_v130, main_v131, main_v132, main_v133, main_cst_19, main_v134, main_v135, main_cst_20, main_v136, main_v137, main_call6_v0, main_call6_call0_cst, main_call6_call0_v0, main_call6_call0_v1, main_call6_call0_v2, main_call6_call0_v3, main_call6_call0_v4, main_call6_call0_v5, main_call6_call0_v6, main_call6_call0_v7, main_call6_call0_v8, main_call6_call0_v9, main_call6_call0_v10, main_call6_call0_v11, main_call6_v1, main_v138, main_cst_21, main_v139, main_cst_22, main_v140, main_v141, main_v142, main_cst_23, main_v143, main_cst_24, main_v144, main_v145, main_cst_25, main_v146, main_cst_26, main_v147, main_v148, main_v149, main_cst_27]
set_option maxRecDepth 8192 in
set_option maxHeartbeats 4000000 in
theorem ops_part2_writes : (ops_part2 : List (HloOp τ sig (Elt Ideal))).Forall fun op => op.writes ⊆ (ops_part2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

/-- A buffer window 2 does not write keeps its contents through it. -/
theorem val3_keep (V0 : Vl) (r : Ref sig .tc) (h : r ∉ ops_part2_W) :
    val3 V0 (Proc.devRef .tc r) = val2 V0 (Proc.devRef .tc r) :=
  after_of_writes_sub ops_part2 _ ops_part2_writes h
theorem val3_main_arg0 (V0 : Vl) : val3 V0 (no_index (Proc.devRef .tc main_arg0)) = V0 (Proc.devRef .tc main_arg0) :=
  (val3_keep V0 main_arg0 (by decide)).trans (val2_main_arg0 V0)
theorem val3_main_arg1 (V0 : Vl) : val3 V0 (no_index (Proc.devRef .tc main_arg1)) = V0 (Proc.devRef .tc main_arg1) :=
  (val3_keep V0 main_arg1 (by decide)).trans (val2_main_arg1 V0)
theorem val3_main_arg2 (V0 : Vl) : val3 V0 (no_index (Proc.devRef .tc main_arg2)) = V0 (Proc.devRef .tc main_arg2) :=
  (val3_keep V0 main_arg2 (by decide)).trans (val2_main_arg2 V0)
theorem val3_main_arg3 (V0 : Vl) : val3 V0 (no_index (Proc.devRef .tc main_arg3)) = V0 (Proc.devRef .tc main_arg3) :=
  (val3_keep V0 main_arg3 (by decide)).trans (val2_main_arg3 V0)
theorem val3_main_arg4 (V0 : Vl) : val3 V0 (no_index (Proc.devRef .tc main_arg4)) = V0 (Proc.devRef .tc main_arg4) :=
  (val3_keep V0 main_arg4 (by decide)).trans (val2_main_arg4 V0)
theorem val3_main_arg5 (V0 : Vl) : val3 V0 (no_index (Proc.devRef .tc main_arg5)) = V0 (Proc.devRef .tc main_arg5) :=
  (val3_keep V0 main_arg5 (by decide)).trans (val2_main_arg5 V0)
theorem val3_main_arg6 (V0 : Vl) : val3 V0 (no_index (Proc.devRef .tc main_arg6)) = V0 (Proc.devRef .tc main_arg6) :=
  (val3_keep V0 main_arg6 (by decide)).trans (val2_main_arg6 V0)
theorem val3_main_arg7 (V0 : Vl) : val3 V0 (no_index (Proc.devRef .tc main_arg7)) = V0 (Proc.devRef .tc main_arg7) :=
  (val3_keep V0 main_arg7 (by decide)).trans (val2_main_arg7 V0)
theorem val3_main_arg8 (V0 : Vl) : val3 V0 (no_index (Proc.devRef .tc main_arg8)) = V0 (Proc.devRef .tc main_arg8) :=
  (val3_keep V0 main_arg8 (by decide)).trans (val2_main_arg8 V0)
theorem val3_main_arg9 (V0 : Vl) : val3 V0 (no_index (Proc.devRef .tc main_arg9)) = V0 (Proc.devRef .tc main_arg9) :=
  (val3_keep V0 main_arg9 (by decide)).trans (val2_main_arg9 V0)
theorem val3_main_arg10 (V0 : Vl) : val3 V0 (no_index (Proc.devRef .tc main_arg10)) = V0 (Proc.devRef .tc main_arg10) :=
  (val3_keep V0 main_arg10 (by decide)).trans (val2_main_arg10 V0)
theorem val3_main_arg11 (V0 : Vl) : val3 V0 (no_index (Proc.devRef .tc main_arg11)) = V0 (Proc.devRef .tc main_arg11) :=
  (val3_keep V0 main_arg11 (by decide)).trans (val2_main_arg11 V0)

set_option maxRecDepth 16384 in
set_option maxHeartbeats 1000000 in
theorem val3_main_v141 (V0 : Vl) : val3 V0 (no_index (Proc.devRef .tc main_v141)) = bprV V0 := by
  unfold val3
  simp only [ops_part2]
  after_results_simp
  try dsimp only [Matrix.cons_val]
  try after_results_simp
  all_goals (try simp only [val2_main_arg0, val2_main_arg1, val2_main_arg2, val2_main_arg3, val2_main_arg4, val2_main_arg5, val2_main_arg6, val2_main_arg7, val2_main_arg8, val2_main_arg9, val2_main_arg10, val2_main_arg11, val2_main_v0, val2_main_v36, val2_main_v67, val2_main_v72, val2_main_v103, val2_main_v104, val2_main_cst_12])
  all_goals rfl

set_option maxRecDepth 16384 in
set_option maxHeartbeats 1000000 in
theorem val3_main_v148 (V0 : Vl) : val3 V0 (no_index (Proc.devRef .tc main_v148)) = addf (Cert.Spec.halfSq (ueV V0)) (Cert.Spec.halfSq (peV V0)) := by
  unfold val3
  simp only [ops_part2]
  after_results_simp
  try dsimp only [Matrix.cons_val]
  try after_results_simp
  all_goals (try simp only [val2_main_arg0, val2_main_arg1, val2_main_arg2, val2_main_arg3, val2_main_arg4, val2_main_arg5, val2_main_arg6, val2_main_arg7, val2_main_arg8, val2_main_arg9, val2_main_arg10, val2_main_arg11, val2_main_v0, val2_main_v36, val2_main_v67, val2_main_v72, val2_main_v103, val2_main_v104, val2_main_cst_12])
  all_goals rfl

set_option maxRecDepth 16384 in
set_option maxHeartbeats 1000000 in
theorem val3_main_v149 (V0 : Vl) : val3 V0 (no_index (Proc.devRef .tc main_v149)) = mulf (neV V0) (neV V0) := by
  unfold val3
  simp only [ops_part2]
  after_results_simp
  try dsimp only [Matrix.cons_val]
  try after_results_simp
  all_goals (try simp only [val2_main_arg0, val2_main_arg1, val2_main_arg2, val2_main_arg3, val2_main_arg4, val2_main_arg5, val2_main_arg6, val2_main_arg7, val2_main_arg8, val2_main_arg9, val2_main_arg10, val2_main_arg11, val2_main_v0, val2_main_v36, val2_main_v67, val2_main_v72, val2_main_v103, val2_main_v104, val2_main_cst_12])
  all_goals rfl

set_option maxRecDepth 16384 in
set_option maxHeartbeats 1000000 in
theorem val3_main_cst_27 (V0 : Vl) : val3 V0 (no_index (Proc.devRef .tc main_cst_27)) = constant (F := Ideal) S_ .f32 0x00000000#32 := by
  unfold val3
  simp only [ops_part2]
  after_results_simp
  try dsimp only [Matrix.cons_val]
  try after_results_simp
  all_goals (try simp only [val2_main_arg0, val2_main_arg1, val2_main_arg2, val2_main_arg3, val2_main_arg4, val2_main_arg5, val2_main_arg6, val2_main_arg7, val2_main_arg8, val2_main_arg9, val2_main_arg10, val2_main_arg11, val2_main_v0, val2_main_v36, val2_main_v67, val2_main_v72, val2_main_v103, val2_main_v104, val2_main_cst_12])
  all_goals rfl

end Cert.ReferenceIdeal.RefRun

end
-- ==== Proof.RefRun.Val4.lean ====
/-
  The contents of the device's buffers after the last window of @main's operations: the result buffer holds the
  specification's result of the argument buffers, and the arguments are unchanged.
-/
import proofs.«117729_j22703197127156_1_alg».proof.Proof.RefRun.Val3
import Idealize.ShloMosaic.Lib.Pipeline.Frame

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

/-- The device's buffer contents after @main's first 4 windows. -/
def val4 (V0 : Vl) : Vl := after ops_part3 (val3 V0)

/-- The buffers that window 3's operations write. -/
abbrev ops_part3_W : List (Ref sig .tc) := [main_v150, main_cst_28, main_v151, main_v152, main_cst_29, main_v153, main_cst_30, main_v154, main_v155]
set_option maxRecDepth 8192 in
set_option maxHeartbeats 4000000 in
theorem ops_part3_writes : (ops_part3 : List (HloOp τ sig (Elt Ideal))).Forall fun op => op.writes ⊆ (ops_part3_W.map (Proc.devRef (τ := τ) .tc)).toFinset := by
  simp only [List.Forall]
  refine ⟨?_, ?_, ?_, ?_, ?_, ?_, ?_, ?_, ?_⟩ <;>
    (simp only [nullary_writes, unary_writes, binary_writes, ternary_writes, reshape_writes, nary_writes, Finset.singleton_subset_iff, List.mem_toFinset]
     exact List.mem_map_of_mem (by decide))

/-- A buffer window 3 does not write keeps its contents through it. -/
theorem val4_keep (V0 : Vl) (r : Ref sig .tc) (h : r ∉ ops_part3_W) :
    val4 V0 (Proc.devRef .tc r) = val3 V0 (Proc.devRef .tc r) :=
  after_of_writes_sub ops_part3 _ ops_part3_writes h
theorem val4_main_arg0 (V0 : Vl) : val4 V0 (no_index (Proc.devRef .tc main_arg0)) = V0 (Proc.devRef .tc main_arg0) :=
  (val4_keep V0 main_arg0 (by decide)).trans (val3_main_arg0 V0)
theorem val4_main_arg1 (V0 : Vl) : val4 V0 (no_index (Proc.devRef .tc main_arg1)) = V0 (Proc.devRef .tc main_arg1) :=
  (val4_keep V0 main_arg1 (by decide)).trans (val3_main_arg1 V0)
theorem val4_main_arg2 (V0 : Vl) : val4 V0 (no_index (Proc.devRef .tc main_arg2)) = V0 (Proc.devRef .tc main_arg2) :=
  (val4_keep V0 main_arg2 (by decide)).trans (val3_main_arg2 V0)
theorem val4_main_arg3 (V0 : Vl) : val4 V0 (no_index (Proc.devRef .tc main_arg3)) = V0 (Proc.devRef .tc main_arg3) :=
  (val4_keep V0 main_arg3 (by decide)).trans (val3_main_arg3 V0)
theorem val4_main_arg4 (V0 : Vl) : val4 V0 (no_index (Proc.devRef .tc main_arg4)) = V0 (Proc.devRef .tc main_arg4) :=
  (val4_keep V0 main_arg4 (by decide)).trans (val3_main_arg4 V0)
theorem val4_main_arg5 (V0 : Vl) : val4 V0 (no_index (Proc.devRef .tc main_arg5)) = V0 (Proc.devRef .tc main_arg5) :=
  (val4_keep V0 main_arg5 (by decide)).trans (val3_main_arg5 V0)
theorem val4_main_arg6 (V0 : Vl) : val4 V0 (no_index (Proc.devRef .tc main_arg6)) = V0 (Proc.devRef .tc main_arg6) :=
  (val4_keep V0 main_arg6 (by decide)).trans (val3_main_arg6 V0)
theorem val4_main_arg7 (V0 : Vl) : val4 V0 (no_index (Proc.devRef .tc main_arg7)) = V0 (Proc.devRef .tc main_arg7) :=
  (val4_keep V0 main_arg7 (by decide)).trans (val3_main_arg7 V0)
theorem val4_main_arg8 (V0 : Vl) : val4 V0 (no_index (Proc.devRef .tc main_arg8)) = V0 (Proc.devRef .tc main_arg8) :=
  (val4_keep V0 main_arg8 (by decide)).trans (val3_main_arg8 V0)
theorem val4_main_arg9 (V0 : Vl) : val4 V0 (no_index (Proc.devRef .tc main_arg9)) = V0 (Proc.devRef .tc main_arg9) :=
  (val4_keep V0 main_arg9 (by decide)).trans (val3_main_arg9 V0)
theorem val4_main_arg10 (V0 : Vl) : val4 V0 (no_index (Proc.devRef .tc main_arg10)) = V0 (Proc.devRef .tc main_arg10) :=
  (val4_keep V0 main_arg10 (by decide)).trans (val3_main_arg10 V0)
theorem val4_main_arg11 (V0 : Vl) : val4 V0 (no_index (Proc.devRef .tc main_arg11)) = V0 (Proc.devRef .tc main_arg11) :=
  (val4_keep V0 main_arg11 (by decide)).trans (val3_main_arg11 V0)

set_option maxRecDepth 16384 in
set_option maxHeartbeats 1000000 in
theorem val4_main_v155 (V0 : Vl) : val4 V0 (no_index (Proc.devRef .tc main_v155)) = addf (bprV V0) (mulf (constant (F := Ideal) S_ .f32 0x3727C5AC#32)
          (Host.divf (addf (addf (Cert.Spec.halfSq (ueV V0)) (Cert.Spec.halfSq (peV V0))) (Cert.Spec.halfSq (neV V0)))
            (constant (F := Ideal) S_ .f32 0x45800000#32))) := by
  unfold val4
  simp only [ops_part3]
  after_results_simp
  all_goals (try simp only [val3_main_arg0, val3_main_arg1, val3_main_arg2, val3_main_arg3, val3_main_arg4, val3_main_arg5, val3_main_arg6, val3_main_arg7, val3_main_arg8, val3_main_arg9, val3_main_arg10, val3_main_arg11, val3_main_v141, val3_main_v148, val3_main_v149, val3_main_cst_27])
  all_goals rfl

/-- The result buffer holds the specification's result of the argument buffers' launch contents. -/
theorem val4_result (V0 : Vl) :
    val4 V0 (Proc.devRef .tc main_v155) = Cert.Spec.result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  (val4_main_v155 V0).trans ((tail_eq V0).symm.trans (result_eq V0))

/-- The four windows' folds, one after the other, are the fold of all of @main's operations. -/
theorem after_ops (V0 : Vl) : after ops V0 = val4 V0 := by
  simp only [ops, after_append]
  rfl

end Cert.ReferenceIdeal.RefRun

end
-- ==== Proof.RefRun.lean ====
/-
  The reference program's run: on every device, from any memory with zero counters, every weakly fair execution of
  @main terminates with the result buffer at the specification's result of the arguments' launch contents, and the
  argument buffers unchanged.  @main is a straight line of host operations (the outlined functions' operations at
  their call sites), so its run is the fold of the operations over the launch contents, read back window by window.
-/
import proofs.«117729_j22703197127156_1_alg».proof.Proof.RefRun.Val4

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

theorem run [Cert.ReferenceIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v155)
        = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v155).trans (by simp only [after_ops]; exact val4_result (launchContents m c)),
      (h c main_arg0).trans (by simp only [after_ops]; exact val4_main_arg0 (launchContents m c)),
      (h c main_arg1).trans (by simp only [after_ops]; exact val4_main_arg1 (launchContents m c)),
      (h c main_arg2).trans (by simp only [after_ops]; exact val4_main_arg2 (launchContents m c)),
      (h c main_arg3).trans (by simp only [after_ops]; exact val4_main_arg3 (launchContents m c)),
      (h c main_arg4).trans (by simp only [after_ops]; exact val4_main_arg4 (launchContents m c)),
      (h c main_arg5).trans (by simp only [after_ops]; exact val4_main_arg5 (launchContents m c)),
      (h c main_arg6).trans (by simp only [after_ops]; exact val4_main_arg6 (launchContents m c)),
      (h c main_arg7).trans (by simp only [after_ops]; exact val4_main_arg7 (launchContents m c)),
      (h c main_arg8).trans (by simp only [after_ops]; exact val4_main_arg8 (launchContents m c)),
      (h c main_arg9).trans (by simp only [after_ops]; exact val4_main_arg9 (launchContents m c)),
      (h c main_arg10).trans (by simp only [after_ops]; exact val4_main_arg10 (launchContents m c)),
      (h c main_arg11).trans (by simp only [after_ops]; exact val4_main_arg11 (launchContents m c))⟩)
    (run_seq scopedRefs_eq scopedSems_eq defs main (fun _ => ops) main_eq (fun _ => ops_sub) m ρ)

end Cert.ReferenceIdeal.RefRun

end
-- ==== Proof.lean ====
/-
  The five claims for a three-layer graph-convolution embedding with a pairwise ranking loss, computed by a Pallas
  layer kernel (launched once per layer on row tiles of 5000 nodes, between host-side sparse products) and by a plain
  reference.

  * The three frames: each program runs to the end, faults nowhere and leaves its twelve argument arrays unchanged — for
    the two kernel programs from the run through the three launches (each launch's body executed symbolically, its
    result arrays folded from the tiles' write-backs), for the reference from its host run.
  * The idealization rewrote nothing, so there is nothing to preserve.
  * At the extended reals both programs end with the same scalar: the specification's function `Cert.Spec.result` of
    the argument arrays. On the kernel side a row tile's two matrix products are the whole products' rows, the bias
    rows and the rectifier act entry by entry, and a row's norm needs only that row, so the tiles' results are the
    whole-array layer; the sparse products, weight slices and the loss tail are the same host operations on both sides.
    No finiteness of the inputs is used: every step is an equation between the same operations on the same entries.
-/
import proofs.«117729_j22703197127156_1_alg».proof.Defs
import proofs.«117729_j22703197127156_1_alg».proof.Proof.Gen.Kernel
import proofs.«117729_j22703197127156_1_alg».proof.Proof.Gen.KernelIdeal
import proofs.«117729_j22703197127156_1_alg».proof.Proof.Gen.ReferenceIdeal
import proofs.«117729_j22703197127156_1_alg».proof.Proof.Gen.Pre_finite_inputs
import proofs.«117729_j22703197127156_1_alg».proof.Proof.K.Run
import proofs.«117729_j22703197127156_1_alg».proof.Proof.KI.ValueRun
import proofs.«117729_j22703197127156_1_alg».proof.Proof.RefRun

noncomputable section

namespace Cert.Proof

open Idealize.ShloMosaic Idealize.ShloMosaic.TcCoe Idealize.SL.Sem

theorem frame_k : Cert.frame_Kernel := fun m ρ _ =>
  (θ_run (Cert.Kernel.defs (F := Bits)) _ _).mono (fun _ h c => (h c).2) (Cert.Kernel.Hand.run (F := Bits) m ρ)

theorem frame_ki : Cert.frame_KernelIdeal := fun m ρ _ =>
  (θ_run (Cert.KernelIdeal.defs (F := Ideal)) _ _).mono (fun _ h c => (h c).2) (Cert.KernelIdeal.Hand.run (F := Ideal) m ρ)

theorem frame_ri : Cert.frame_ReferenceIdeal := fun m ρ _ =>
  (θ_run (Cert.ReferenceIdeal.defs (F := Ideal)) _ _).mono (fun _ h c => (h c).2) (Cert.ReferenceIdeal.RefRun.run m ρ)

/-- Both idealized programs end at the specification's function of the (agreeing) argument arrays. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run (Cert.KernelIdeal.defs (F := Ideal)) _ _).mono
      (fun _ h c => ⟨(h c).1.trans (Cert.KernelIdeal.Hand.result_eq m c), (h c).2⟩)
      (Cert.KernelIdeal.Hand.run (F := Ideal) m ρ)
  · refine (θ_run (Cert.ReferenceIdeal.defs (F := Ideal)) _ _).mono (fun _ h c => ⟨(h c).1.trans ?_, (h c).2⟩)
      (Cert.ReferenceIdeal.RefRun.run m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
